-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x200 : Shape := ⟨2, ![50000, 200]⟩
abbrev S2x800000 : Shape := ⟨2, ![2, 800000]⟩
abbrev S800000 : Shape := ⟨1, ![800000]⟩
abbrev S200x100 : Shape := ⟨2, ![200, 100]⟩
abbrev S100 : Shape := ⟨1, ![100]⟩
abbrev S100x100 : Shape := ⟨2, ![100, 100]⟩
abbrev S100x50 : Shape := ⟨2, ![100, 50]⟩
abbrev S50 : Shape := ⟨1, ![50]⟩
abbrev S50x50 : Shape := ⟨2, ![50, 50]⟩
abbrev S50x11 : Shape := ⟨2, ![50, 11]⟩
abbrev S11 : Shape := ⟨1, ![11]⟩
abbrev S_ : Shape := ⟨0, ![]⟩

class Facts : Prop where
  bcast_S_S50000x200 : S_.BroadcastsInDim S50000x200 (![] : Fin 0 → Fin S50000x200.rank)
  reducesTo_S50000x200_S_d0_1 : S50000x200.ReducesTo [0, 1] S_
  h_S_ : 0 < S_.numel
  bcast_S_S800000 : S_.BroadcastsInDim S800000 (![] : Fin 0 → Fin S800000.rank)
  reducesTo_S800000_S_d0 : S800000.ReducesTo [0] S_
  bcast_S_S200x100 : S_.BroadcastsInDim S200x100 (![] : Fin 0 → Fin S200x100.rank)
  reducesTo_S200x100_S_d0_1 : S200x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x50 : S_.BroadcastsInDim S100x50 (![] : Fin 0 → Fin S100x50.rank)
  reducesTo_S100x50_S_d0_1 : S100x50.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S50x11 : S_.BroadcastsInDim S50x11 (![] : Fin 0 → Fin S50x11.rank)
  reducesTo_S50x11_S_d0_1 : S50x11.ReducesTo [0, 1] S_
  bcast_S_S11 : S_.BroadcastsInDim S11 (![] : Fin 0 → Fin S11.rank)
  reducesTo_S11_S_d0 : S11.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S50 .f32) (main_arg13 : FVec F S50x11 .f32) (main_arg14 : FVec F S11 .f32) (main_v48 : IVec S_ 1) (main_v49 : FVec F S50x50 .f32) (main_v50 : FVec F S50x50 .f32) : IVec S_ 1 :=
  let main_v51 : IVec S50x50 1 := cmpf .olt main_v49 main_v50
  let main_c_19 : IVec S_ 1 := constantI S_ 1 1#1
  let main_v52 : IVec S_ 1 := (fun x v => Host.reduce IntOp.andi x v reducesTo_S50x50_S_d0_1 h_S_) main_v51 main_c_19
  let main_v53 : IVec S_ 1 := andi main_v48 main_v52
  let main_v54 : FVec F S50 .f32 := Host.absf main_arg12
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_v59 : FVec F S50x11 .f32 := Host.absf main_arg13
  let main_cst_22 : FVec F S_ .f32 := constant S_ .f32 0x7F800000#32
  let main_v60 : FVec F S50x11 .f32 := broadcastInDim S50x11 ![] bcast_S_S50x11 main_cst_22
  let main_v61 : IVec S50x11 1 := cmpf .olt main_v59 main_v60
  let main_c_23 : IVec S_ 1 := constantI S_ 1 1#1
  let main_v62 : IVec S_ 1 := (fun x v => Host.reduce IntOp.andi x v reducesTo_S50x11_S_d0_1 h_S_) main_v61 main_c_23
  let main_v63 : IVec S_ 1 := andi main_v58 main_v62
  let main_v64 : FVec F S11 .f32 := Host.absf main_arg14
  let main_cst_24 : FVec F S_ .f32 := constant S_ .f32 0x7F800000#32
  let main_v65 : FVec F S11 .f32 := broadcastInDim S11 ![] bcast_S_S11 main_cst_24
  let main_v66 : IVec S11 1 := cmpf .olt main_v64 main_v65
  let main_c_25 : IVec S_ 1 := constantI S_ 1 1#1
  let main_v67 : IVec S_ 1 := (fun x v => Host.reduce IntOp.andi x v reducesTo_S11_S_d0 h_S_) main_v66 main_c_25
  fn_part4 (F := F) main_v63 main_v67

def fn_part2 {F : FTy → Type} [FloatOps F] (main_arg8 : FVec F S100 .f32) (main_arg9 : FVec F S100x50 .f32) (main_arg10 : FVec F S50 .f32) (main_arg11 : FVec F S50x50 .f32) (main_arg12 : FVec F S50 .f32) (main_arg13 : FVec F S50x11 .f32) (main_arg14 : FVec F S11 .f32) (main_v33 : IVec S_ 1) : IVec S_ 1 :=
  let main_v34 : FVec F S100 .f32 := Host.absf main_arg8
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x50 .f32 := Host.absf main_arg9
  let main_cst_14 : FVec F S_ .f32 := constant S_ .f32 0x7F800000#32
  let main_v40 : FVec F S100x50 .f32 := broadcastInDim S100x50 ![] bcast_S_S100x50 main_cst_14
  let main_v41 : IVec S100x50 1 := cmpf .olt main_v39 main_v40
  let main_c_15 : IVec S_ 1 := constantI S_ 1 1#1
  let main_v42 : IVec S_ 1 := (fun x v => Host.reduce IntOp.andi x v reducesTo_S100x50_S_d0_1 h_S_) main_v41 main_c_15
  let main_v43 : IVec S_ 1 := andi main_v38 main_v42
  let main_v44 : FVec F S50 .f32 := Host.absf main_arg10
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S50x50 .f32 := Host.absf main_arg11
  let main_cst_18 : FVec F S_ .f32 := constant S_ .f32 0x7F800000#32
  let main_v50 : FVec F S50x50 .f32 := broadcastInDim S50x50 ![] bcast_S_S50x50 main_cst_18
  fn_part3 (F := F) main_arg12 main_arg13 main_arg14 main_v48 main_v49 main_v50

def fn_part1 {F : FTy → Type} [FloatOps F] (main_arg5 : FVec F S100x100 .f32) (main_arg6 : FVec F S100 .f32) (main_arg7 : FVec F S100x100 .f32) (main_arg8 : FVec F S100 .f32) (main_arg9 : FVec F S100x50 .f32) (main_arg10 : FVec F S50 .f32) (main_arg11 : FVec F S50x50 .f32) (main_arg12 : FVec F S50 .f32) (main_arg13 : FVec F S50x11 .f32) (main_arg14 : FVec F S11 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x100 .f32 := Host.absf main_arg5
  let main_cst_6 : FVec F S_ .f32 := constant S_ .f32 0x7F800000#32
  let main_v20 : FVec F S100x100 .f32 := broadcastInDim S100x100 ![] bcast_S_S100x100 main_cst_6
  let main_v21 : IVec S100x100 1 := cmpf .olt main_v19 main_v20
  let main_c_7 : IVec S_ 1 := constantI S_ 1 1#1
  let main_v22 : IVec S_ 1 := (fun x v => Host.reduce IntOp.andi x v reducesTo_S100x100_S_d0_1 h_S_) main_v21 main_c_7
  let main_v23 : IVec S_ 1 := andi main_v18 main_v22
  let main_v24 : FVec F S100 .f32 := Host.absf main_arg6
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x100 .f32 := Host.absf main_arg7
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x200 .f32) (main_arg1 : IVec S2x800000 32) (main_arg2 : FVec F S800000 .f32) (main_arg3 : FVec F S200x100 .f32) (main_arg4 : FVec F S100 .f32) (main_arg5 : FVec F S100x100 .f32) (main_arg6 : FVec F S100 .f32) (main_arg7 : FVec F S100x100 .f32) (main_arg8 : FVec F S100 .f32) (main_arg9 : FVec F S100x50 .f32) (main_arg10 : FVec F S50 .f32) (main_arg11 : FVec F S50x50 .f32) (main_arg12 : FVec F S50 .f32) (main_arg13 : FVec F S50x11 .f32) (main_arg14 : FVec F S11 .f32) : IVec S_ 1 :=
  let main_v0 : FVec F S50000x200 .f32 := Host.absf main_arg0
  let main_cst : FVec F S_ .f32 := constant S_ .f32 0x7F800000#32
  let main_v1 : FVec F S50000x200 .f32 := broadcastInDim S50000x200 ![] bcast_S_S50000x200 main_cst
  let main_v2 : IVec S50000x200 1 := cmpf .olt main_v0 main_v1
  let main_c : IVec S_ 1 := constantI S_ 1 1#1
  let main_v3 : IVec S_ 1 := (fun x v => Host.reduce IntOp.andi x v reducesTo_S50000x200_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S200x100 .f32 := Host.absf main_arg3
  let main_cst_2 : FVec F S_ .f32 := constant S_ .f32 0x7F800000#32
  let main_v10 : FVec F S200x100 .f32 := broadcastInDim S200x100 ![] bcast_S_S200x100 main_cst_2
  let main_v11 : IVec S200x100 1 := cmpf .olt main_v9 main_v10
  let main_c_3 : IVec S_ 1 := constantI S_ 1 1#1
  let main_v12 : IVec S_ 1 := (fun x v => Host.reduce IntOp.andi x v reducesTo_S200x100_S_d0_1 h_S_) main_v11 main_c_3
  let main_v13 : IVec S_ 1 := andi main_v8 main_v12
  let main_v14 : FVec F S100 .f32 := Host.absf main_arg4
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x200 : Shape := ⟨2, ![50000, 200]⟩
abbrev S2x800000 : Shape := ⟨2, ![2, 800000]⟩
abbrev S800000 : Shape := ⟨1, ![800000]⟩
abbrev S200x100 : Shape := ⟨2, ![200, 100]⟩
abbrev S100 : Shape := ⟨1, ![100]⟩
abbrev S100x100 : Shape := ⟨2, ![100, 100]⟩
abbrev S100x50 : Shape := ⟨2, ![100, 50]⟩
abbrev S50 : Shape := ⟨1, ![50]⟩
abbrev S50x50 : Shape := ⟨2, ![50, 50]⟩
abbrev S50x11 : Shape := ⟨2, ![50, 11]⟩
abbrev S11 : Shape := ⟨1, ![11]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x100 : Shape := ⟨2, ![50000, 100]⟩
abbrev S5000x200 : Shape := ⟨2, ![5000, 200]⟩
abbrev S5000x1 : Shape := ⟨2, ![5000, 1]⟩
abbrev S5000x100 : Shape := ⟨2, ![5000, 100]⟩
abbrev S800000x100 : Shape := ⟨2, ![800000, 100]⟩
abbrev S1x100 : Shape := ⟨2, ![1, 100]⟩
abbrev S1x50 : Shape := ⟨2, ![1, 50]⟩
abbrev S1x11 : Shape := ⟨2, ![1, 11]⟩
abbrev S50000x11 : Shape := ⟨2, ![50000, 11]⟩
abbrev S5000x11 : Shape := ⟨2, ![5000, 11]⟩
abbrev S5000x50 : Shape := ⟨2, ![5000, 50]⟩
abbrev S5000 : Shape := ⟨1, ![5000]⟩

abbrev nBuf : Space → Nat
  | .hbm => 96
  | .vmem => 48
  | .smem => 0
  | _ => 0

abbrev bufTy : (tb : Table) → Fin (tcTables nBuf tb) → BufTy
  | .hbm, ⟨0, _⟩ => ⟨S50000x200, .f32⟩
  | .hbm, ⟨1, _⟩ => ⟨S2x800000, .i32⟩
  | .hbm, ⟨2, _⟩ => ⟨S800000, .f32⟩
  | .hbm, ⟨3, _⟩ => ⟨S200x100, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S100x50, .f32⟩
  | .hbm, ⟨10, _⟩ => ⟨S50, .f32⟩
  | .hbm, ⟨11, _⟩ => ⟨S50x50, .f32⟩
  | .hbm, ⟨12, _⟩ => ⟨S50, .f32⟩
  | .hbm, ⟨13, _⟩ => ⟨S50x11, .f32⟩
  | .hbm, ⟨14, _⟩ => ⟨S11, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x100, .f32⟩
  | .hbm, ⟨36, _⟩ => ⟨S50000x100, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x100, .f32⟩
  | .hbm, ⟨46, _⟩ => ⟨S800000x1, .f32⟩
  | .hbm, ⟨47, _⟩ => ⟨S800000x100, .f32⟩
  | .hbm, ⟨48, _⟩ => ⟨S800000x100, .f32⟩
  | .hbm, ⟨49, _⟩ => ⟨S_, .f32⟩
  | .hbm, ⟨50, _⟩ => ⟨S50000x100, .f32⟩
  | .hbm, ⟨51, _⟩ => ⟨S800000x1, .i32⟩
  | .hbm, ⟨52, _⟩ => ⟨S50000x100, .f32⟩
  | .hbm, ⟨53, _⟩ => ⟨S1x100, .f32⟩
  | .hbm, ⟨54, _⟩ => ⟨S50000x100, .f32⟩
  | .hbm, ⟨55, _⟩ => ⟨S50000x100, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x100, .f32⟩
  | .hbm, ⟨65, _⟩ => ⟨S800000x1, .f32⟩
  | .hbm, ⟨66, _⟩ => ⟨S800000x100, .f32⟩
  | .hbm, ⟨67, _⟩ => ⟨S800000x100, .f32⟩
  | .hbm, ⟨68, _⟩ => ⟨S_, .f32⟩
  | .hbm, ⟨69, _⟩ => ⟨S50000x100, .f32⟩
  | .hbm, ⟨70, _⟩ => ⟨S800000x1, .i32⟩
  | .hbm, ⟨71, _⟩ => ⟨S50000x100, .f32⟩
  | .hbm, ⟨72, _⟩ => ⟨S1x100, .f32⟩
  | .hbm, ⟨73, _⟩ => ⟨S50000x100, .f32⟩
  | .hbm, ⟨74, _⟩ => ⟨S50000x100, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x100, .f32⟩
  | .hbm, ⟨84, _⟩ => ⟨S800000x1, .f32⟩
  | .hbm, ⟨85, _⟩ => ⟨S800000x100, .f32⟩
  | .hbm, ⟨86, _⟩ => ⟨S800000x100, .f32⟩
  | .hbm, ⟨87, _⟩ => ⟨S_, .f32⟩
  | .hbm, ⟨88, _⟩ => ⟨S50000x100, .f32⟩
  | .hbm, ⟨89, _⟩ => ⟨S800000x1, .i32⟩
  | .hbm, ⟨90, _⟩ => ⟨S50000x100, .f32⟩
  | .hbm, ⟨91, _⟩ => ⟨S1x100, .f32⟩
  | .hbm, ⟨92, _⟩ => ⟨S1x50, .f32⟩
  | .hbm, ⟨93, _⟩ => ⟨S1x50, .f32⟩
  | .hbm, ⟨94, _⟩ => ⟨S1x11, .f32⟩
  | .hbm, ⟨95, _⟩ => ⟨S50000x11, .f32⟩
  | .local _ .vmem, ⟨0, _⟩ => ⟨S5000x200, .f32⟩
  | .local _ .vmem, ⟨1, _⟩ => ⟨S5000x200, .f32⟩
  | .local _ .vmem, ⟨2, _⟩ => ⟨S200x100, .f32⟩
  | .local _ .vmem, ⟨3, _⟩ => ⟨S5000x1, .f32⟩
  | .local _ .vmem, ⟨4, _⟩ => ⟨S5000x1, .f32⟩
  | .local _ .vmem, ⟨5, _⟩ => ⟨S5000x100, .f32⟩
  | .local _ .vmem, ⟨6, _⟩ => ⟨S5000x100, .f32⟩
  | .local _ .vmem, ⟨7, _⟩ => ⟨S5000x100, .f32⟩
  | .local _ .vmem, ⟨8, _⟩ => ⟨S5000x100, .f32⟩
  | .local _ .vmem, ⟨9, _⟩ => ⟨S5000x100, .f32⟩
  | .local _ .vmem, ⟨10, _⟩ => ⟨S5000x100, .f32⟩
  | .local _ .vmem, ⟨11, _⟩ => ⟨S5000x100, .f32⟩
  | .local _ .vmem, ⟨12, _⟩ => ⟨S5000x100, .f32⟩
  | .local _ .vmem, ⟨13, _⟩ => ⟨S5000x1, .f32⟩
  | .local _ .vmem, ⟨14, _⟩ => ⟨S5000x1, .f32⟩
  | .local _ .vmem, ⟨15, _⟩ => ⟨S1x100, .f32⟩
  | .local _ .vmem, ⟨16, _⟩ => ⟨S100x100, .f32⟩
  | .local _ .vmem, ⟨17, _⟩ => ⟨S5000x100, .f32⟩
  | .local _ .vmem, ⟨18, _⟩ => ⟨S5000x100, .f32⟩
  | .local _ .vmem, ⟨19, _⟩ => ⟨S5000x100, .f32⟩
  | .local _ .vmem, ⟨20, _⟩ => ⟨S5000x100, .f32⟩
  | .local _ .vmem, ⟨21, _⟩ => ⟨S5000x100, .f32⟩
  | .local _ .vmem, ⟨22, _⟩ => ⟨S5000x100, .f32⟩
  | .local _ .vmem, ⟨23, _⟩ => ⟨S5000x100, .f32⟩
  | .local _ .vmem, ⟨24, _⟩ => ⟨S5000x100, .f32⟩
  | .local _ .vmem, ⟨25, _⟩ => ⟨S5000x1, .f32⟩
  | .local _ .vmem, ⟨26, _⟩ => ⟨S5000x1, .f32⟩
  | .local _ .vmem, ⟨27, _⟩ => ⟨S1x100, .f32⟩
  | .local _ .vmem, ⟨28, _⟩ => ⟨S100x100, .f32⟩
  | .local _ .vmem, ⟨29, _⟩ => ⟨S5000x100, .f32⟩
  | .local _ .vmem, ⟨30, _⟩ => ⟨S5000x100, .f32⟩
  | .local _ .vmem, ⟨31, _⟩ => ⟨S5000x100, .f32⟩
  | .local _ .vmem, ⟨32, _⟩ => ⟨S5000x100, .f32⟩
  | .local _ .vmem, ⟨33, _⟩ => ⟨S5000x100, .f32⟩
  | .local _ .vmem, ⟨34, _⟩ => ⟨S5000x100, .f32⟩
  | .local _ .vmem, ⟨35, _⟩ => ⟨S5000x100, .f32⟩
  | .local _ .vmem, ⟨36, _⟩ => ⟨S5000x100, .f32⟩
  | .local _ .vmem, ⟨37, _⟩ => ⟨S5000x1, .f32⟩
  | .local _ .vmem, ⟨38, _⟩ => ⟨S5000x1, .f32⟩
  | .local _ .vmem, ⟨39, _⟩ => ⟨S1x100, .f32⟩
  | .local _ .vmem, ⟨40, _⟩ => ⟨S100x50, .f32⟩
  | .local _ .vmem, ⟨41, _⟩ => ⟨S1x50, .f32⟩
  | .local _ .vmem, ⟨42, _⟩ => ⟨S50x50, .f32⟩
  | .local _ .vmem, ⟨43, _⟩ => ⟨S1x50, .f32⟩
  | .local _ .vmem, ⟨44, _⟩ => ⟨S50x11, .f32⟩
  | .local _ .vmem, ⟨45, _⟩ => ⟨S1x11, .f32⟩
  | .local _ .vmem, ⟨46, _⟩ => ⟨S5000x11, .f32⟩
  | .local _ .vmem, ⟨47, _⟩ => ⟨S5000x11, .f32⟩
  | _, _ => ⟨S50000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44_0 : Ref sig .tc := ⟨.hbm, 73, rfl⟩
abbrev main_v44_1 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg10_0 : Ref sig .tc := ⟨.vmem, 46, rfl⟩
abbrev cc3_stg10_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem9_0 : DmaSem sig := 45
abbrev cc3_sem10_0 : DmaSem sig := 46
abbrev cc3_sem10_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x100 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S100x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x100 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x100 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x100 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S100x50 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x50 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S50x50 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x50 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S50x11 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x11 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x11 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x200_S5000x200_0_0 : ∀ a, (![0, 0] : Fin 2 → Nat) a + S5000x200.size a ≤ S5000x200.size a
  h_S5000x200 : 0 < S5000x200.numel
  bitsLt_bf16_f32 : FTy.bits .bf16 < FTy.bits .f32
  inb_S200x100_S200x100_0_0 : ∀ a, (![0, 0] : Fin 2 → Nat) a + S200x100.size a ≤ S200x100.size a
  h_S200x100 : 0 < S200x100.numel
  inb_S5000x100_S5000x100_0_0 : ∀ a, (![0, 0] : Fin 2 → Nat) a + S5000x100.size a ≤ S5000x100.size a
  h_S5000x100 : 0 < S5000x100.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x100 : S5000x1.Broadcasts S5000x100
  bcast_S_S800000 : S_.BroadcastsInDim S800000 (![] : Fin 0 → Fin S800000.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  shapeCasts_S100_S1x100 : S100.ShapeCasts S1x100
  shapeCasts_S5000x100_S5000x100 : S5000x100.ShapeCasts S5000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  inb_S100x100_S100x100_0_0 : ∀ a, (![0, 0] : Fin 2 → Nat) a + S100x100.size a ≤ S100x100.size a
  h_S100x100 : 0 < S100x100.numel
  shapeCasts_S50_S1x50 : S50.ShapeCasts S1x50
  shapeCasts_S11_S1x11 : S11.ShapeCasts S1x11
  inb_S100x50_S100x50_0_0 : ∀ a, (![0, 0] : Fin 2 → Nat) a + S100x50.size a ≤ S100x50.size a
  h_S100x50 : 0 < S100x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  inb_S50x50_S50x50_0_0 : ∀ a, (![0, 0] : Fin 2 → Nat) a + S50x50.size a ≤ S50x50.size a
  h_S50x50 : 0 < S50x50.numel
  inb_S50x11_S50x11_0_0 : ∀ a, (![0, 0] : Fin 2 → Nat) a + S50x11.size a ≤ S50x11.size a
  h_S50x11 : 0 < S50x11.numel
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S5000x11 : S1x11.Broadcasts S5000x11
  reduces_S5000x11_S5000 : S5000x11.Reduces [1] S5000
  shapeCasts_S5000_S5000x1 : S5000.ShapeCasts S5000x1
  broadcasts_S5000x1_S5000x11 : S5000x1.Broadcasts S5000x11
  inb_S5000x11_S5000x11_0_0 : ∀ a, (![0, 0] : Fin 2 → Nat) a + S5000x11.size a ≤ S5000x11.size a
  h_S5000x11 : 0 < S5000x11.numel
  scatter_S50000_S800000x1_S800000_n_0_0_1_wf : ScatterDims.WF S50000 S800000x1 S800000 [] [0] [0] 1
  dot_S5000x200_S200x100_S5000x100_1_0_0_1_n_n_wf : DotDims.WF S5000x200 S200x100 S5000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S5000x100_S100x100_S5000x100_1_0_0_1_n_n_wf : DotDims.WF S5000x100 S100x100 S5000x100 [1] [0] [0] [1] [] []
  dot_S5000x100_S100x50_S5000x50_1_0_0_1_n_n_wf : DotDims.WF S5000x100 S100x50 S5000x50 [1] [0] [0] [1] [] []
  dot_S5000x50_S50x50_S5000x50_1_0_0_1_n_n_wf : DotDims.WF S5000x50 S50x50 S5000x50 [1] [0] [0] [1] [] []
  dot_S5000x50_S50x11_S5000x11_1_0_0_1_n_n_wf : DotDims.WF S5000x50 S50x11 S5000x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x200.size a ≤ S50000x200.size a
  hwx0_0 : ∀ i : grid0.Coords, EltTy.bits .f32 = 32 ∨ (Rect.block (s := S50000x200) S5000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x100.size a ≤ S200x100.size a
  hwx0_1 : ∀ i : grid0.Coords, EltTy.bits .f32 = 32 ∨ (Rect.block (s := S200x100) S200x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x100.size a ≤ S50000x100.size a
  hwx0_3 : ∀ i : grid0.Coords, EltTy.bits .f32 = 32 ∨ (Rect.block (s := S50000x100) S5000x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x100.size a ≤ S50000x100.size a
  hwx0_4 : ∀ i : grid0.Coords, EltTy.bits .f32 = 32 ∨ (Rect.block (s := S50000x100) S5000x100.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x100.size a ≤ S50000x100.size a
  hwx1_1 : ∀ i : grid1.Coords, EltTy.bits .f32 = 32 ∨ (Rect.block (s := S50000x100) S5000x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x100.size a ≤ S1x100.size a
  hwx1_3 : ∀ i : grid1.Coords, EltTy.bits .f32 = 32 ∨ (Rect.block (s := S1x100) S1x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x100.size a ≤ S100x100.size a
  hwx1_4 : ∀ i : grid1.Coords, EltTy.bits .f32 = 32 ∨ (Rect.block (s := S100x100) S100x100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x100.size a ≤ S50000x100.size a
  hwx1_5 : ∀ i : grid1.Coords, EltTy.bits .f32 = 32 ∨ (Rect.block (s := S50000x100) S5000x100.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x100.size a ≤ S50000x100.size a
  hwx1_6 : ∀ i : grid1.Coords, EltTy.bits .f32 = 32 ∨ (Rect.block (s := S50000x100) S5000x100.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S50000x100.size a
  hwx2_0 : ∀ i : grid2.Coords, EltTy.bits .f32 = 32 ∨ (Rect.block (s := S50000x100) S5000x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x100.size a ≤ S50000x100.size a
  hwx2_1 : ∀ i : grid2.Coords, EltTy.bits .f32 = 32 ∨ (Rect.block (s := S50000x100) S5000x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S100x100.size a ≤ S100x100.size a
  hwx2_4 : ∀ i : grid2.Coords, EltTy.bits .f32 = 32 ∨ (Rect.block (s := S100x100) S100x100.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x100.size a ≤ S50000x100.size a
  hwx2_5 : ∀ i : grid2.Coords, EltTy.bits .f32 = 32 ∨ (Rect.block (s := S50000x100) S5000x100.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x100.size a ≤ S50000x100.size a
  hwx2_6 : ∀ i : grid2.Coords, EltTy.bits .f32 = 32 ∨ (Rect.block (s := S50000x100) S5000x100.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x100.size a ≤ S50000x100.size a
  hwx3_0 : ∀ i : grid3.Coords, EltTy.bits .f32 = 32 ∨ (Rect.block (s := S50000x100) S5000x100.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x100.size a ≤ S50000x100.size a
  hwx3_1 : ∀ i : grid3.Coords, EltTy.bits .f32 = 32 ∨ (Rect.block (s := S50000x100) S5000x100.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x100.size a ≤ S1x100.size a
  hwx3_3 : ∀ i : grid3.Coords, EltTy.bits .f32 = 32 ∨ (Rect.block (s := S1x100) S1x100.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S100x50.size a ≤ S100x50.size a
  hwx3_4 : ∀ i : grid3.Coords, EltTy.bits .f32 = 32 ∨ (Rect.block (s := S100x50) S100x50.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x50.size a ≤ S1x50.size a
  hwx3_5 : ∀ i : grid3.Coords, EltTy.bits .f32 = 32 ∨ (Rect.block (s := S1x50) S1x50.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S50x50.size a ≤ S50x50.size a
  hwx3_6 : ∀ i : grid3.Coords, EltTy.bits .f32 = 32 ∨ (Rect.block (s := S50x50) S50x50.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x50.size a ≤ S1x50.size a
  hwx3_7 : ∀ i : grid3.Coords, EltTy.bits .f32 = 32 ∨ (Rect.block (s := S1x50) S1x50.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S50x11.size a ≤ S50x11.size a
  hwx3_8 : ∀ i : grid3.Coords, EltTy.bits .f32 = 32 ∨ (Rect.block (s := S50x11) S50x11.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x11.size a ≤ S1x11.size a
  hwx3_9 : ∀ i : grid3.Coords, EltTy.bits .f32 = 32 ∨ (Rect.block (s := S1x11) S1x11.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x11.size a ≤ S50000x11.size a
  hwx3_10 : ∀ i : grid3.Coords, EltTy.bits .f32 = 32 ∨ (Rect.block (s := S50000x11) S5000x11.size (cc3_transform_10 i) (hinb3_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x200_S200x100_S5000x100_1_0_0_1_n_n : DotDims S5000x200 S200x100 S5000x100 where
  lhsContracting := [1]
  rhsContracting := [0]
  lhsNonContracting := [0]
  rhsNonContracting := [1]
  lhsBatch := []
  rhsBatch := []
  wf := dot_S5000x200_S200x100_S5000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def dot_S5000x100_S100x50_S5000x50_1_0_0_1_n_n : DotDims S5000x100 S100x50 S5000x50 where
  lhsContracting := [1]
  rhsContracting := [0]
  lhsNonContracting := [0]
  rhsNonContracting := [1]
  lhsBatch := []
  rhsBatch := []
  wf := dot_S5000x100_S100x50_S5000x50_1_0_0_1_n_n_wf
def dot_S5000x50_S50x50_S5000x50_1_0_0_1_n_n : DotDims S5000x50 S50x50 S5000x50 where
  lhsContracting := [1]
  rhsContracting := [0]
  lhsNonContracting := [0]
  rhsNonContracting := [1]
  lhsBatch := []
  rhsBatch := []
  wf := dot_S5000x50_S50x50_S5000x50_1_0_0_1_n_n_wf
def dot_S5000x50_S50x11_S5000x11_1_0_0_1_n_n : DotDims S5000x50 S50x11 S5000x11 where
  lhsContracting := [1]
  rhsContracting := [0]
  lhsNonContracting := [0]
  rhsNonContracting := [1]
  lhsBatch := []
  rhsBatch := []
  wf := dot_S5000x50_S50x11_S5000x11_1_0_0_1_n_n_wf

abbrev win0_0 : Pipeline.Window sig grid0 :=
  Pipeline.Window.ofSpec (Memref.whole main_arg0) S5000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S200x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x100.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S5000x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_0) S5000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S100x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29_0) S5000x100.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_1) S5000x100.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29_0) S5000x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S100x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44_0) S5000x100.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v44_1) S5000x100.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v57) S5000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44_0) S5000x100.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x100.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S100x50.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x50.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S50x50.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v60) S1x50.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg13) S50x11.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v61) S1x11.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v62) S5000x11.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x200 : Shape := ⟨2, ![50000, 200]⟩
abbrev S2x800000 : Shape := ⟨2, ![2, 800000]⟩
abbrev S800000 : Shape := ⟨1, ![800000]⟩
abbrev S200x100 : Shape := ⟨2, ![200, 100]⟩
abbrev S100 : Shape := ⟨1, ![100]⟩
abbrev S100x100 : Shape := ⟨2, ![100, 100]⟩
abbrev S100x50 : Shape := ⟨2, ![100, 50]⟩
abbrev S50 : Shape := ⟨1, ![50]⟩
abbrev S50x50 : Shape := ⟨2, ![50, 50]⟩
abbrev S50x11 : Shape := ⟨2, ![50, 11]⟩
abbrev S11 : Shape := ⟨1, ![11]⟩
abbrev S1x800000 : Shape := ⟨2, ![1, 800000]⟩
abbrev S50000x100 : Shape := ⟨2, ![50000, 100]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x100 : Shape := ⟨2, ![850000, 100]⟩
abbrev S1x100 : Shape := ⟨2, ![1, 100]⟩
abbrev S50000x50 : Shape := ⟨2, ![50000, 50]⟩
abbrev S1x50 : Shape := ⟨2, ![1, 50]⟩
abbrev S50000x11 : Shape := ⟨2, ![50000, 11]⟩
abbrev S1x11 : Shape := ⟨2, ![1, 11]⟩
abbrev S50000x1 : Shape := ⟨2, ![50000, 1]⟩

abbrev nBuf : Space → Nat
  | .hbm => 235
  | .vmem => 0
  | .smem => 0
  | _ => 0

abbrev hbmTy0_0 (i : Nat) : BufTy := match i % 128 with
  | 0 => ⟨S50000x200, .f32⟩
  | 1 => ⟨S2x800000, .i32⟩
  | 2 => ⟨S800000, .f32⟩
  | 3 => ⟨S200x100, .f32⟩
  | 4 => ⟨S100, .f32⟩
  | 5 => ⟨S100x100, .f32⟩
  | 6 => ⟨S100, .f32⟩
  | 7 => ⟨S100x100, .f32⟩
  | 8 => ⟨S100, .f32⟩
  | 9 => ⟨S100x50, .f32⟩
  | 10 => ⟨S50, .f32⟩
  | 11 => ⟨S50x50, .f32⟩
  | 12 => ⟨S50, .f32⟩
  | 13 => ⟨S50x11, .f32⟩
  | 14 => ⟨S11, .f32⟩
  | 15 => ⟨S1x800000, .i32⟩
  | 16 => ⟨S800000, .i32⟩
  | 17 => ⟨S1x800000, .i32⟩
  | 18 => ⟨S800000, .i32⟩
  | 19 => ⟨S50000x100, .f32⟩
  | 20 => ⟨S50000, .i32⟩
  | 21 => ⟨S850000, .i32⟩
  | 22 => ⟨S850000, .i32⟩
  | 23 => ⟨S_, .f32⟩
  | 24 => ⟨S50000, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x100, .f32⟩
  | 67 => ⟨S850000x1, .f32⟩
  | 68 => ⟨S850000x100, .f32⟩
  | 69 => ⟨S850000x100, .f32⟩
  | 70 => ⟨S_, .f32⟩
  | 71 => ⟨S50000x100, .f32⟩
  | 72 => ⟨S850000x1, .i32⟩
  | 73 => ⟨S50000x100, .f32⟩
  | 74 => ⟨S1x100, .f32⟩
  | 75 => ⟨S50000x100, .f32⟩
  | 76 => ⟨S50000x100, .f32⟩
  | 77 => ⟨S_, .f32⟩
  | 78 => ⟨S50000x100, .f32⟩
  | 79 => ⟨S50000x100, .f32⟩
  | 80 => ⟨S50000x100, .f32⟩
  | 81 => ⟨S50000, .i32⟩
  | 82 => ⟨S850000, .i32⟩
  | 83 => ⟨S850000, .i32⟩
  | 84 => ⟨S_, .f32⟩
  | 85 => ⟨S50000, .f32⟩
  | 86 => ⟨S850000, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x100, .f32⟩
  | _ => ⟨S50000x200, .f32⟩

abbrev hbmTy0_1 (i : Nat) : BufTy := match i % 128 with
  | 0 => ⟨S850000x1, .f32⟩
  | 1 => ⟨S850000x100, .f32⟩
  | 2 => ⟨S850000x100, .f32⟩
  | 3 => ⟨S_, .f32⟩
  | 4 => ⟨S50000x100, .f32⟩
  | 5 => ⟨S850000x1, .i32⟩
  | 6 => ⟨S50000x100, .f32⟩
  | 7 => ⟨S1x100, .f32⟩
  | 8 => ⟨S50000x100, .f32⟩
  | 9 => ⟨S50000x100, .f32⟩
  | 10 => ⟨S_, .f32⟩
  | 11 => ⟨S50000x100, .f32⟩
  | 12 => ⟨S50000x100, .f32⟩
  | 13 => ⟨S50000x100, .f32⟩
  | 14 => ⟨S50000, .i32⟩
  | 15 => ⟨S850000, .i32⟩
  | 16 => ⟨S850000, .i32⟩
  | 17 => ⟨S_, .f32⟩
  | 18 => ⟨S50000, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x100, .f32⟩
  | 61 => ⟨S850000x1, .f32⟩
  | 62 => ⟨S850000x100, .f32⟩
  | 63 => ⟨S850000x100, .f32⟩
  | 64 => ⟨S_, .f32⟩
  | 65 => ⟨S50000x100, .f32⟩
  | 66 => ⟨S850000x1, .i32⟩
  | 67 => ⟨S50000x100, .f32⟩
  | 68 => ⟨S1x100, .f32⟩
  | 69 => ⟨S50000x100, .f32⟩
  | 70 => ⟨S50000x100, .f32⟩
  | 71 => ⟨S_, .f32⟩
  | 72 => ⟨S50000x100, .f32⟩
  | 73 => ⟨S50000x100, .f32⟩
  | 74 => ⟨S50000x50, .f32⟩
  | 75 => ⟨S1x50, .f32⟩
  | 76 => ⟨S50000x50, .f32⟩
  | 77 => ⟨S50000x50, .f32⟩
  | 78 => ⟨S_, .f32⟩
  | 79 => ⟨S50000x50, .f32⟩
  | 80 => ⟨S50000x50, .f32⟩
  | 81 => ⟨S50000x50, .f32⟩
  | 82 => ⟨S1x50, .f32⟩
  | 83 => ⟨S50000x50, .f32⟩
  | 84 => ⟨S50000x50, .f32⟩
  | 85 => ⟨S_, .f32⟩
  | 86 => ⟨S50000x50, .f32⟩
  | 87 => ⟨S50000x50, .f32⟩
  | 88 => ⟨S50000x11, .f32⟩
  | 89 => ⟨S1x11, .f32⟩
  | 90 => ⟨S50000x11, .f32⟩
  | 91 => ⟨S50000x11, .f32⟩
  | 92 => ⟨S_, .f32⟩
  | 93 => ⟨S50000, .f32⟩
  | 94 => ⟨S_, .f32⟩
  | 95 => ⟨S50000, .f32⟩
  | 96 => ⟨S50000, .f32⟩
  | 97 => ⟨S50000x1, .f32⟩
  | 98 => ⟨S50000x11, .f32⟩
  | 99 => ⟨S50000x11, .f32⟩
  | 100 => ⟨S50000x11, .f32⟩
  | 101 => ⟨S_, .f32⟩
  | 102 => ⟨S50000, .f32⟩
  | 103 => ⟨S50000x1, .f32⟩
  | 104 => ⟨S50000x1, .f32⟩
  | 105 => ⟨S50000x11, .f32⟩
  | 106 => ⟨S50000x11, .f32⟩
  | _ => ⟨S50000x200, .f32⟩

abbrev hbmTy (i : Nat) : BufTy := match i / 128 with
  | 0 => hbmTy0_0 i
  | 1 => hbmTy0_1 i
  | _ => ⟨S50000x200, .f32⟩

abbrev bufTy : (tb : Table) → Fin (tcTables nBuf tb) → BufTy
  | .hbm, ⟨i, _⟩ => hbmTy i
  | _, _ => ⟨S50000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_cst : Ref sig .tc := ⟨.hbm, 77, rfl⟩
abbrev main_call1_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_v62 : Ref sig .tc := ⟨.hbm, 98, rfl⟩
abbrev main_c_13 : Ref sig .tc := ⟨.hbm, 99, rfl⟩
abbrev main_v63 : Ref sig .tc := ⟨.hbm, 100, rfl⟩
abbrev main_v64 : Ref sig .tc := ⟨.hbm, 101, rfl⟩
abbrev main_c_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_15 : Ref sig .tc := ⟨.hbm, 109, rfl⟩
abbrev main_v71 : Ref sig .tc := ⟨.hbm, 110, rfl⟩
abbrev main_v72 : Ref sig .tc := ⟨.hbm, 111, rfl⟩
abbrev main_c_16 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_c_18 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call3_cst : Ref sig .tc := ⟨.hbm, 138, rfl⟩
abbrev main_call3_v0 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_20 : Ref sig .tc := ⟨.hbm, 145, rfl⟩
abbrev main_v100 : Ref sig .tc := ⟨.hbm, 146, rfl⟩
abbrev main_v101 : Ref sig .tc := ⟨.hbm, 147, rfl⟩
abbrev main_cst_21 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_22 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_23 : Ref sig .tc := ⟨.hbm, 156, rfl⟩
abbrev main_call4_v0 : Ref sig .tc := ⟨.hbm, 157, rfl⟩
abbrev main_call4_v1 : Ref sig .tc := ⟨.hbm, 158, rfl⟩
abbrev main_v108 : Ref sig .tc := ⟨.hbm, 159, rfl⟩
abbrev main_c_24 : Ref sig .tc := ⟨.hbm, 160, rfl⟩
abbrev main_v109 : Ref sig .tc := ⟨.hbm, 161, rfl⟩
abbrev main_v110 : Ref sig .tc := ⟨.hbm, 162, rfl⟩
abbrev main_c_25 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_26 : Ref sig .tc := ⟨.hbm, 170, rfl⟩
abbrev main_v117 : Ref sig .tc := ⟨.hbm, 171, rfl⟩
abbrev main_v118 : Ref sig .tc := ⟨.hbm, 172, rfl⟩
abbrev main_c_27 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_c_28 : Ref sig .tc := ⟨.hbm, 180, rfl⟩
abbrev main_v125 : Ref sig .tc := ⟨.hbm, 181, rfl⟩
abbrev main_v126 : Ref sig .tc := ⟨.hbm, 182, rfl⟩
abbrev main_c_29 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_30 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_call5_cst : Ref sig .tc := ⟨.hbm, 199, rfl⟩
abbrev main_call5_v0 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_call6_cst : Ref sig .tc := ⟨.hbm, 206, rfl⟩
abbrev main_call6_v0 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_call7_cst : Ref sig .tc := ⟨.hbm, 213, rfl⟩
abbrev main_call7_v0 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_call8_cst : Ref sig .tc := ⟨.hbm, 220, rfl⟩
abbrev main_call8_v0 : Ref sig .tc := ⟨.hbm, 221, rfl⟩
abbrev main_call8_cst_0 : Ref sig .tc := ⟨.hbm, 222, rfl⟩
abbrev main_call8_v1 : Ref sig .tc := ⟨.hbm, 223, rfl⟩
abbrev main_call8_v2 : Ref sig .tc := ⟨.hbm, 224, rfl⟩
abbrev main_call8_v3 : Ref sig .tc := ⟨.hbm, 225, rfl⟩
abbrev main_call8_v4 : Ref sig .tc := ⟨.hbm, 226, rfl⟩
abbrev main_call8_v5 : Ref sig .tc := ⟨.hbm, 227, rfl⟩
abbrev main_call8_v6 : Ref sig .tc := ⟨.hbm, 228, rfl⟩
abbrev main_call8_cst_1 : Ref sig .tc := ⟨.hbm, 229, rfl⟩
abbrev main_call8_v7 : Ref sig .tc := ⟨.hbm, 230, rfl⟩
abbrev main_call8_v8 : Ref sig .tc := ⟨.hbm, 231, rfl⟩
abbrev main_call8_v9 : Ref sig .tc := ⟨.hbm, 232, rfl⟩
abbrev main_call8_v10 : Ref sig .tc := ⟨.hbm, 233, rfl⟩
abbrev main_v156 : Ref sig .tc := ⟨.hbm, 234, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  bcast_S_S50000x50 : S_.BroadcastsInDim S50000x50 (![] : Fin 0 → Fin S50000x50.rank)
  bcast_S11_S1x11_1 : S11.BroadcastsInDim S1x11 (![1] : Fin 1 → Fin S1x11.rank)
  bcast_S1x11_S50000x11_0_1 : S1x11.BroadcastsInDim S50000x11 (![0, 1] : Fin 2 → Fin S50000x11.rank)
  reducesTo_S50000x11_S50000_d1 : S50000x11.ReducesTo [1] S50000
  h_S_ : 0 < S_.numel
  bcast_S50000_S50000x1_0 : S50000.BroadcastsInDim S50000x1 (![0] : Fin 1 → Fin S50000x1.rank)
  bcast_S50000x1_S50000x11_0_1 : S50000x1.BroadcastsInDim S50000x11 (![0, 1] : Fin 2 → Fin S50000x11.rank)
  dot_S50000x200_S200x100_S50000x100_1_0_0_1_n_n_wf : DotDims.WF S50000x200 S200x100 S50000x100 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S50000x100_S100x100_S50000x100_1_0_0_1_n_n_wf : DotDims.WF S50000x100 S100x100 S50000x100 [1] [0] [0] [1] [] []
  dot_S50000x100_S100x50_S50000x50_1_0_0_1_n_n_wf : DotDims.WF S50000x100 S100x50 S50000x50 [1] [0] [0] [1] [] []
  dot_S50000x50_S50x50_S50000x50_1_0_0_1_n_n_wf : DotDims.WF S50000x50 S50x50 S50000x50 [1] [0] [0] [1] [] []
  dot_S50000x50_S50x11_S50000x11_1_0_0_1_n_n_wf : DotDims.WF S50000x50 S50x11 S50000x11 [1] [0] [0] [1] [] []

variable [Facts₀]

def dot_S50000x200_S200x100_S50000x100_1_0_0_1_n_n : DotDims S50000x200 S200x100 S50000x100 where
  lhsContracting := [1]
  rhsContracting := [0]
  lhsNonContracting := [0]
  rhsNonContracting := [1]
  lhsBatch := []
  rhsBatch := []
  wf := dot_S50000x200_S200x100_S50000x100_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def dot_S50000x100_S100x50_S50000x50_1_0_0_1_n_n : DotDims S50000x100 S100x50 S50000x50 where
  lhsContracting := [1]
  rhsContracting := [0]
  lhsNonContracting := [0]
  rhsNonContracting := [1]
  lhsBatch := []
  rhsBatch := []
  wf := dot_S50000x100_S100x50_S50000x50_1_0_0_1_n_n_wf
def dot_S50000x50_S50x50_S50000x50_1_0_0_1_n_n : DotDims S50000x50 S50x50 S50000x50 where
  lhsContracting := [1]
  rhsContracting := [0]
  lhsNonContracting := [0]
  rhsNonContracting := [1]
  lhsBatch := []
  rhsBatch := []
  wf := dot_S50000x50_S50x50_S50000x50_1_0_0_1_n_n_wf
def dot_S50000x50_S50x11_S50000x11_1_0_0_1_n_n : DotDims S50000x50 S50x11 S50000x11 where
  lhsContracting := [1]
  rhsContracting := [0]
  lhsNonContracting := [0]
  rhsNonContracting := [1]
  lhsBatch := []
  rhsBatch := []
  wf := dot_S50000x50_S50x11_S50000x11_1_0_0_1_n_n_wf

class Facts : Prop extends Facts₀ where

variable [Facts]
-- ==== Proof.KRun.lean ====
/-
  The idealized kernel program's run with its result named: every weakly fair execution terminates without
  a fault, the result buffer ends at the contents the last region's write-backs leave (the fold of the
  program's segments from the launch memory, read at the result buffer), and the argument arrays end as
  launched.
-/
import proofs.«110852_j50414326120717_2_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run_value : θ_run defs (onTc (τ := τ) (main (F := F))) ⟨m, fun _ => 0, ρ⟩ (fun r => ∀ c : Dev nD,
      r.2.mem ((c.tc : Thread nD τ).loc main_v62) = W10 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v62 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.KVal

end
-- ==== Proof.KHostDefs.lean ====
/-
  The host operations the kernel program runs around its four regions, as pure functions of the arrays
  they read: the two rows of the edge list as flat arrays of index words, the degree (the scatter-add of the
  edge weights at the destination words, plus one), the inverse root degree as a column, the edge sum of a
  layer (gather the rows at the wrapped source words, scale by the edge weight, scatter-add at the
  destination words), and a bias vector laid out as a one-row matrix.
-/
import proofs.«110852_j50414326120717_2_alg».proof.KernelIdeal
import proofs.«110852_j50414326120717_2_alg».proof.Proof.Gen.KernelIdeal
import Idealize.ShloMosaic.PureOps.Ideal

noncomputable section

namespace Cert.KernelIdeal.KVal

open Cert.KernelIdeal Idealize.ShloMosaic
open Cert.KernelIdeal.Facts₀ Cert.KernelIdeal.Facts

/-- The source words: row 0 of the edge list, flat. -/
def srcT (ei : (⟨S2x800000, .i32⟩ : BufTy).Contents (Elt Ideal)) : (⟨S800000, .i32⟩ : BufTy).Contents (Elt Ideal) :=
  fun i => shapeCast S800000 (extractStridedSlice S1x800000 ![0, 0] ei slices_S2x800000_S1x800000_0_0) shapeCasts_S1x800000_S800000 i

/-- The destination words: row 1 of the edge list, flat. -/
def dstT (ei : (⟨S2x800000, .i32⟩ : BufTy).Contents (Elt Ideal)) : (⟨S800000, .i32⟩ : BufTy).Contents (Elt Ideal) :=
  fun i => shapeCast S800000 (extractStridedSlice S1x800000 ![1, 0] ei slices_S2x800000_S1x800000_1_0) shapeCasts_S1x800000_S800000 i

/-- The degree: edge weights scatter-added at the destination words into zeros, plus one. -/
def degT (ei : (⟨S2x800000, .i32⟩ : BufTy).Contents (Elt Ideal)) (ew : (⟨S800000, .f32⟩ : BufTy).Contents (Elt Ideal)) :
    (⟨S50000, .f32⟩ : BufTy).Contents (Elt Ideal) :=
  addf (F := Ideal)
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (dstT ei))
      ew)
    (broadcastInDim S50000 ![] bcast_S_S50000 (constant (F := Ideal) S_ .f32 0x3F800000#32))

/-- The inverse root degree: 1/√deg where the degree is positive, zero elsewhere. -/
def dinvT (ei : (⟨S2x800000, .i32⟩ : BufTy).Contents (Elt Ideal)) (ew : (⟨S800000, .f32⟩ : BufTy).Contents (Elt Ideal)) :
    (⟨S50000, .f32⟩ : BufTy).Contents (Elt Ideal) :=
  select (cmpf (F := Ideal) (φ := .f32) .ogt (degT ei ew) (broadcastInDim S50000 ![] bcast_S_S50000 (constant (F := Ideal) S_ .f32 0x00000000#32)))
    (Host.rsqrt (F := Ideal) (φ := .f32) (degT ei ew))
    (broadcastInDim S50000 ![] bcast_S_S50000 (constant (F := Ideal) S_ .f32 0x00000000#32))

/-- The inverse root degree laid out as a column. -/
def dinvColT (ei : (⟨S2x800000, .i32⟩ : BufTy).Contents (Elt Ideal)) (ew : (⟨S800000, .f32⟩ : BufTy).Contents (Elt Ideal)) :
    (⟨S50000x1, .f32⟩ : BufTy).Contents (Elt Ideal) :=
  fun i => shapeCast S50000x1 (dinvT ei ew) shapeCasts_S50000_S50000x1 i

/-- The edge sum of a layer: rows gathered at the wrapped source words, scaled by the edge weights,
    scatter-added at the destination words into zeros. -/
def aggT (src dst : (⟨S800000, .i32⟩ : BufTy).Contents (Elt Ideal)) (ew : (⟨S800000, .f32⟩ : BufTy).Contents (Elt Ideal))
    (hs : (⟨S50000x100, .f32⟩ : BufTy).Contents (Elt Ideal)) : (⟨S50000x100, .f32⟩ : BufTy).Contents (Elt Ideal) :=
  Host.scatterAdd (F := Ideal) scatter_S50000x100_S800000x1_S800000x100_1_0_0_1
    (broadcastInDim S50000x100 ![] bcast_S_S50000x100 (constant (F := Ideal) S_ .f32 0x00000000#32))
    (broadcastInDim S800000x1 ![0] bcast_S800000_S800000x1_0 dst)
    (mulf (F := Ideal)
      (Host.gather gather_S50000x100_S800000x1_S800000x100_1_0_n_n_0_1_1100 hs
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32)))
            src)))
      (broadcastInDim S800000x100 ![0, 1] bcast_S800000x1_S800000x100_0_1
        (broadcastInDim S800000x1 ![0] bcast_S800000_S800000x1_0 ew)))

/-- A bias vector of 100 entries as a one-row matrix. -/
def row100T (b : (⟨S100, .f32⟩ : BufTy).Contents (Elt Ideal)) : (⟨S1x100, .f32⟩ : BufTy).Contents (Elt Ideal) :=
  fun i => shapeCast S1x100 b shapeCasts_S100_S1x100 i
/-- A bias vector of 50 entries as a one-row matrix. -/
def row50T (b : (⟨S50, .f32⟩ : BufTy).Contents (Elt Ideal)) : (⟨S1x50, .f32⟩ : BufTy).Contents (Elt Ideal) :=
  fun i => shapeCast S1x50 b shapeCasts_S50_S1x50 i
/-- A bias vector of 11 entries as a one-row matrix. -/
def row11T (b : (⟨S11, .f32⟩ : BufTy).Contents (Elt Ideal)) : (⟨S1x11, .f32⟩ : BufTy).Contents (Elt Ideal) :=
  fun i => shapeCast S1x11 b shapeCasts_S11_S1x11 i

end Cert.KernelIdeal.KVal

end
-- ==== Proof.KChain.lean ====
/-
  The kernel program's buffers followed through its segments: a buffer that a stretch of host operations
  does not write, and that a region does not write back, holds after the segment what it held before. With
  these the contents each region finds in its windows' arrays are read back to the launch memory and to the
  earlier regions' outputs.
-/
import proofs.«110852_j50414326120717_2_alg».proof.Proof.Gen.KernelIdeal.Frame
import proofs.«110852_j50414326120717_2_alg».proof.Proof.KHostDefs
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## One segment at a time: a buffer the segment leaves alone -/

theorem W1_main_arg0 (c : Dev nD) : W1 m ρ c (Proc.devRef .tc main_arg0) = W0 m ρ c (Proc.devRef .tc main_arg0) := by
  show StableHlo.after hostOps0 (W0 m ρ c) (Proc.devRef .tc main_arg0) = _
  dsimp only [hostOps0]
  after_results

theorem W2_main_arg0 (c : Dev nD) : W2 m ρ c (Proc.devRef .tc main_arg0) = W1 m ρ c (Proc.devRef .tc main_arg0) := by
  show StableHlo.after hostOps0_1 (W1 m ρ c) (Proc.devRef .tc main_arg0) = _
  dsimp only [hostOps0_1]
  after_results

theorem W3_main_arg0 (c : Dev nD) : W3 m ρ c (Proc.devRef .tc main_arg0) = W2 m ρ c (Proc.devRef .tc main_arg0) := by
  show StableHlo.after hostOps0_2 (W2 m ρ c) (Proc.devRef .tc main_arg0) = _
  dsimp only [hostOps0_2]
  after_results

theorem W1_main_arg3 (c : Dev nD) : W1 m ρ c (Proc.devRef .tc main_arg3) = W0 m ρ c (Proc.devRef .tc main_arg3) := by
  show StableHlo.after hostOps0 (W0 m ρ c) (Proc.devRef .tc main_arg3) = _
  dsimp only [hostOps0]
  after_results

theorem W2_main_arg3 (c : Dev nD) : W2 m ρ c (Proc.devRef .tc main_arg3) = W1 m ρ c (Proc.devRef .tc main_arg3) := by
  show StableHlo.after hostOps0_1 (W1 m ρ c) (Proc.devRef .tc main_arg3) = _
  dsimp only [hostOps0_1]
  after_results

theorem W3_main_arg3 (c : Dev nD) : W3 m ρ c (Proc.devRef .tc main_arg3) = W2 m ρ c (Proc.devRef .tc main_arg3) := by
  show StableHlo.after hostOps0_2 (W2 m ρ c) (Proc.devRef .tc main_arg3) = _
  dsimp only [hostOps0_2]
  after_results

theorem W1_main_arg4 (c : Dev nD) : W1 m ρ c (Proc.devRef .tc main_arg4) = W0 m ρ c (Proc.devRef .tc main_arg4) := by
  show StableHlo.after hostOps0 (W0 m ρ c) (Proc.devRef .tc main_arg4) = _
  dsimp only [hostOps0]
  after_results

theorem W2_main_arg4 (c : Dev nD) : W2 m ρ c (Proc.devRef .tc main_arg4) = W1 m ρ c (Proc.devRef .tc main_arg4) := by
  show StableHlo.after hostOps0_1 (W1 m ρ c) (Proc.devRef .tc main_arg4) = _
  dsimp only [hostOps0_1]
  after_results

theorem W3_main_arg4 (c : Dev nD) : W3 m ρ c (Proc.devRef .tc main_arg4) = W2 m ρ c (Proc.devRef .tc main_arg4) := by
  show StableHlo.after hostOps0_2 (W2 m ρ c) (Proc.devRef .tc main_arg4) = _
  dsimp only [hostOps0_2]
  after_results

theorem W4_main_arg4 (c : Dev nD) : W4 m ρ c (Proc.devRef .tc main_arg4) = W3 m ρ c (Proc.devRef .tc main_arg4) :=
  W4_of_ne m ρ c main_arg4 (by decide)

theorem W5_main_arg4 (c : Dev nD) : W5 m ρ c (Proc.devRef .tc main_arg4) = W4 m ρ c (Proc.devRef .tc main_arg4) := by
  show StableHlo.after hostOps1 (W4 m ρ c) (Proc.devRef .tc main_arg4) = _
  dsimp only [hostOps1]
  after_results

theorem W1_main_arg5 (c : Dev nD) : W1 m ρ c (Proc.devRef .tc main_arg5) = W0 m ρ c (Proc.devRef .tc main_arg5) := by
  show StableHlo.after hostOps0 (W0 m ρ c) (Proc.devRef .tc main_arg5) = _
  dsimp only [hostOps0]
  after_results

theorem W2_main_arg5 (c : Dev nD) : W2 m ρ c (Proc.devRef .tc main_arg5) = W1 m ρ c (Proc.devRef .tc main_arg5) := by
  show StableHlo.after hostOps0_1 (W1 m ρ c) (Proc.devRef .tc main_arg5) = _
  dsimp only [hostOps0_1]
  after_results

theorem W3_main_arg5 (c : Dev nD) : W3 m ρ c (Proc.devRef .tc main_arg5) = W2 m ρ c (Proc.devRef .tc main_arg5) := by
  show StableHlo.after hostOps0_2 (W2 m ρ c) (Proc.devRef .tc main_arg5) = _
  dsimp only [hostOps0_2]
  after_results

theorem W4_main_arg5 (c : Dev nD) : W4 m ρ c (Proc.devRef .tc main_arg5) = W3 m ρ c (Proc.devRef .tc main_arg5) :=
  W4_of_ne m ρ c main_arg5 (by decide)

theorem W5_main_arg5 (c : Dev nD) : W5 m ρ c (Proc.devRef .tc main_arg5) = W4 m ρ c (Proc.devRef .tc main_arg5) := by
  show StableHlo.after hostOps1 (W4 m ρ c) (Proc.devRef .tc main_arg5) = _
  dsimp only [hostOps1]
  after_results

theorem W1_main_arg6 (c : Dev nD) : W1 m ρ c (Proc.devRef .tc main_arg6) = W0 m ρ c (Proc.devRef .tc main_arg6) := by
  show StableHlo.after hostOps0 (W0 m ρ c) (Proc.devRef .tc main_arg6) = _
  dsimp only [hostOps0]
  after_results

theorem W2_main_arg6 (c : Dev nD) : W2 m ρ c (Proc.devRef .tc main_arg6) = W1 m ρ c (Proc.devRef .tc main_arg6) := by
  show StableHlo.after hostOps0_1 (W1 m ρ c) (Proc.devRef .tc main_arg6) = _
  dsimp only [hostOps0_1]
  after_results

theorem W3_main_arg6 (c : Dev nD) : W3 m ρ c (Proc.devRef .tc main_arg6) = W2 m ρ c (Proc.devRef .tc main_arg6) := by
  show StableHlo.after hostOps0_2 (W2 m ρ c) (Proc.devRef .tc main_arg6) = _
  dsimp only [hostOps0_2]
  after_results

theorem W4_main_arg6 (c : Dev nD) : W4 m ρ c (Proc.devRef .tc main_arg6) = W3 m ρ c (Proc.devRef .tc main_arg6) :=
  W4_of_ne m ρ c main_arg6 (by decide)

theorem W5_main_arg6 (c : Dev nD) : W5 m ρ c (Proc.devRef .tc main_arg6) = W4 m ρ c (Proc.devRef .tc main_arg6) := by
  show StableHlo.after hostOps1 (W4 m ρ c) (Proc.devRef .tc main_arg6) = _
  dsimp only [hostOps1]
  after_results

theorem W6_main_arg6 (c : Dev nD) : W6 m ρ c (Proc.devRef .tc main_arg6) = W5 m ρ c (Proc.devRef .tc main_arg6) :=
  W6_of_ne m ρ c main_arg6 (by decide)

theorem W7_main_arg6 (c : Dev nD) : W7 m ρ c (Proc.devRef .tc main_arg6) = W6 m ρ c (Proc.devRef .tc main_arg6) := by
  show StableHlo.after hostOps2 (W6 m ρ c) (Proc.devRef .tc main_arg6) = _
  dsimp only [hostOps2]
  after_results

theorem W1_main_arg7 (c : Dev nD) : W1 m ρ c (Proc.devRef .tc main_arg7) = W0 m ρ c (Proc.devRef .tc main_arg7) := by
  show StableHlo.after hostOps0 (W0 m ρ c) (Proc.devRef .tc main_arg7) = _
  dsimp only [hostOps0]
  after_results

theorem W2_main_arg7 (c : Dev nD) : W2 m ρ c (Proc.devRef .tc main_arg7) = W1 m ρ c (Proc.devRef .tc main_arg7) := by
  show StableHlo.after hostOps0_1 (W1 m ρ c) (Proc.devRef .tc main_arg7) = _
  dsimp only [hostOps0_1]
  after_results

theorem W3_main_arg7 (c : Dev nD) : W3 m ρ c (Proc.devRef .tc main_arg7) = W2 m ρ c (Proc.devRef .tc main_arg7) := by
  show StableHlo.after hostOps0_2 (W2 m ρ c) (Proc.devRef .tc main_arg7) = _
  dsimp only [hostOps0_2]
  after_results

theorem W4_main_arg7 (c : Dev nD) : W4 m ρ c (Proc.devRef .tc main_arg7) = W3 m ρ c (Proc.devRef .tc main_arg7) :=
  W4_of_ne m ρ c main_arg7 (by decide)

theorem W5_main_arg7 (c : Dev nD) : W5 m ρ c (Proc.devRef .tc main_arg7) = W4 m ρ c (Proc.devRef .tc main_arg7) := by
  show StableHlo.after hostOps1 (W4 m ρ c) (Proc.devRef .tc main_arg7) = _
  dsimp only [hostOps1]
  after_results

theorem W6_main_arg7 (c : Dev nD) : W6 m ρ c (Proc.devRef .tc main_arg7) = W5 m ρ c (Proc.devRef .tc main_arg7) :=
  W6_of_ne m ρ c main_arg7 (by decide)

theorem W7_main_arg7 (c : Dev nD) : W7 m ρ c (Proc.devRef .tc main_arg7) = W6 m ρ c (Proc.devRef .tc main_arg7) := by
  show StableHlo.after hostOps2 (W6 m ρ c) (Proc.devRef .tc main_arg7) = _
  dsimp only [hostOps2]
  after_results

theorem W1_main_arg8 (c : Dev nD) : W1 m ρ c (Proc.devRef .tc main_arg8) = W0 m ρ c (Proc.devRef .tc main_arg8) := by
  show StableHlo.after hostOps0 (W0 m ρ c) (Proc.devRef .tc main_arg8) = _
  dsimp only [hostOps0]
  after_results

theorem W2_main_arg8 (c : Dev nD) : W2 m ρ c (Proc.devRef .tc main_arg8) = W1 m ρ c (Proc.devRef .tc main_arg8) := by
  show StableHlo.after hostOps0_1 (W1 m ρ c) (Proc.devRef .tc main_arg8) = _
  dsimp only [hostOps0_1]
  after_results

theorem W3_main_arg8 (c : Dev nD) : W3 m ρ c (Proc.devRef .tc main_arg8) = W2 m ρ c (Proc.devRef .tc main_arg8) := by
  show StableHlo.after hostOps0_2 (W2 m ρ c) (Proc.devRef .tc main_arg8) = _
  dsimp only [hostOps0_2]
  after_results

theorem W4_main_arg8 (c : Dev nD) : W4 m ρ c (Proc.devRef .tc main_arg8) = W3 m ρ c (Proc.devRef .tc main_arg8) :=
  W4_of_ne m ρ c main_arg8 (by decide)

theorem W5_main_arg8 (c : Dev nD) : W5 m ρ c (Proc.devRef .tc main_arg8) = W4 m ρ c (Proc.devRef .tc main_arg8) := by
  show StableHlo.after hostOps1 (W4 m ρ c) (Proc.devRef .tc main_arg8) = _
  dsimp only [hostOps1]
  after_results

theorem W6_main_arg8 (c : Dev nD) : W6 m ρ c (Proc.devRef .tc main_arg8) = W5 m ρ c (Proc.devRef .tc main_arg8) :=
  W6_of_ne m ρ c main_arg8 (by decide)

theorem W7_main_arg8 (c : Dev nD) : W7 m ρ c (Proc.devRef .tc main_arg8) = W6 m ρ c (Proc.devRef .tc main_arg8) := by
  show StableHlo.after hostOps2 (W6 m ρ c) (Proc.devRef .tc main_arg8) = _
  dsimp only [hostOps2]
  after_results

theorem W8_main_arg8 (c : Dev nD) : W8 m ρ c (Proc.devRef .tc main_arg8) = W7 m ρ c (Proc.devRef .tc main_arg8) :=
  W8_of_ne m ρ c main_arg8 (by decide)

theorem W9_main_arg8 (c : Dev nD) : W9 m ρ c (Proc.devRef .tc main_arg8) = W8 m ρ c (Proc.devRef .tc main_arg8) := by
  show StableHlo.after hostOps3 (W8 m ρ c) (Proc.devRef .tc main_arg8) = _
  dsimp only [hostOps3]
  after_results

theorem W1_main_arg9 (c : Dev nD) : W1 m ρ c (Proc.devRef .tc main_arg9) = W0 m ρ c (Proc.devRef .tc main_arg9) := by
  show StableHlo.after hostOps0 (W0 m ρ c) (Proc.devRef .tc main_arg9) = _
  dsimp only [hostOps0]
  after_results

theorem W2_main_arg9 (c : Dev nD) : W2 m ρ c (Proc.devRef .tc main_arg9) = W1 m ρ c (Proc.devRef .tc main_arg9) := by
  show StableHlo.after hostOps0_1 (W1 m ρ c) (Proc.devRef .tc main_arg9) = _
  dsimp only [hostOps0_1]
  after_results

theorem W3_main_arg9 (c : Dev nD) : W3 m ρ c (Proc.devRef .tc main_arg9) = W2 m ρ c (Proc.devRef .tc main_arg9) := by
  show StableHlo.after hostOps0_2 (W2 m ρ c) (Proc.devRef .tc main_arg9) = _
  dsimp only [hostOps0_2]
  after_results

theorem W4_main_arg9 (c : Dev nD) : W4 m ρ c (Proc.devRef .tc main_arg9) = W3 m ρ c (Proc.devRef .tc main_arg9) :=
  W4_of_ne m ρ c main_arg9 (by decide)

theorem W5_main_arg9 (c : Dev nD) : W5 m ρ c (Proc.devRef .tc main_arg9) = W4 m ρ c (Proc.devRef .tc main_arg9) := by
  show StableHlo.after hostOps1 (W4 m ρ c) (Proc.devRef .tc main_arg9) = _
  dsimp only [hostOps1]
  after_results

theorem W6_main_arg9 (c : Dev nD) : W6 m ρ c (Proc.devRef .tc main_arg9) = W5 m ρ c (Proc.devRef .tc main_arg9) :=
  W6_of_ne m ρ c main_arg9 (by decide)

theorem W7_main_arg9 (c : Dev nD) : W7 m ρ c (Proc.devRef .tc main_arg9) = W6 m ρ c (Proc.devRef .tc main_arg9) := by
  show StableHlo.after hostOps2 (W6 m ρ c) (Proc.devRef .tc main_arg9) = _
  dsimp only [hostOps2]
  after_results

theorem W8_main_arg9 (c : Dev nD) : W8 m ρ c (Proc.devRef .tc main_arg9) = W7 m ρ c (Proc.devRef .tc main_arg9) :=
  W8_of_ne m ρ c main_arg9 (by decide)

theorem W9_main_arg9 (c : Dev nD) : W9 m ρ c (Proc.devRef .tc main_arg9) = W8 m ρ c (Proc.devRef .tc main_arg9) := by
  show StableHlo.after hostOps3 (W8 m ρ c) (Proc.devRef .tc main_arg9) = _
  dsimp only [hostOps3]
  after_results

theorem W1_main_arg10 (c : Dev nD) : W1 m ρ c (Proc.devRef .tc main_arg10) = W0 m ρ c (Proc.devRef .tc main_arg10) := by
  show StableHlo.after hostOps0 (W0 m ρ c) (Proc.devRef .tc main_arg10) = _
  dsimp only [hostOps0]
  after_results

theorem W2_main_arg10 (c : Dev nD) : W2 m ρ c (Proc.devRef .tc main_arg10) = W1 m ρ c (Proc.devRef .tc main_arg10) := by
  show StableHlo.after hostOps0_1 (W1 m ρ c) (Proc.devRef .tc main_arg10) = _
  dsimp only [hostOps0_1]
  after_results

theorem W3_main_arg10 (c : Dev nD) : W3 m ρ c (Proc.devRef .tc main_arg10) = W2 m ρ c (Proc.devRef .tc main_arg10) := by
  show StableHlo.after hostOps0_2 (W2 m ρ c) (Proc.devRef .tc main_arg10) = _
  dsimp only [hostOps0_2]
  after_results

theorem W4_main_arg10 (c : Dev nD) : W4 m ρ c (Proc.devRef .tc main_arg10) = W3 m ρ c (Proc.devRef .tc main_arg10) :=
  W4_of_ne m ρ c main_arg10 (by decide)

theorem W5_main_arg10 (c : Dev nD) : W5 m ρ c (Proc.devRef .tc main_arg10) = W4 m ρ c (Proc.devRef .tc main_arg10) := by
  show StableHlo.after hostOps1 (W4 m ρ c) (Proc.devRef .tc main_arg10) = _
  dsimp only [hostOps1]
  after_results

theorem W6_main_arg10 (c : Dev nD) : W6 m ρ c (Proc.devRef .tc main_arg10) = W5 m ρ c (Proc.devRef .tc main_arg10) :=
  W6_of_ne m ρ c main_arg10 (by decide)

theorem W7_main_arg10 (c : Dev nD) : W7 m ρ c (Proc.devRef .tc main_arg10) = W6 m ρ c (Proc.devRef .tc main_arg10) := by
  show StableHlo.after hostOps2 (W6 m ρ c) (Proc.devRef .tc main_arg10) = _
  dsimp only [hostOps2]
  after_results

theorem W8_main_arg10 (c : Dev nD) : W8 m ρ c (Proc.devRef .tc main_arg10) = W7 m ρ c (Proc.devRef .tc main_arg10) :=
  W8_of_ne m ρ c main_arg10 (by decide)

theorem W9_main_arg10 (c : Dev nD) : W9 m ρ c (Proc.devRef .tc main_arg10) = W8 m ρ c (Proc.devRef .tc main_arg10) := by
  show StableHlo.after hostOps3 (W8 m ρ c) (Proc.devRef .tc main_arg10) = _
  dsimp only [hostOps3]
  after_results

theorem W1_main_arg11 (c : Dev nD) : W1 m ρ c (Proc.devRef .tc main_arg11) = W0 m ρ c (Proc.devRef .tc main_arg11) := by
  show StableHlo.after hostOps0 (W0 m ρ c) (Proc.devRef .tc main_arg11) = _
  dsimp only [hostOps0]
  after_results

theorem W2_main_arg11 (c : Dev nD) : W2 m ρ c (Proc.devRef .tc main_arg11) = W1 m ρ c (Proc.devRef .tc main_arg11) := by
  show StableHlo.after hostOps0_1 (W1 m ρ c) (Proc.devRef .tc main_arg11) = _
  dsimp only [hostOps0_1]
  after_results

theorem W3_main_arg11 (c : Dev nD) : W3 m ρ c (Proc.devRef .tc main_arg11) = W2 m ρ c (Proc.devRef .tc main_arg11) := by
  show StableHlo.after hostOps0_2 (W2 m ρ c) (Proc.devRef .tc main_arg11) = _
  dsimp only [hostOps0_2]
  after_results

theorem W4_main_arg11 (c : Dev nD) : W4 m ρ c (Proc.devRef .tc main_arg11) = W3 m ρ c (Proc.devRef .tc main_arg11) :=
  W4_of_ne m ρ c main_arg11 (by decide)

theorem W5_main_arg11 (c : Dev nD) : W5 m ρ c (Proc.devRef .tc main_arg11) = W4 m ρ c (Proc.devRef .tc main_arg11) := by
  show StableHlo.after hostOps1 (W4 m ρ c) (Proc.devRef .tc main_arg11) = _
  dsimp only [hostOps1]
  after_results

theorem W6_main_arg11 (c : Dev nD) : W6 m ρ c (Proc.devRef .tc main_arg11) = W5 m ρ c (Proc.devRef .tc main_arg11) :=
  W6_of_ne m ρ c main_arg11 (by decide)

theorem W7_main_arg11 (c : Dev nD) : W7 m ρ c (Proc.devRef .tc main_arg11) = W6 m ρ c (Proc.devRef .tc main_arg11) := by
  show StableHlo.after hostOps2 (W6 m ρ c) (Proc.devRef .tc main_arg11) = _
  dsimp only [hostOps2]
  after_results

theorem W8_main_arg11 (c : Dev nD) : W8 m ρ c (Proc.devRef .tc main_arg11) = W7 m ρ c (Proc.devRef .tc main_arg11) :=
  W8_of_ne m ρ c main_arg11 (by decide)

theorem W9_main_arg11 (c : Dev nD) : W9 m ρ c (Proc.devRef .tc main_arg11) = W8 m ρ c (Proc.devRef .tc main_arg11) := by
  show StableHlo.after hostOps3 (W8 m ρ c) (Proc.devRef .tc main_arg11) = _
  dsimp only [hostOps3]
  after_results

theorem W1_main_arg12 (c : Dev nD) : W1 m ρ c (Proc.devRef .tc main_arg12) = W0 m ρ c (Proc.devRef .tc main_arg12) := by
  show StableHlo.after hostOps0 (W0 m ρ c) (Proc.devRef .tc main_arg12) = _
  dsimp only [hostOps0]
  after_results

theorem W2_main_arg12 (c : Dev nD) : W2 m ρ c (Proc.devRef .tc main_arg12) = W1 m ρ c (Proc.devRef .tc main_arg12) := by
  show StableHlo.after hostOps0_1 (W1 m ρ c) (Proc.devRef .tc main_arg12) = _
  dsimp only [hostOps0_1]
  after_results

theorem W3_main_arg12 (c : Dev nD) : W3 m ρ c (Proc.devRef .tc main_arg12) = W2 m ρ c (Proc.devRef .tc main_arg12) := by
  show StableHlo.after hostOps0_2 (W2 m ρ c) (Proc.devRef .tc main_arg12) = _
  dsimp only [hostOps0_2]
  after_results

theorem W4_main_arg12 (c : Dev nD) : W4 m ρ c (Proc.devRef .tc main_arg12) = W3 m ρ c (Proc.devRef .tc main_arg12) :=
  W4_of_ne m ρ c main_arg12 (by decide)

theorem W5_main_arg12 (c : Dev nD) : W5 m ρ c (Proc.devRef .tc main_arg12) = W4 m ρ c (Proc.devRef .tc main_arg12) := by
  show StableHlo.after hostOps1 (W4 m ρ c) (Proc.devRef .tc main_arg12) = _
  dsimp only [hostOps1]
  after_results

theorem W6_main_arg12 (c : Dev nD) : W6 m ρ c (Proc.devRef .tc main_arg12) = W5 m ρ c (Proc.devRef .tc main_arg12) :=
  W6_of_ne m ρ c main_arg12 (by decide)

theorem W7_main_arg12 (c : Dev nD) : W7 m ρ c (Proc.devRef .tc main_arg12) = W6 m ρ c (Proc.devRef .tc main_arg12) := by
  show StableHlo.after hostOps2 (W6 m ρ c) (Proc.devRef .tc main_arg12) = _
  dsimp only [hostOps2]
  after_results

theorem W8_main_arg12 (c : Dev nD) : W8 m ρ c (Proc.devRef .tc main_arg12) = W7 m ρ c (Proc.devRef .tc main_arg12) :=
  W8_of_ne m ρ c main_arg12 (by decide)

theorem W9_main_arg12 (c : Dev nD) : W9 m ρ c (Proc.devRef .tc main_arg12) = W8 m ρ c (Proc.devRef .tc main_arg12) := by
  show StableHlo.after hostOps3 (W8 m ρ c) (Proc.devRef .tc main_arg12) = _
  dsimp only [hostOps3]
  after_results

theorem W1_main_arg13 (c : Dev nD) : W1 m ρ c (Proc.devRef .tc main_arg13) = W0 m ρ c (Proc.devRef .tc main_arg13) := by
  show StableHlo.after hostOps0 (W0 m ρ c) (Proc.devRef .tc main_arg13) = _
  dsimp only [hostOps0]
  after_results

theorem W2_main_arg13 (c : Dev nD) : W2 m ρ c (Proc.devRef .tc main_arg13) = W1 m ρ c (Proc.devRef .tc main_arg13) := by
  show StableHlo.after hostOps0_1 (W1 m ρ c) (Proc.devRef .tc main_arg13) = _
  dsimp only [hostOps0_1]
  after_results

theorem W3_main_arg13 (c : Dev nD) : W3 m ρ c (Proc.devRef .tc main_arg13) = W2 m ρ c (Proc.devRef .tc main_arg13) := by
  show StableHlo.after hostOps0_2 (W2 m ρ c) (Proc.devRef .tc main_arg13) = _
  dsimp only [hostOps0_2]
  after_results

theorem W4_main_arg13 (c : Dev nD) : W4 m ρ c (Proc.devRef .tc main_arg13) = W3 m ρ c (Proc.devRef .tc main_arg13) :=
  W4_of_ne m ρ c main_arg13 (by decide)

theorem W5_main_arg13 (c : Dev nD) : W5 m ρ c (Proc.devRef .tc main_arg13) = W4 m ρ c (Proc.devRef .tc main_arg13) := by
  show StableHlo.after hostOps1 (W4 m ρ c) (Proc.devRef .tc main_arg13) = _
  dsimp only [hostOps1]
  after_results

theorem W6_main_arg13 (c : Dev nD) : W6 m ρ c (Proc.devRef .tc main_arg13) = W5 m ρ c (Proc.devRef .tc main_arg13) :=
  W6_of_ne m ρ c main_arg13 (by decide)

theorem W7_main_arg13 (c : Dev nD) : W7 m ρ c (Proc.devRef .tc main_arg13) = W6 m ρ c (Proc.devRef .tc main_arg13) := by
  show StableHlo.after hostOps2 (W6 m ρ c) (Proc.devRef .tc main_arg13) = _
  dsimp only [hostOps2]
  after_results

theorem W8_main_arg13 (c : Dev nD) : W8 m ρ c (Proc.devRef .tc main_arg13) = W7 m ρ c (Proc.devRef .tc main_arg13) :=
  W8_of_ne m ρ c main_arg13 (by decide)

theorem W9_main_arg13 (c : Dev nD) : W9 m ρ c (Proc.devRef .tc main_arg13) = W8 m ρ c (Proc.devRef .tc main_arg13) := by
  show StableHlo.after hostOps3 (W8 m ρ c) (Proc.devRef .tc main_arg13) = _
  dsimp only [hostOps3]
  after_results

theorem W1_main_arg14 (c : Dev nD) : W1 m ρ c (Proc.devRef .tc main_arg14) = W0 m ρ c (Proc.devRef .tc main_arg14) := by
  show StableHlo.after hostOps0 (W0 m ρ c) (Proc.devRef .tc main_arg14) = _
  dsimp only [hostOps0]
  after_results

theorem W2_main_arg14 (c : Dev nD) : W2 m ρ c (Proc.devRef .tc main_arg14) = W1 m ρ c (Proc.devRef .tc main_arg14) := by
  show StableHlo.after hostOps0_1 (W1 m ρ c) (Proc.devRef .tc main_arg14) = _
  dsimp only [hostOps0_1]
  after_results

theorem W3_main_arg14 (c : Dev nD) : W3 m ρ c (Proc.devRef .tc main_arg14) = W2 m ρ c (Proc.devRef .tc main_arg14) := by
  show StableHlo.after hostOps0_2 (W2 m ρ c) (Proc.devRef .tc main_arg14) = _
  dsimp only [hostOps0_2]
  after_results

theorem W4_main_arg14 (c : Dev nD) : W4 m ρ c (Proc.devRef .tc main_arg14) = W3 m ρ c (Proc.devRef .tc main_arg14) :=
  W4_of_ne m ρ c main_arg14 (by decide)

theorem W5_main_arg14 (c : Dev nD) : W5 m ρ c (Proc.devRef .tc main_arg14) = W4 m ρ c (Proc.devRef .tc main_arg14) := by
  show StableHlo.after hostOps1 (W4 m ρ c) (Proc.devRef .tc main_arg14) = _
  dsimp only [hostOps1]
  after_results

theorem W6_main_arg14 (c : Dev nD) : W6 m ρ c (Proc.devRef .tc main_arg14) = W5 m ρ c (Proc.devRef .tc main_arg14) :=
  W6_of_ne m ρ c main_arg14 (by decide)

theorem W7_main_arg14 (c : Dev nD) : W7 m ρ c (Proc.devRef .tc main_arg14) = W6 m ρ c (Proc.devRef .tc main_arg14) := by
  show StableHlo.after hostOps2 (W6 m ρ c) (Proc.devRef .tc main_arg14) = _
  dsimp only [hostOps2]
  after_results

theorem W8_main_arg14 (c : Dev nD) : W8 m ρ c (Proc.devRef .tc main_arg14) = W7 m ρ c (Proc.devRef .tc main_arg14) :=
  W8_of_ne m ρ c main_arg14 (by decide)

theorem W9_main_arg14 (c : Dev nD) : W9 m ρ c (Proc.devRef .tc main_arg14) = W8 m ρ c (Proc.devRef .tc main_arg14) := by
  show StableHlo.after hostOps3 (W8 m ρ c) (Proc.devRef .tc main_arg14) = _
  dsimp only [hostOps3]
  after_results

theorem W1_main_arg2 (c : Dev nD) : W1 m ρ c (Proc.devRef .tc main_arg2) = W0 m ρ c (Proc.devRef .tc main_arg2) := by
  show StableHlo.after hostOps0 (W0 m ρ c) (Proc.devRef .tc main_arg2) = _
  dsimp only [hostOps0]
  after_results

theorem W2_main_arg2 (c : Dev nD) : W2 m ρ c (Proc.devRef .tc main_arg2) = W1 m ρ c (Proc.devRef .tc main_arg2) := by
  show StableHlo.after hostOps0_1 (W1 m ρ c) (Proc.devRef .tc main_arg2) = _
  dsimp only [hostOps0_1]
  after_results

theorem W3_main_arg2 (c : Dev nD) : W3 m ρ c (Proc.devRef .tc main_arg2) = W2 m ρ c (Proc.devRef .tc main_arg2) := by
  show StableHlo.after hostOps0_2 (W2 m ρ c) (Proc.devRef .tc main_arg2) = _
  dsimp only [hostOps0_2]
  after_results

theorem W4_main_arg2 (c : Dev nD) : W4 m ρ c (Proc.devRef .tc main_arg2) = W3 m ρ c (Proc.devRef .tc main_arg2) :=
  W4_of_ne m ρ c main_arg2 (by decide)

theorem W5_main_arg2 (c : Dev nD) : W5 m ρ c (Proc.devRef .tc main_arg2) = W4 m ρ c (Proc.devRef .tc main_arg2) := by
  show StableHlo.after hostOps1 (W4 m ρ c) (Proc.devRef .tc main_arg2) = _
  dsimp only [hostOps1]
  after_results

theorem W6_main_arg2 (c : Dev nD) : W6 m ρ c (Proc.devRef .tc main_arg2) = W5 m ρ c (Proc.devRef .tc main_arg2) :=
  W6_of_ne m ρ c main_arg2 (by decide)

theorem W7_main_arg2 (c : Dev nD) : W7 m ρ c (Proc.devRef .tc main_arg2) = W6 m ρ c (Proc.devRef .tc main_arg2) := by
  show StableHlo.after hostOps2 (W6 m ρ c) (Proc.devRef .tc main_arg2) = _
  dsimp only [hostOps2]
  after_results

theorem W8_main_arg2 (c : Dev nD) : W8 m ρ c (Proc.devRef .tc main_arg2) = W7 m ρ c (Proc.devRef .tc main_arg2) :=
  W8_of_ne m ρ c main_arg2 (by decide)

theorem W2_main_v1 (c : Dev nD) : W2 m ρ c (Proc.devRef .tc main_v1) = W1 m ρ c (Proc.devRef .tc main_v1) := by
  show StableHlo.after hostOps0_1 (W1 m ρ c) (Proc.devRef .tc main_v1) = _
  dsimp only [hostOps0_1]
  after_results

theorem W3_main_v1 (c : Dev nD) : W3 m ρ c (Proc.devRef .tc main_v1) = W2 m ρ c (Proc.devRef .tc main_v1) := by
  show StableHlo.after hostOps0_2 (W2 m ρ c) (Proc.devRef .tc main_v1) = _
  dsimp only [hostOps0_2]
  after_results

theorem W4_main_v1 (c : Dev nD) : W4 m ρ c (Proc.devRef .tc main_v1) = W3 m ρ c (Proc.devRef .tc main_v1) :=
  W4_of_ne m ρ c main_v1 (by decide)

theorem W5_main_v1 (c : Dev nD) : W5 m ρ c (Proc.devRef .tc main_v1) = W4 m ρ c (Proc.devRef .tc main_v1) := by
  show StableHlo.after hostOps1 (W4 m ρ c) (Proc.devRef .tc main_v1) = _
  dsimp only [hostOps1]
  after_results

theorem W6_main_v1 (c : Dev nD) : W6 m ρ c (Proc.devRef .tc main_v1) = W5 m ρ c (Proc.devRef .tc main_v1) :=
  W6_of_ne m ρ c main_v1 (by decide)

theorem W7_main_v1 (c : Dev nD) : W7 m ρ c (Proc.devRef .tc main_v1) = W6 m ρ c (Proc.devRef .tc main_v1) := by
  show StableHlo.after hostOps2 (W6 m ρ c) (Proc.devRef .tc main_v1) = _
  dsimp only [hostOps2]
  after_results

theorem W8_main_v1 (c : Dev nD) : W8 m ρ c (Proc.devRef .tc main_v1) = W7 m ρ c (Proc.devRef .tc main_v1) :=
  W8_of_ne m ρ c main_v1 (by decide)

theorem W2_main_v3 (c : Dev nD) : W2 m ρ c (Proc.devRef .tc main_v3) = W1 m ρ c (Proc.devRef .tc main_v3) := by
  show StableHlo.after hostOps0_1 (W1 m ρ c) (Proc.devRef .tc main_v3) = _
  dsimp only [hostOps0_1]
  after_results

theorem W3_main_v3 (c : Dev nD) : W3 m ρ c (Proc.devRef .tc main_v3) = W2 m ρ c (Proc.devRef .tc main_v3) := by
  show StableHlo.after hostOps0_2 (W2 m ρ c) (Proc.devRef .tc main_v3) = _
  dsimp only [hostOps0_2]
  after_results

theorem W4_main_v3 (c : Dev nD) : W4 m ρ c (Proc.devRef .tc main_v3) = W3 m ρ c (Proc.devRef .tc main_v3) :=
  W4_of_ne m ρ c main_v3 (by decide)

theorem W5_main_v3 (c : Dev nD) : W5 m ρ c (Proc.devRef .tc main_v3) = W4 m ρ c (Proc.devRef .tc main_v3) := by
  show StableHlo.after hostOps1 (W4 m ρ c) (Proc.devRef .tc main_v3) = _
  dsimp only [hostOps1]
  after_results

theorem W6_main_v3 (c : Dev nD) : W6 m ρ c (Proc.devRef .tc main_v3) = W5 m ρ c (Proc.devRef .tc main_v3) :=
  W6_of_ne m ρ c main_v3 (by decide)

theorem W7_main_v3 (c : Dev nD) : W7 m ρ c (Proc.devRef .tc main_v3) = W6 m ρ c (Proc.devRef .tc main_v3) := by
  show StableHlo.after hostOps2 (W6 m ρ c) (Proc.devRef .tc main_v3) = _
  dsimp only [hostOps2]
  after_results

theorem W8_main_v3 (c : Dev nD) : W8 m ρ c (Proc.devRef .tc main_v3) = W7 m ρ c (Proc.devRef .tc main_v3) :=
  W8_of_ne m ρ c main_v3 (by decide)

theorem W4_main_v13 (c : Dev nD) : W4 m ρ c (Proc.devRef .tc main_v13) = W3 m ρ c (Proc.devRef .tc main_v13) :=
  (W4_arr m ρ c 2).trans (((dat0 (V3 m ρ) c).arrAt_in 2 rfl _).trans (A_eq0 (V3 m ρ) c 2))

theorem W5_main_v13 (c : Dev nD) : W5 m ρ c (Proc.devRef .tc main_v13) = W4 m ρ c (Proc.devRef .tc main_v13) := by
  show StableHlo.after hostOps1 (W4 m ρ c) (Proc.devRef .tc main_v13) = _
  dsimp only [hostOps1]
  after_results

theorem W6_main_v13 (c : Dev nD) : W6 m ρ c (Proc.devRef .tc main_v13) = W5 m ρ c (Proc.devRef .tc main_v13) :=
  (W6_arr m ρ c 2).trans (((dat1 (V5 m ρ) c).arrAt_in 2 rfl _).trans (A_eq1 (V5 m ρ) c 2))

theorem W7_main_v13 (c : Dev nD) : W7 m ρ c (Proc.devRef .tc main_v13) = W6 m ρ c (Proc.devRef .tc main_v13) := by
  show StableHlo.after hostOps2 (W6 m ρ c) (Proc.devRef .tc main_v13) = _
  dsimp only [hostOps2]
  after_results

theorem W8_main_v13 (c : Dev nD) : W8 m ρ c (Proc.devRef .tc main_v13) = W7 m ρ c (Proc.devRef .tc main_v13) :=
  (W8_arr m ρ c 2).trans (((dat2 (V7 m ρ) c).arrAt_in 2 rfl _).trans (A_eq2 (V7 m ρ) c 2))

theorem W9_main_v13 (c : Dev nD) : W9 m ρ c (Proc.devRef .tc main_v13) = W8 m ρ c (Proc.devRef .tc main_v13) := by
  show StableHlo.after hostOps3 (W8 m ρ c) (Proc.devRef .tc main_v13) = _
  dsimp only [hostOps3]
  after_results

theorem W5_main_v14_0 (c : Dev nD) : W5 m ρ c (Proc.devRef .tc main_v14_0) = W4 m ρ c (Proc.devRef .tc main_v14_0) := by
  show StableHlo.after hostOps1 (W4 m ρ c) (Proc.devRef .tc main_v14_0) = _
  dsimp only [hostOps1]
  after_results

theorem W7_main_v29_0 (c : Dev nD) : W7 m ρ c (Proc.devRef .tc main_v29_0) = W6 m ρ c (Proc.devRef .tc main_v29_0) := by
  show StableHlo.after hostOps2 (W6 m ρ c) (Proc.devRef .tc main_v29_0) = _
  dsimp only [hostOps2]
  after_results

theorem W9_main_v44_0 (c : Dev nD) : W9 m ρ c (Proc.devRef .tc main_v44_0) = W8 m ρ c (Proc.devRef .tc main_v44_0) := by
  show StableHlo.after hostOps3 (W8 m ρ c) (Proc.devRef .tc main_v44_0) = _
  dsimp only [hostOps3]
  after_results

end Cert.KernelIdeal.KVal

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.Spec.lean ====
/-
  The network both programs compute, written index by index over the extended reals.

  A graph on 50000 nodes with 800000 weighted edges; edge e carries two index words (source, destination) and
  a weight. Three graph-convolution layers, each "multiply the features by a weight matrix, aggregate over
  incoming edges with the symmetric normalisation D^(-1/2) (A + I) D^(-1/2), add a bias, clamp at zero", then
  a three-layer perceptron and a row-wise log-softmax.

  Two spellings of one layer are given. In the first (`net`) the degree is the edge sum plus one, the
  features are scaled by the inverse root degree before the edge sum and once more after it, and the self
  loop is the dense term dinv² · h. In the second (`refnet`) 50000 self-loop edges of weight one are appended
  to the edge list and every edge's message is scaled by dinv(source) · weight · dinv(destination).

  An edge's destination word lands on node i when, read as a signed integer, it equals i (no wrapping, no
  clamping: words outside the node range contribute nothing). A read of a node by an index word wraps a
  negative word by adding 50000 and then clamps into the node range.
-/
import Idealize.ShloMosaic.Lib.ValueIdx
import Idealize.ShloMosaic.PureOps.Ideal
import Idealize.ShloMosaic.PureOps.Ideal.Laws

noncomputable section

namespace GcnSpec

open Idealize.ShloMosaic Idealize.ShloMosaic.ValueIdx
open scoped BigOperators

/-- A real-valued matrix of the given extents. -/
abbrev Mat (m n : Nat) : Type := (⟨2, ![m, n]⟩ : Shape).Idx → EReal
/-- A real-valued vector of the given extent. -/
abbrev Arr (n : Nat) : Type := (⟨1, ![n]⟩ : Shape).Idx → EReal
/-- The edge list: row 0 the source words, row 1 the destination words. -/
abbrev Edges : Type := (⟨2, ![2, 800000]⟩ : Shape).Idx → BitVec 32

/-- Source word of edge e. -/
def srcW (ei : Edges) (e : Fin 800000) : BitVec 32 := ei (ix2 (0 : Fin 2) e)
/-- Destination word of edge e. -/
def dstW (ei : Edges) (e : Fin 800000) : BitVec 32 := ei (ix2 (1 : Fin 2) e)
/-- Weight of edge e. -/
def wgt (ew : Arr 800000) (e : Fin 800000) : EReal := ew (ix1 e)

/-- An index word wrapped the array-indexing way: a negative word has the node count added. -/
def wrapW (v : BitVec 32) : BitVec 32 := if v.slt 0#32 then v + 50000#32 else v
/-- The node an index word reads: wrapped, read signed, clamped into the node range. -/
def node (v : BitVec 32) : Fin 50000 := ⟨min (wrapW v).toInt.toNat 49999, by omega⟩

/-- The inverse root degree: 1/√x for positive x, zero otherwise. -/
def gate (x : EReal) : EReal := if 0 < x then Ideal.rsqrt x else 0

/-- Matrix product: entry (r, c) is the sum over k of left (r, k) · right (k, c). -/
def mm {M K N : Nat} (x : Mat M K) (w : Mat K N) : Mat M N :=
  fun i => ∑ k : Fin K, x (ix2 (i 0) k) * w (ix2 k (i 1))

/-- Add a bias row to every row and clamp at zero. -/
def biasRelu {M N : Nat} (x : Mat M N) (b : Arr N) : Mat M N := fun i => max (x i + b (ix1 (i 1))) 0
/-- Add a bias row to every row. -/
def bias {M N : Nat} (x : Mat M N) (b : Arr N) : Mat M N := fun i => x i + b (ix1 (i 1))

/-- The largest entry of row r (the fold of max from −∞ over the row). -/
def rowMax {M N : Nat} (x : Mat M N) (r : Fin M) : EReal :=
  (Finset.univ : Finset (Fin N)).fold max (⊥ : EReal) (fun f => x (ix2 r f))

/-- Row-wise log-softmax: subtract the row maximum, then the logarithm of the row's sum of exponentials. -/
def logSoftmax {M N : Nat} (x : Mat M N) : Mat M N := fun i =>
  (x i - rowMax x (i 0)) - Ideal.log (∑ f : Fin N, Ideal.exp (x (ix2 (i 0) f) - rowMax x (i 0)))

/-- The perceptron head and the log-softmax. -/
def head (x : Mat 50000 100) (Wm1 : Mat 100 50) (bm1 : Arr 50) (Wm2 : Mat 50 50) (bm2 : Arr 50)
    (Wm3 : Mat 50 11) (bm3 : Arr 11) : Mat 50000 11 :=
  logSoftmax (bias (mm (biasRelu (mm (biasRelu (mm x Wm1) bm1) Wm2) bm2) Wm3) bm3)

/-! ## First spelling: degree as edge sum plus one, scale before and after the edge sum -/

/-- Degree of node i: the weights of the edges landing on i, plus one for the self loop. -/
def deg (ei : Edges) (ew : Arr 800000) (i : Fin 50000) : EReal :=
  ((0 : EReal) + ∑ e : Fin 800000 with (dstW ei e).toInt = (i.val : Int), wgt ew e) + 1
/-- Inverse root degree of node i. -/
def dinv (ei : Edges) (ew : Arr 800000) (i : Fin 50000) : EReal := gate (deg ei ew i)

/-- Features with row i scaled by dinv i. -/
def scaled (ei : Edges) (ew : Arr 800000) (h : Mat 50000 100) : Mat 50000 100 :=
  fun i => h i * dinv ei ew (i 0)
/-- The edge sum: at (i, f), over the edges landing on i, the scaled feature f of the edge's source times the edge's weight. -/
def agg (ei : Edges) (ew : Arr 800000) (hs : Mat 50000 100) : Mat 50000 100 :=
  fun i => (0 : EReal) + ∑ e : Fin 800000 with (dstW ei e).toInt = ((i 0).val : Int), hs (ix2 (node (srcW ei e)) (i 1)) * wgt ew e
/-- One layer after the matrix product: dinv · edge sum + dinv² · own features + bias, clamped at zero. -/
def finish (ei : Edges) (ew : Arr 800000) (a h : Mat 50000 100) (b : Arr 100) : Mat 50000 100 :=
  fun i => max ((dinv ei ew (i 0) * a i + (dinv ei ew (i 0) * dinv ei ew (i 0)) * h i) + b (ix1 (i 1))) 0
/-- One whole layer from its input features. -/
def layer {K : Nat} (ei : Edges) (ew : Arr 800000) (x : Mat 50000 K) (W : Mat K 100) (b : Arr 100) : Mat 50000 100 :=
  finish ei ew (agg ei ew (scaled ei ew (mm x W))) (mm x W) b

/-- The network, first spelling. -/
def net (x : Mat 50000 200) (ei : Edges) (ew : Arr 800000) (W1 : Mat 200 100) (b1 : Arr 100) (W2 : Mat 100 100) (b2 : Arr 100)
    (W3 : Mat 100 100) (b3 : Arr 100) (Wm1 : Mat 100 50) (bm1 : Arr 50) (Wm2 : Mat 50 50) (bm2 : Arr 50)
    (Wm3 : Mat 50 11) (bm3 : Arr 11) : Mat 50000 11 :=
  head (layer ei ew (layer ei ew (layer ei ew x W1 b1) W2 b2) W3 b3) Wm1 bm1 Wm2 bm2 Wm3 bm3

/-! ## Second spelling: self loops appended to the edge list, each message scaled per edge -/

/-- The self-loop index word of node j. -/
def loopW (j : Fin 50000) : BitVec 32 := BitVec.ofNat 32 j.val
/-- Source words with the self loops appended. -/
def srcL (ei : Edges) : Fin (800000 + 50000) → BitVec 32 := Fin.append (srcW ei) loopW
/-- Destination words with the self loops appended. -/
def dstL (ei : Edges) : Fin (800000 + 50000) → BitVec 32 := Fin.append (dstW ei) loopW
/-- Weights with the self loops' weight one appended. -/
def wgtL (ew : Arr 800000) : Fin (800000 + 50000) → EReal := Fin.append (wgt ew) (fun _ => (1 : EReal))

/-- Degree of node i over the extended edge list. -/
def degL (ei : Edges) (ew : Arr 800000) (i : Fin 50000) : EReal :=
  (0 : EReal) + ∑ k : Fin (800000 + 50000) with (dstL ei k).toInt = (i.val : Int), wgtL ew k
/-- Inverse root degree over the extended edge list. -/
def dinvL (ei : Edges) (ew : Arr 800000) (i : Fin 50000) : EReal := gate (degL ei ew i)
/-- One whole layer, second spelling. -/
def layerL {K : Nat} (ei : Edges) (ew : Arr 800000) (x : Mat 50000 K) (W : Mat K 100) (b : Arr 100) : Mat 50000 100 :=
  fun i => max (((0 : EReal) + ∑ k : Fin (800000 + 50000) with (dstL ei k).toInt = ((i 0).val : Int),
      mm x W (ix2 (node (srcL ei k)) (i 1))
        * ((dinvL ei ew (node (srcL ei k)) * wgtL ew k) * dinvL ei ew (node (dstL ei k)))) + b (ix1 (i 1))) 0

/-- The network, second spelling. -/
def refnet (x : Mat 50000 200) (ei : Edges) (ew : Arr 800000) (W1 : Mat 200 100) (b1 : Arr 100) (W2 : Mat 100 100) (b2 : Arr 100)
    (W3 : Mat 100 100) (b3 : Arr 100) (Wm1 : Mat 100 50) (bm1 : Arr 50) (Wm2 : Mat 50 50) (bm2 : Arr 50)
    (Wm3 : Mat 50 11) (bm3 : Arr 11) : Mat 50000 11 :=
  head (layerL ei ew (layerL ei ew (layerL ei ew x W1 b1) W2 b2) W3 b3) Wm1 bm1 Wm2 bm2 Wm3 bm3

end GcnSpec

end
-- ==== Proof.KSpec.lean ====
/-
  The pieces of the network as the kernel's regions compute them on a block of rows: the inverse root
  degree arrives as a one-column matrix, each bias as a one-row matrix. All of them act row by row, so a
  block of rows of the result is the same function of the corresponding block of rows of the inputs.
-/
import proofs.«110852_j50414326120717_2_alg».proof.Proof.Spec

noncomputable section

namespace GcnSpec

open Idealize.ShloMosaic Idealize.ShloMosaic.ValueIdx
open scoped BigOperators

/-- A one-row matrix as a vector. -/
def rowOf {N : Nat} (b : Mat 1 N) : Arr N := fun i => b (ix2 (0 : Fin 1) (i 0))

/-- Rows of a matrix scaled by the entries of a column. -/
def rowScale {M N : Nat} (h : Mat M N) (d : Mat M 1) : Mat M N := fun i => h i * d (ix2 (i 0) (0 : Fin 1))

/-- A layer's finish on rows: d · a + d² · h + bias, clamped at zero, with d a column and the bias a row. -/
def finishK {M N : Nat} (a h : Mat M N) (d : Mat M 1) (b : Mat 1 N) : Mat M N :=
  fun i => max ((d (ix2 (i 0) (0 : Fin 1)) * a i + (d (ix2 (i 0) (0 : Fin 1)) * d (ix2 (i 0) (0 : Fin 1))) * h i) + b (ix2 (0 : Fin 1) (i 1))) 0

/-- The perceptron head and log-softmax on rows, with the biases as one-row matrices. -/
def headK {M : Nat} (x : Mat M 100) (Wm1 : Mat 100 50) (bm1 : Mat 1 50) (Wm2 : Mat 50 50) (bm2 : Mat 1 50)
    (Wm3 : Mat 50 11) (bm3 : Mat 1 11) : Mat M 11 :=
  logSoftmax (bias (mm (biasRelu (mm (biasRelu (mm x Wm1) (rowOf bm1)) Wm2) (rowOf bm2)) Wm3) (rowOf bm3))

/-- The rows o, o+1, …, o+B−1 of a matrix. -/
def rowsFrom {M N : Nat} (B o : Nat) (h : o + B ≤ M) (x : Mat M N) : Mat B N :=
  fun y => x (ix2 ⟨o + (y 0).val, by have := idx2_lt0 y; omega⟩ (y 1))

theorem mm_rowsFrom {M K N : Nat} (B o : Nat) (h : o + B ≤ M) (x : Mat M K) (w : Mat K N) :
    mm (rowsFrom B o h x) w = rowsFrom B o h (mm x w) := rfl

theorem rowScale_rowsFrom {M N : Nat} (B o : Nat) (h : o + B ≤ M) (x : Mat M N) (d : Mat M 1) :
    rowScale (rowsFrom B o h x) (rowsFrom B o h d) = rowsFrom B o h (rowScale x d) := rfl

theorem finishK_rowsFrom {M N : Nat} (B o : Nat) (h : o + B ≤ M) (a x : Mat M N) (d : Mat M 1) (b : Mat 1 N) :
    finishK (rowsFrom B o h a) (rowsFrom B o h x) (rowsFrom B o h d) b = rowsFrom B o h (finishK a x d b) := rfl

theorem biasRelu_rowsFrom {M N : Nat} (B o : Nat) (h : o + B ≤ M) (x : Mat M N) (b : Arr N) :
    biasRelu (rowsFrom B o h x) b = rowsFrom B o h (biasRelu x b) := rfl

theorem bias_rowsFrom {M N : Nat} (B o : Nat) (h : o + B ≤ M) (x : Mat M N) (b : Arr N) :
    bias (rowsFrom B o h x) b = rowsFrom B o h (bias x b) := rfl

theorem logSoftmax_rowsFrom {M N : Nat} (B o : Nat) (h : o + B ≤ M) (x : Mat M N) :
    logSoftmax (rowsFrom B o h x) = rowsFrom B o h (logSoftmax x) := rfl

theorem headK_rowsFrom {M : Nat} (B o : Nat) (h : o + B ≤ M) (x : Mat M 100) (Wm1 : Mat 100 50) (bm1 : Mat 1 50)
    (Wm2 : Mat 50 50) (bm2 : Mat 1 50) (Wm3 : Mat 50 11) (bm3 : Mat 1 11) :
    headK (rowsFrom B o h x) Wm1 bm1 Wm2 bm2 Wm3 bm3 = rowsFrom B o h (headK x Wm1 bm1 Wm2 bm2 Wm3 bm3) := rfl

end GcnSpec

end
-- ==== Proof.KReg0.lean ====
/-
  The first kernel region: row block t (5000 rows) of the product x · W₁ and of that product with row r
  scaled by the r-th entry of a column d. Each output array after all ten row blocks are written back is
  one function of the whole input arrays as the region found them: the matrix product, and the matrix
  product with rows scaled.
-/
import proofs.«110852_j50414326120717_2_alg».proof.Proof.Gen.KernelIdeal.Frame
import proofs.«110852_j50414326120717_2_alg».proof.Proof.LibMatmul
import proofs.«110852_j50414326120717_2_alg».proof.Proof.Spec
import proofs.«110852_j50414326120717_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Idealize.ShloMosaic.MatmulRead GcnSpec
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block product at an index: the sum over the contracted coordinate. -/
theorem pay0_1_apply (x0 : Vec Ideal S5000x200 .f32) (x1 : Vec Ideal S200x100 .f32) (j : S5000x100.Idx) :
    k0_pay1 (F := Ideal) x0 x1 j = ∑ k : Fin 200, x0 (ix2 (j 0) k) * x1 (ix2 k (j 1)) := by
  unfold k0_pay1
  exact matmul_zero_apply (M := 5000) (K := 200) (N := 100) _ _ _ _ _ _ rfl rfl rfl rfl rfl rfl _ none _ _ j

/-- The scaled block product at an index. -/
theorem pay0_2_apply (x0 : Vec Ideal S5000x200 .f32) (x1 : Vec Ideal S200x100 .f32) (x2 : Vec Ideal S5000x1 .f32) (j : S5000x100.Idx) :
    k0_pay2 (F := Ideal) x0 x1 x2 j = (∑ k : Fin 200, x0 (ix2 (j 0) k) * x1 (ix2 k (j 1))) * x2 (ix2 (j 0) (0 : Fin 1)) := by
  unfold k0_pay2
  simp only [shapeCast_self]
  show k0_pay1 (F := Ideal) x0 x1 j * _ = _
  rw [pay0_1_apply]
  congr 1
  rw [eq_ix2 j]
  exact broadcastTo_a1_ab_apply x2 _ (j 0) (j 1)

/-- The index maps of the five windows over the ten grid points: the row-blocked windows move together, the
    weight window stays. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0
    ∧ win0_4.index t (0 : Fin 2) = win0_3.index t (0 : Fin 2) ∧ win0_4.index t (1 : Fin 2) = 0
    ∧ win0_3.index t (0 : Fin 2) ≤ 9 :=
  (by decide +kernel : ∀ t : Fin grid0.N, _)

/-- Every row block is some grid point's. -/
theorem idx_onto0 : ∀ q : Fin 10, ∃ t : Fin cfg0.N, win0_3.index t (0 : Fin 2) = q.val :=
  (by decide +kernel : ∀ q : Fin 10, ∃ t : Fin grid0.N, win0_3.index t (0 : Fin 2) = q.val)

/-- What grid point t writes back through the first output window is block t of the matrix product. -/
theorem flushed0_3 (c : Dev nD) (t : Fin cfg0.N) :
    (dat0 V c).flushed 3 t = ((cfg0.win 3).blk t).view.read (Elt Ideal) (mm (V c main_arg0) (V c main_arg3)) := by
  show (cfg0.win 3).cut (grid0.coords t) ((dat0 V c).after 3 t) = _
  rw [after0_3]
  unfold out0_3
  rw [View.canon_unit_zero hz]
  simp only [View.ld_unit_zero (S := S5000x200) hz, View.ld_unit_zero (S := S200x100) hz]
  obtain ⟨e0, e1, e2, e3, e4, e5, e6, e7, e8, e9⟩ := idx_facts0 t
  funext j
  refine (pay0_1_apply _ _ j).trans ?_
  rw [View.read_apply]
  unfold mm
  refine Finset.sum_congr rfl fun k _ => ?_
  have h0 : ((cfg0.win 0).blk t).view.emb (ix2 (j 0) k) = ix2 ((((cfg0.win 3).blk t).view.emb j) 0) k := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 200 + 1 * k.val = k.val; omega
  have h1 : ((cfg0.win 1).blk t).view.emb (ix2 k (j 1)) = ix2 k ((((cfg0.win 3).blk t).view.emb j) 1) := by
    funext a; apply Fin.ext
    match a with
    | ⟨0, _⟩ => show win0_1.index t (0 : Fin 2) * 200 + 1 * k.val = k.val; omega
    | ⟨1, _⟩ => show win0_1.index t (1 : Fin 2) * 100 + 1 * (j 1).val = win0_3.index t (1 : Fin 2) * 100 + 1 * (j 1).val; omega
  congr 1
  · exact congrArg (V c main_arg0) h0
  · exact congrArg (V c main_arg3) h1

/-- An index of the first output array is in grid point t's block iff each coordinate is in the block's range. -/
theorem mem_blk0_3 (t : Fin cfg0.N) (i : S50000x100.Idx) :
    i ∈ ((cfg0.win 3).blk t).view.set ↔ ∀ a : Fin 2, win0_3.index t a * S5000x100.size a ≤ (i a).val ∧ (i a).val < win0_3.index t a * S5000x100.size a + S5000x100.size a := by
  show i ∈ ((View.whole main_v14_0).slice (win0_3.rect t)).set ↔ _
  rw [View.set_slice_whole, Rect.mem_set_unit]
  exact Iff.rfl

/-- The ten row blocks tile the array: row r is in block r / 5000. -/
theorem cover0_3' (i : S50000x100.Idx) : ∃ t : Fin cfg0.N, (cfg0.win 3).flush t = true ∧ i ∈ ((cfg0.win 3).blk t).view.set := by
  have hi0 : (i 0).val < 50000 := (i 0).isLt
  have hi1 : (i 1).val < 100 := (i 1).isLt
  obtain ⟨t, ht⟩ := idx_onto0 ⟨(i 0).val / 5000, by omega⟩
  obtain ⟨e0, e1, e2, e3, e4, e5, e6, e7, e8, e9⟩ := idx_facts0 t
  have ht' : win0_3.index t (0 : Fin 2) = (i 0).val / 5000 := ht
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 100 ≤ (i 1).val ∧ (i 1).val < win0_3.index t (1 : Fin 2) * 100 + 100; omega

/-- The first output array after the region: the matrix product of the two input arrays as the region found them. -/
theorem final0_3 (c : Dev nD) : (dat0 V c).arrAt 3 cfg0.N = mm (V c main_arg0) (V c main_arg3) :=
  (dat0 V c).arrAt_eq_of_cover 3 _ (fun t _ => flushed0_3 V c t) cover0_3'

set_option maxHeartbeats 1000000 in
/-- What grid point t writes back through the second output window is block t of the row-scaled product. -/
theorem flushed0_4 (c : Dev nD) (t : Fin cfg0.N) :
    (dat0 V c).flushed 4 t = ((cfg0.win 4).blk t).view.read (Elt Ideal) (rowScale (mm (V c main_arg0) (V c main_arg3)) (V c main_v13)) := by
  show (cfg0.win 4).cut (grid0.coords t) ((dat0 V c).after 4 t) = _
  rw [after0_4]
  unfold out0_4
  rw [View.canon_unit_zero hz]
  simp only [View.ld_unit_zero (S := S5000x200) hz, View.ld_unit_zero (S := S200x100) hz, View.ld_unit_zero (S := S5000x1) hz]
  obtain ⟨e0, e1, e2, e3, e4, e5, e6, e7, e8, e9⟩ := idx_facts0 t
  funext j
  refine (pay0_2_apply _ _ _ j).trans ?_
  rw [View.read_apply]
  unfold rowScale
  have h2 : ((cfg0.win 2).blk t).view.emb (ix2 (j 0) (0 : Fin 1)) = ix2 ((((cfg0.win 4).blk t).view.emb j) 0) (0 : Fin 1) := by
    funext a; apply Fin.ext
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 1 + 1 * 0 = 0; omega
  refine congrArg₂ (fun a b : EReal => a * b) ?_ (congrArg (V c main_v13) h2)
  · refine Finset.sum_congr rfl fun k _ => ?_
    have h0 : ((cfg0.win 0).blk t).view.emb (ix2 (j 0) k) = ix2 ((((cfg0.win 4).blk t).view.emb j) 0) k := by
      funext a; apply Fin.ext
      match a with
      | ⟨0, _⟩ => show win0_0.index t (0 : Fin 2) * 5000 + 1 * (j 0).val = win0_4.index t (0 : Fin 2) * 5000 + 1 * (j 0).val; omega
      | ⟨1, _⟩ => show win0_0.index t (1 : Fin 2) * 200 + 1 * k.val = k.val; omega
    have h1 : ((cfg0.win 1).blk t).view.emb (ix2 k (j 1)) = ix2 k ((((cfg0.win 4).blk t).view.emb j) 1) := by
      funext a; apply Fin.ext
      match a with
      | ⟨0, _⟩ => show win0_1.index t (0 : Fin 2) * 200 + 1 * k.val = k.val; omega
      | ⟨1, _⟩ => show win0_1.index t (1 : Fin 2) * 100 + 1 * (j 1).val = win0_4.index t (1 : Fin 2) * 100 + 1 * (j 1).val; omega
    exact congrArg₂ (fun a b : EReal => a * b) (congrArg (V c main_arg0) h0) (congrArg (V c main_arg3) h1)

/-- An index of the second output array is in grid point t's block iff each coordinate is in the block's range. -/
theorem mem_blk0_4 (t : Fin cfg0.N) (i : S50000x100.Idx) :
    i ∈ ((cfg0.win 4).blk t).view.set ↔ ∀ a : Fin 2, win0_4.index t a * S5000x100.size a ≤ (i a).val ∧ (i a).val < win0_4.index t a * S5000x100.size a + S5000x100.size a := by
  show i ∈ ((View.whole main_v14_1).slice (win0_4.rect t)).set ↔ _
  rw [View.set_slice_whole, Rect.mem_set_unit]
  exact Iff.rfl

/-- The ten row blocks tile the second output array too. -/
theorem cover0_4' (i : S50000x100.Idx) : ∃ t : Fin cfg0.N, (cfg0.win 4).flush t = true ∧ i ∈ ((cfg0.win 4).blk t).view.set := by
  have hi0 : (i 0).val < 50000 := (i 0).isLt
  have hi1 : (i 1).val < 100 := (i 1).isLt
  obtain ⟨t, ht⟩ := idx_onto0 ⟨(i 0).val / 5000, by omega⟩
  obtain ⟨e0, e1, e2, e3, e4, e5, e6, e7, e8, e9⟩ := idx_facts0 t
  have ht' : win0_3.index t (0 : Fin 2) = (i 0).val / 5000 := ht
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 100 ≤ (i 1).val ∧ (i 1).val < win0_4.index t (1 : Fin 2) * 100 + 100; omega

/-- The second output array after the region: the matrix product with row r scaled by the column's entry r. -/
theorem final0_4 (c : Dev nD) : (dat0 V c).arrAt 4 cfg0.N = rowScale (mm (V c main_arg0) (V c main_arg3)) (V c main_v13) :=
  (dat0 V c).arrAt_eq_of_cover 4 _ (fun t _ => flushed0_4 V c t) cover0_4'

end Cert.KernelIdeal.KVal

end
-- ==== Proof.GcnMath.lean ====
import Idealize.ShloMosaic.PureOps.Ideal
import Idealize.ShloMosaic.PureOps.Ideal.Laws

noncomputable section

namespace GcnMath

open Idealize.ShloMosaic
open scoped BigOperators

/-- A nonnegative real factor distributes over any finite sum of extended reals: for a real
    `r ≥ 0`, `r * (y + z) = r * y + r * z` holds for all extended reals `y z` (no `⊤ + ⊥` corner
    can be created or destroyed by a finite nonnegative factor), and induction on the index set
    extends this to finite sums. -/
theorem coe_mul_sum {ι : Type*} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The inverse square root of a degree, guarded by positivity, is always a nonnegative real:
    it is `0` when the degree is not positive, `0` at `⊤`, and `(√r)⁻¹` at a positive real `r`. -/
theorem dinv_nonneg_real (x : EReal) :
    ∃ r : ℝ, 0 ≤ r ∧ (if 0 < x then Ideal.rsqrt x else 0) = (r : EReal) := by
  induction x using EReal.rec with
  | bot => exact ⟨0, le_rfl, by simp⟩
  | top => exact ⟨0, le_rfl, by simp⟩
  | coe r =>
    by_cases h : 0 < r
    · refine ⟨(Real.sqrt r)⁻¹, inv_nonneg.mpr (Real.sqrt_nonneg r), ?_⟩
      have h' : (0 : EReal) < (r : EReal) := by exact_mod_cast h
      rw [if_pos h', Ideal.rsqrt_coe, if_neg (not_lt.mpr h.le), if_neg h.ne']
    · refine ⟨0, le_rfl, ?_⟩
      have h' : ¬ (0 : EReal) < (r : EReal) := by exact_mod_cast h
      rw [if_neg h']; rfl

/-- A filtered sum over the concatenated index set `Fin (E + n)` splits into the filtered sum over
    the first `E` indices plus the filtered sum over the last `n`. -/
theorem sum_filter_append {M : Type*} [AddCommMonoid M] {n E : ℕ} (P : Fin (E + n) → Prop)
    [DecidablePred P] (f : Fin (E + n) → M) :
    ∑ k with P k, f k
      = ∑ e : Fin E with P (Fin.castAdd n e), f (Fin.castAdd n e)
        + ∑ j : Fin n with P (Fin.natAdd E j), f (Fin.natAdd E j) := by
  rw [Finset.sum_filter, Fin.sum_univ_add, Finset.sum_filter, Finset.sum_filter]

/-- For `n < 2^31` the 32-bit word of `j < n` reads back, as a signed integer, as `j` itself; so
    it equals `i` exactly when `j = i`. -/
theorem iota_hit {n : ℕ} (hn : n < 2 ^ 31) (i j : Fin n) :
    (BitVec.ofNat 32 j.val).toInt = (i.val : Int) ↔ j = i := by
  have hj : j.val < 2 ^ 31 := lt_trans j.isLt hn
  have hi : i.val < 2 ^ 31 := lt_trans i.isLt hn
  rw [BitVec.toInt_eq_toNat_cond, BitVec.toNat_ofNat, Nat.mod_eq_of_lt (by omega)]
  constructor
  · intro h
    apply Fin.ext
    split_ifs at h <;> omega
  · intro h
    subst h
    split_ifs <;> omega

/-- A sum over the self-loop indices filtered by "the word of `j` reads as `i`" is the single
    term at `j = i`. -/
theorem loop_sum {M : Type*} [AddCommMonoid M] {n : ℕ} (hn : n < 2 ^ 31) (i : Fin n)
    (g : Fin n → M) :
    ∑ j : Fin n with (BitVec.ofNat 32 j.val).toInt = (i.val : Int), g j = g i := by
  have hset : (Finset.univ.filter fun j : Fin n => (BitVec.ofNat 32 j.val).toInt = (i.val : Int))
      = {i} := by
    ext j; simp [iota_hit hn i j]
  rw [hset, Finset.sum_singleton]

/-- The degree with self-loops appended equals the degree over the edges plus one: the appended
    sum splits into the edge part and the self-loop part, and the self-loop part is the single
    weight `1` of the loop at node `i`. -/
theorem deg_eq {n E : ℕ} (hn : n < 2 ^ 31) (dst : Fin E → BitVec 32) (ew : Fin E → EReal)
    (i : Fin n) :
    (0 : EReal) + ∑ k : Fin (E + n) with
        (Fin.append dst (fun j : Fin n => BitVec.ofNat 32 j.val) k).toInt = (i.val : Int),
        Fin.append ew (fun _ : Fin n => (1 : EReal)) k
      = ((0 : EReal) + ∑ e : Fin E with (dst e).toInt = (i.val : Int), ew e) + 1 := by
  rw [sum_filter_append]
  simp only [Fin.append_left, Fin.append_right]
  rw [loop_sum hn i (fun _ => (1 : EReal)), add_assoc]

/-- One output entry of a normalised graph-convolution layer. The reference sums, over the edges
    with self-loops appended, `h(src) * ((dinv(src) * w) * dinv(dst))`; the kernel pulls the factor
    `dinv i` of the destination out of the edge sum and adds the self-loop term `dinv i * dinv i * h i`
    separately. They agree because every selected edge has destination `i`, `dinv i` is a
    nonnegative real (so it distributes over the sum), and the self-loop part is a single term. -/
theorem agg_eq {n E : ℕ} (hn : n < 2 ^ 31) (src dst : Fin E → BitVec 32) (ew : Fin E → EReal)
    (node : BitVec 32 → Fin n)
    (hnode : ∀ (v : BitVec 32) (i : Fin n), v.toInt = (i.val : Int) → node v = i)
    (dinv h : Fin n → EReal) (hd : ∀ i, ∃ r : ℝ, 0 ≤ r ∧ dinv i = (r : EReal)) (b : EReal)
    (i : Fin n) :
    ((0 : EReal) + ∑ k : Fin (E + n) with
        (Fin.append dst (fun j : Fin n => BitVec.ofNat 32 j.val) k).toInt = (i.val : Int),
        h (node (Fin.append src (fun j : Fin n => BitVec.ofNat 32 j.val) k))
          * ((dinv (node (Fin.append src (fun j : Fin n => BitVec.ofNat 32 j.val) k))
                * Fin.append ew (fun _ : Fin n => (1 : EReal)) k)
              * dinv (node (Fin.append dst (fun j : Fin n => BitVec.ofNat 32 j.val) k)))) + b
      = (dinv i * ((0 : EReal) + ∑ e : Fin E with (dst e).toInt = (i.val : Int),
            (h (node (src e)) * dinv (node (src e))) * ew e)
          + (dinv i * dinv i) * h i) + b := by
  obtain ⟨r, hr, hri⟩ := hd i
  have hni : node (BitVec.ofNat 32 i.val) = i := hnode _ i ((iota_hit hn i i).mpr rfl)
  rw [sum_filter_append]
  simp only [Fin.append_left, Fin.append_right]
  rw [loop_sum hn i (fun j : Fin n => h (node (BitVec.ofNat 32 j.val))
      * ((dinv (node (BitVec.ofNat 32 j.val)) * (1 : EReal)) * dinv (node (BitVec.ofNat 32 j.val)))),
    hni]
  have hedge : ∑ e : Fin E with (dst e).toInt = (i.val : Int),
        h (node (src e)) * ((dinv (node (src e)) * ew e) * dinv (node (dst e)))
      = dinv i * ∑ e : Fin E with (dst e).toInt = (i.val : Int),
        (h (node (src e)) * dinv (node (src e))) * ew e := by
    rw [hri, coe_mul_sum _ r hr, ← hri]
    refine Finset.sum_congr rfl ?_
    intro e he
    have hde : node (dst e) = i := hnode _ i (Finset.mem_filter.mp he).2
    rw [hde]
    ac_rfl
  rw [hedge, zero_add, zero_add, mul_one]
  congr 2
  ac_rfl

/-- The single-precision word `0x3F800000` denotes the real number one. -/
theorem ofBits_one : Ideal.ofBits .f32 0x3F800000#32 = (1 : EReal) := by
  simp [Ideal.ofBits, Ideal.ieee, -EReal.coe_mul]; norm_num

/-- The single-precision all-zero word denotes zero (the library's `Ideal.ofBits_zero_f32`). -/
theorem ofBits_zero : Ideal.ofBits .f32 0x00000000#32 = (0 : EReal) := Ideal.ofBits_zero_f32

end GcnMath

end
-- ==== Proof.SpecEq.lean ====
/-
  The two spellings of the network in Spec.lean are the same function.

  Per layer and per output entry the second spelling sums, over the edge list with the self loops appended,
  messages scaled per edge; the first spelling pulls the destination's inverse root degree out of the edge sum
  and writes the self loop as a dense term. The inverse root degree is a nonnegative real, which distributes
  over every sum of extended reals, and the appended self-loop part of each sum is a single term.
-/
import proofs.«110852_j50414326120717_2_alg».proof.Proof.Spec
import proofs.«110852_j50414326120717_2_alg».proof.Proof.GcnMath

noncomputable section

namespace GcnSpec

open Idealize.ShloMosaic Idealize.ShloMosaic.ValueIdx
open scoped BigOperators

/-- A word whose signed value is a node number is not negative, so it is not wrapped, and clamping a node
    number into the node range leaves it unchanged: the word reads that node. -/
theorem node_of_hit (v : BitVec 32) (i : Fin 50000) (hv : v.toInt = (i.val : Int)) : node v = i := by
  have hi := i.isLt
  have hlt : ¬ (v.slt 0#32 = true) := by
    rw [BitVec.slt, decide_eq_true_eq, hv]
    simp
  apply Fin.ext
  simp only [node, wrapW, if_neg hlt, hv]
  omega

/-- The degree over the edge list with self loops appended is the edge sum plus one. -/
theorem degL_eq_deg (ei : Edges) (ew : Arr 800000) (i : Fin 50000) : degL ei ew i = deg ei ew i := by
  unfold degL deg dstL wgtL
  exact GcnMath.deg_eq (n := 50000) (E := 800000) (by norm_num) (dstW ei) (wgt ew) i

/-- Hence the two inverse root degrees are the same function. -/
theorem dinvL_eq_dinv (ei : Edges) (ew : Arr 800000) : dinvL ei ew = dinv ei ew := by
  funext i
  unfold dinvL dinv
  rw [degL_eq_deg]

/-- The inverse root degree of every node is a nonnegative real. -/
theorem dinv_real (ei : Edges) (ew : Arr 800000) (i : Fin 50000) :
    ∃ r : ℝ, 0 ≤ r ∧ dinv ei ew i = (r : EReal) :=
  GcnMath.dinv_nonneg_real (deg ei ew i)

/-- One layer: the two spellings agree for every input. -/
theorem layerL_eq_layer {K : Nat} (ei : Edges) (ew : Arr 800000) (x : Mat 50000 K) (W : Mat K 100)
    (b : Arr 100) : layerL ei ew x W b = layer ei ew x W b := by
  funext i
  obtain ⟨a, c, rfl⟩ : ∃ a c, i = ix2 a c := ⟨i 0, i 1, eq_ix2 i⟩
  have key := GcnMath.agg_eq (n := 50000) (E := 800000) (by norm_num) (srcW ei) (dstW ei) (wgt ew) node
    node_of_hit (dinv ei ew) (fun nd => mm x W (ix2 nd c)) (dinv_real ei ew) (b (ix1 c)) a
  unfold layerL layer finish agg scaled srcL dstL wgtL
  rw [dinvL_eq_dinv]
  exact congrArg (fun t => max t 0) key

/-- The two spellings of the whole network agree: the three layers agree and the head is common. -/
theorem refnet_eq_net (x : Mat 50000 200) (ei : Edges) (ew : Arr 800000) (W1 : Mat 200 100) (b1 : Arr 100)
    (W2 : Mat 100 100) (b2 : Arr 100) (W3 : Mat 100 100) (b3 : Arr 100) (Wm1 : Mat 100 50) (bm1 : Arr 50)
    (Wm2 : Mat 50 50) (bm2 : Arr 50) (Wm3 : Mat 50 11) (bm3 : Arr 11) :
    refnet x ei ew W1 b1 W2 b2 W3 b3 Wm1 bm1 Wm2 bm2 Wm3 bm3
      = net x ei ew W1 b1 W2 b2 W3 b3 Wm1 bm1 Wm2 bm2 Wm3 bm3 := by
  unfold refnet net
  rw [layerL_eq_layer, layerL_eq_layer, layerL_eq_layer]

/-- The guarded inverse square root written as a selection on the comparison "x is greater than zero". -/
theorem gate_eq_select (x : EReal) :
    Scalar.select (Ideal.cmp .ogt x 0) (Ideal.rsqrt x) 0 = gate x := by
  unfold Scalar.select Ideal.cmp gate
  by_cases h : 0 < x <;> simp [h]

/-- The single-precision word `0xFF800000` denotes minus infinity. -/
theorem ofBits_neg_inf : Ideal.ofBits .f32 0xFF800000#32 = (⊥ : EReal) := by
  simp [Ideal.ofBits, Ideal.ieee]

end GcnSpec

end
-- ==== Proof.KPay.lean ====
/-
  The kernel's per-block computations as functions of the blocks they read, at the exact (extended-real)
  instance: each is read at an index, one vector operation at a time, and lands on the row-block pieces
  of the network (matrix product, row scaling, layer finish, perceptron head with log-softmax).
-/
import proofs.«110852_j50414326120717_2_alg».proof.Proof.Gen.KernelIdeal.Skeleton
import proofs.«110852_j50414326120717_2_alg».proof.Proof.LibMatmul
import proofs.«110852_j50414326120717_2_alg».proof.Proof.KSpec
import proofs.«110852_j50414326120717_2_alg».proof.Proof.SpecEq
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen GcnSpec Idealize.ShloMosaic Idealize.ShloMosaic.ValueIdx
open Idealize.ShloMosaic.MatmulRead
open scoped BigOperators

/-- The layer finish of a block, read at an index: a column and a row broadcast over the block, two
    products, two sums, and a clamp at the zero constant. -/
theorem fin_apply (d : FVec Ideal S5000x1 .f32) (a h : FVec Ideal S5000x100 .f32) (b : FVec Ideal S1x100 .f32)
    (p : Fin 5000) (q : Fin 100) :
    max ((broadcastTo S5000x100 d broadcasts_S5000x1_S5000x100 (ix2 p q) * a (ix2 p q)
          + broadcastTo S5000x100 (mulf d d : FVec Ideal S5000x1 .f32) broadcasts_S5000x1_S5000x100 (ix2 p q) * h (ix2 p q))
        + broadcastTo S5000x100 b broadcasts_S1x100_S5000x100 (ix2 p q)) (Ideal.ofBits .f32 0x00000000#32)
      = finishK a h d b (ix2 p q) := by
  rw [broadcastTo_a1_ab_apply, broadcastTo_a1_ab_apply, broadcastTo_1b_ab_apply, Ideal.ofBits_zero_f32]
  rfl

/-- The block product of the finished block with the weight block (layer 2's product). -/
theorem pay1_2 (d : Vec Ideal S5000x1 .f32) (a h : Vec Ideal S5000x100 .f32) (b : Vec Ideal S1x100 .f32)
    (w : Vec Ideal S100x100 .f32) :
    k1_pay2 (F := Ideal) d a h b w = mm (finishK a h d b) w := by
  funext j
  unfold k1_pay2 k1_pay1
  simp only [shapeCast_self]
  refine (matmul_zero_apply (M := 5000) (K := 100) (N := 100) _ _ _ _ _ _ rfl rfl rfl rfl rfl rfl _ none _ _ j).trans ?_
  unfold mm
  refine Finset.sum_congr rfl fun k _ => ?_
  congr 1
  exact fin_apply d a h b (j 0) k

/-- The same product with each row scaled by the column's entry of that row. -/
theorem pay1_3 (d : Vec Ideal S5000x1 .f32) (a h : Vec Ideal S5000x100 .f32) (b : Vec Ideal S1x100 .f32)
    (w : Vec Ideal S100x100 .f32) :
    k1_pay3 (F := Ideal) d a h b w = rowScale (mm (finishK a h d b) w) d := by
  funext j
  obtain ⟨p, q, rfl⟩ : ∃ p q, j = ix2 p q := ⟨j 0, j 1, eq_ix2 j⟩
  unfold k1_pay3 k1_pay1
  simp only [shapeCast_self]
  show k1_pay2 (F := Ideal) d a h b w (ix2 p q)
      * broadcastTo S5000x100 d broadcasts_S5000x1_S5000x100 (ix2 p q) = _
  rw [pay1_2, broadcastTo_a1_ab_apply]
  rfl

/-- The block product of the finished block with the weight block (layer 3's product). -/
theorem pay2_2 (d : Vec Ideal S5000x1 .f32) (a h : Vec Ideal S5000x100 .f32) (b : Vec Ideal S1x100 .f32)
    (w : Vec Ideal S100x100 .f32) :
    k2_pay2 (F := Ideal) d a h b w = mm (finishK a h d b) w := by
  funext j
  unfold k2_pay2 k2_pay1
  simp only [shapeCast_self]
  refine (matmul_zero_apply (M := 5000) (K := 100) (N := 100) _ _ _ _ _ _ rfl rfl rfl rfl rfl rfl _ none _ _ j).trans ?_
  unfold mm
  refine Finset.sum_congr rfl fun k _ => ?_
  congr 1
  exact fin_apply d a h b (j 0) k

/-- The same product with each row scaled by the column's entry of that row. -/
theorem pay2_3 (d : Vec Ideal S5000x1 .f32) (a h : Vec Ideal S5000x100 .f32) (b : Vec Ideal S1x100 .f32)
    (w : Vec Ideal S100x100 .f32) :
    k2_pay3 (F := Ideal) d a h b w = rowScale (mm (finishK a h d b) w) d := by
  funext j
  obtain ⟨p, q, rfl⟩ : ∃ p q, j = ix2 p q := ⟨j 0, j 1, eq_ix2 j⟩
  unfold k2_pay3 k2_pay1
  simp only [shapeCast_self]
  show k2_pay2 (F := Ideal) d a h b w (ix2 p q)
      * broadcastTo S5000x100 d broadcasts_S5000x1_S5000x100 (ix2 p q) = _
  rw [pay2_2, broadcastTo_a1_ab_apply]
  rfl

/-! ## The perceptron head's block operations -/

/-- A bias row broadcast over a block, added, and clamped at the zero constant. -/
theorem relu_eq {M N : Nat} (x : FVec Ideal ⟨2, ![M, N]⟩ .f32) (bm : FVec Ideal ⟨2, ![1, N]⟩ .f32)
    (hb : (⟨2, ![1, N]⟩ : Shape).Broadcasts ⟨2, ![M, N]⟩) :
    maximumf (addf x (broadcastTo ⟨2, ![M, N]⟩ bm hb))
        (broadcast ⟨2, ![M, N]⟩ (Scalar.ofBits .f32 0x00000000#32 : Ideal .f32))
      = biasRelu x (rowOf bm) := by
  funext j
  obtain ⟨p, q, rfl⟩ : ∃ p q, j = ix2 p q := ⟨j 0, j 1, eq_ix2 j⟩
  show max (x (ix2 p q) + broadcastTo ⟨2, ![M, N]⟩ bm hb (ix2 p q)) (Ideal.ofBits .f32 0x00000000#32)
    = max (x (ix2 p q) + bm (ix2 (0 : Fin 1) q)) 0
  rw [broadcastTo_1b_ab_apply, Ideal.ofBits_zero_f32]

/-- A bias row broadcast over a block and added. -/
theorem bias_eq {M N : Nat} (x : FVec Ideal ⟨2, ![M, N]⟩ .f32) (bm : FVec Ideal ⟨2, ![1, N]⟩ .f32)
    (hb : (⟨2, ![1, N]⟩ : Shape).Broadcasts ⟨2, ![M, N]⟩) :
    addf x (broadcastTo ⟨2, ![M, N]⟩ bm hb) = bias x (rowOf bm) := by
  funext j
  obtain ⟨p, q, rfl⟩ : ∃ p q, j = ix2 p q := ⟨j 0, j 1, eq_ix2 j⟩
  show x (ix2 p q) + broadcastTo ⟨2, ![M, N]⟩ bm hb (ix2 p q) = x (ix2 p q) + bm (ix2 (0 : Fin 1) q)
  rw [broadcastTo_1b_ab_apply]

/-- The layer finish of a block as one function of the blocks. -/
theorem finK_eq (d : FVec Ideal S5000x1 .f32) (a h : FVec Ideal S5000x100 .f32) (b : FVec Ideal S1x100 .f32) :
    maximumf (addf (addf (mulf (broadcastTo S5000x100 d broadcasts_S5000x1_S5000x100) a)
          (mulf (broadcastTo S5000x100 (mulf d d : FVec Ideal S5000x1 .f32) broadcasts_S5000x1_S5000x100) h))
        (broadcastTo S5000x100 b broadcasts_S1x100_S5000x100))
      (broadcast S5000x100 (Scalar.ofBits .f32 0x00000000#32 : Ideal .f32))
      = finishK a h d b := by
  funext j
  obtain ⟨p, q, rfl⟩ : ∃ p q, j = ix2 p q := ⟨j 0, j 1, eq_ix2 j⟩
  exact fin_apply d a h b p q

/-- The three block products of the head, each into a zero accumulator. -/
theorem mm_100_50 (x : FVec Ideal S5000x100 .f32) (w : FVec Ideal S100x50 .f32) :
    matmul dot_S5000x100_S100x50_S5000x50_1_0_0_1_n_n none (truncf .bf16 x bitsLt_bf16_f32)
      (truncf .bf16 w bitsLt_bf16_f32) (constant S5000x50 .f32 0x00000000#32) = mm x w :=
  funext fun j => matmul_zero_apply (M := 5000) (K := 100) (N := 50) _ _ _ _ _ _ rfl rfl rfl rfl rfl rfl _ none _ _ j

theorem mm_50_50 (x : FVec Ideal S5000x50 .f32) (w : FVec Ideal S50x50 .f32) :
    matmul dot_S5000x50_S50x50_S5000x50_1_0_0_1_n_n none (truncf .bf16 x bitsLt_bf16_f32)
      (truncf .bf16 w bitsLt_bf16_f32) (constant S5000x50 .f32 0x00000000#32) = mm x w :=
  funext fun j => matmul_zero_apply (M := 5000) (K := 50) (N := 50) _ _ _ _ _ _ rfl rfl rfl rfl rfl rfl _ none _ _ j

theorem mm_50_11 (x : FVec Ideal S5000x50 .f32) (w : FVec Ideal S50x11 .f32) :
    matmul dot_S5000x50_S50x11_S5000x11_1_0_0_1_n_n none (truncf .bf16 x bitsLt_bf16_f32)
      (truncf .bf16 w bitsLt_bf16_f32) (constant S5000x11 .f32 0x00000000#32) = mm x w :=
  funext fun j => matmul_zero_apply (M := 5000) (K := 50) (N := 11) _ _ _ _ _ _ rfl rfl rfl rfl rfl rfl _ none _ _ j

/-- The hidden part of the head on a block: finish, two products each with bias and clamp. -/
theorem pay3_2 (d : Vec Ideal S5000x1 .f32) (a h : Vec Ideal S5000x100 .f32) (b3 : Vec Ideal S1x100 .f32)
    (wm1 : Vec Ideal S100x50 .f32) (bm1 : Vec Ideal S1x50 .f32) (wm2 : Vec Ideal S50x50 .f32)
    (bm2 : Vec Ideal S1x50 .f32) :
    k3_pay2 (F := Ideal) d a h b3 wm1 bm1 wm2 bm2
      = biasRelu (mm (biasRelu (mm (finishK a h d b3) wm1) (rowOf bm1)) wm2) (rowOf bm2) := by
  unfold k3_pay2
  simp only [shapeCast_self]
  rw [finK_eq, mm_100_50, relu_eq, mm_50_50, relu_eq]

/-! ## The log-softmax of a block -/

/-- The index a lane reduction of an 11-wide block inserts: row `p`, lane `f`. -/
theorem lift_eq (hr : S5000x11.Reduces [1] S5000) (p : Fin 5000) (f : Fin 11) :
    hr.lift (ix1 p) f = ix2 p f := by
  funext a
  apply Fin.ext
  match a with
  | ⟨0, _⟩ => rfl
  | ⟨1, _⟩ => rfl

/-- Position `p` of a 5000-vector is position `(p, 0)` of the 5000-by-1 column it is recast to. -/
theorem col_apply {α : Type} (v : S5000.Idx → α) (hc : S5000.ShapeCasts S5000x1) (p : Fin 5000) :
    shapeCast S5000x1 v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- The lane maximum of row `p`, from minus infinity. -/
theorem rowmax_apply (z : FVec Ideal S5000x11 .f32) (hr : S5000x11.Reduces [1] S5000)
    (hφ : FKind.Formats .f32) (hacc : (0xFF800000#32 : BitVec 32) = FKind.maximumf.neutral .f32 hφ)
    (hc : S5000.ShapeCasts S5000x1) (p : Fin 5000) :
    shapeCast S5000x1 (multiReduction .maximumf [1] S5000 z 0xFF800000#32 hr hφ hacc) hc (ix2 p (0 : Fin 1))
      = rowMax z p := by
  rw [col_apply, Ideal.multiReduction_maximumf_single]
  unfold rowMax
  have hbot : (FloatOps.ofBits .f32 0xFF800000#32 : Ideal .f32) = (⊥ : EReal) := GcnSpec.ofBits_neg_inf
  rw [hbot]
  have hfun : (z ∘ hr.lift (ix1 p)) = fun f : Fin 11 => z (ix2 p f) := by
    funext f
    exact congrArg z (lift_eq hr p f)
  rw [hfun]
  rfl

/-- Row-wise log-softmax of a block: subtract the lane maximum, then the logarithm of the lane sum of
    exponentials. -/
theorem lsm_eq (z : FVec Ideal S5000x11 .f32) (hr : S5000x11.Reduces [1] S5000)
    (hφ : FKind.Formats .f32) (hmx : (0xFF800000#32 : BitVec 32) = FKind.maximumf.neutral .f32 hφ)
    (hsm : (0x00000000#32 : BitVec 32) = FKind.add.neutral .f32 hφ)
    (hc : S5000.ShapeCasts S5000x1) (hb : S5000x1.Broadcasts S5000x11) :
    subf (subf z (broadcastTo S5000x11
            (shapeCast S5000x1 (multiReduction .maximumf [1] S5000 z 0xFF800000#32 hr hφ hmx) hc) hb))
        (broadcastTo S5000x11
          (log (shapeCast S5000x1 (multiReduction .add [1] S5000
            (exp (subf z (broadcastTo S5000x11
              (shapeCast S5000x1 (multiReduction .maximumf [1] S5000 z 0xFF800000#32 hr hφ hmx) hc) hb)))
            0x00000000#32 hr hφ hsm) hc)) hb)
      = logSoftmax z := by
  funext j
  obtain ⟨p, q, rfl⟩ : ∃ p q, j = ix2 p q := ⟨j 0, j 1, eq_ix2 j⟩
  have hmax := rowmax_apply z hr hφ hmx hc
  show (z (ix2 p q) - broadcastTo S5000x11
          (shapeCast S5000x1 (multiReduction .maximumf [1] S5000 z 0xFF800000#32 hr hφ hmx) hc) hb (ix2 p q))
      - broadcastTo S5000x11
          (log (shapeCast S5000x1 (multiReduction .add [1] S5000
            (exp (subf z (broadcastTo S5000x11
              (shapeCast S5000x1 (multiReduction .maximumf [1] S5000 z 0xFF800000#32 hr hφ hmx) hc) hb)))
            0x00000000#32 hr hφ hsm) hc)) hb (ix2 p q)
    = (z (ix2 p q) - rowMax z p) - Ideal.log (∑ f : Fin 11, Ideal.exp (z (ix2 p f) - rowMax z p))
  rw [broadcastTo_a1_ab_apply, broadcastTo_a1_ab_apply, hmax]
  congr 1
  show Ideal.log (shapeCast S5000x1 (multiReduction .add [1] S5000
            (exp (subf z (broadcastTo S5000x11
              (shapeCast S5000x1 (multiReduction .maximumf [1] S5000 z 0xFF800000#32 hr hφ hmx) hc) hb)))
            0x00000000#32 hr hφ hsm) hc (ix2 p (0 : Fin 1))) = _
  congr 1
  rw [col_apply, Ideal.multiReduction_add_single]
  refine Finset.sum_congr rfl fun (f : Fin 11) _ => ?_
  have hl : hr.lift (ix1 p) f = ix2 p f := lift_eq hr p f
  rw [hl]
  show Ideal.exp (z (ix2 p f) - broadcastTo S5000x11
          (shapeCast S5000x1 (multiReduction .maximumf [1] S5000 z 0xFF800000#32 hr hφ hmx) hc) hb (ix2 p f))
    = Ideal.exp (z (ix2 p f) - rowMax z p)
  rw [broadcastTo_a1_ab_apply, hmax]

/-- The output part of the head on a block: product, bias, log-softmax. -/
theorem pay3_1 (x : FVec Ideal S5000x50 .f32) (wm3 : Vec Ideal S50x11 .f32) (bm3 : Vec Ideal S1x11 .f32) :
    k3_pay1 (F := Ideal) x wm3 bm3 = logSoftmax (bias (mm x wm3) (rowOf bm3)) := by
  unfold k3_pay1
  simp only [shapeCast_self]
  rw [mm_50_11, bias_eq]
  exact lsm_eq _ _ _ _ _ _ _

/-- The whole head on a block. -/
theorem pay3 (d : Vec Ideal S5000x1 .f32) (a h : Vec Ideal S5000x100 .f32) (b3 : Vec Ideal S1x100 .f32)
    (wm1 : Vec Ideal S100x50 .f32) (bm1 : Vec Ideal S1x50 .f32) (wm2 : Vec Ideal S50x50 .f32)
    (bm2 : Vec Ideal S1x50 .f32) (wm3 : Vec Ideal S50x11 .f32) (bm3 : Vec Ideal S1x11 .f32) :
    k3_pay1 (F := Ideal) (k3_pay2 d a h b3 wm1 bm1 wm2 bm2) wm3 bm3
      = headK (finishK a h d b3) wm1 bm1 wm2 bm2 wm3 bm3 := by
  rw [pay3_1, pay3_2]
  rfl

end Cert.KernelIdeal.KVal

end
-- ==== Proof.KReg1.lean ====
/-
  Kernel region 1 (a layer's finish fused with the next layer's matrix product): row block t of
  (finish a h d b) · W and of that product with rows scaled by d, where a is the edge sum, h the previous
  product, d the inverse-root-degree column, b the bias row. After the ten row blocks are written back each
  output array is that function of the whole arrays as the region found them.
-/
import proofs.«110852_j50414326120717_2_alg».proof.Proof.Gen.KernelIdeal.Frame
import proofs.«110852_j50414326120717_2_alg».proof.Proof.KSpec
import proofs.«110852_j50414326120717_2_alg».proof.Proof.KPay
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx GcnSpec
open Idealize.ShloMosaic.Pipeline (Dat)
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

/-- The index maps of the seven windows over the ten grid points: the row-blocked windows move together,
    the bias and weight windows stay. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0
    ∧ win1_6.index t (0 : Fin 2) = win1_5.index t (0 : Fin 2) ∧ win1_6.index t (1 : Fin 2) = 0
    ∧ win1_5.index t (0 : Fin 2) ≤ 9 :=
  (by decide +kernel : ∀ t : Fin grid1.N, _)

/-- Every row block is some grid point's. -/
theorem idx_onto1 : ∀ q : Fin 10, ∃ t : Fin cfg1.N, win1_5.index t (0 : Fin 2) = q.val :=
  (by decide +kernel : ∀ q : Fin 10, ∃ t : Fin grid1.N, win1_5.index t (0 : Fin 2) = q.val)

/-- The edge-sum window's block at point t is a range of 5000 rows of its array. -/
theorem iblk1_0 (c : Dev nD) (t : Fin cfg1.N) (h : win1_5.index t (0 : Fin 2) * 5000 + 5000 ≤ 50000) :
    iblk1 V c 0 t = rowsFrom 5000 (win1_5.index t (0 : Fin 2) * 5000) h (V c main_v27) := by
  obtain ⟨e0, e1, e2, e3, e4, e5, e6, e7, e8, e9, e10, e11, e12, e13⟩ := idx_facts1 t
  funext y
  show V c main_v27 (((cfg1.win 0).blk t).view.emb y) = V c main_v27 _
  refine congrArg (V c main_v27) ?_
  funext a; apply Fin.ext
  match a with
  | ⟨0, _⟩ => show win1_0.index t (0 : Fin 2) * 5000 + 1 * (y 0).val = win1_5.index t (0 : Fin 2) * 5000 + (y 0).val; omega
  | ⟨1, _⟩ => show win1_0.index t (1 : Fin 2) * 100 + 1 * (y 1).val = (y 1).val; omega

/-- The previous product's window likewise. -/
theorem iblk1_1 (c : Dev nD) (t : Fin cfg1.N) (h : win1_5.index t (0 : Fin 2) * 5000 + 5000 ≤ 50000) :
    iblk1 V c 1 t = rowsFrom 5000 (win1_5.index t (0 : Fin 2) * 5000) h (V c main_v14_0) := by
  obtain ⟨e0, e1, e2, e3, e4, e5, e6, e7, e8, e9, e10, e11, e12, e13⟩ := idx_facts1 t
  funext y
  show V c main_v14_0 (((cfg1.win 1).blk t).view.emb y) = V c main_v14_0 _
  refine congrArg (V c main_v14_0) ?_
  funext a; apply Fin.ext
  match a with
  | ⟨0, _⟩ => show win1_1.index t (0 : Fin 2) * 5000 + 1 * (y 0).val = win1_5.index t (0 : Fin 2) * 5000 + (y 0).val; omega
  | ⟨1, _⟩ => show win1_1.index t (1 : Fin 2) * 100 + 1 * (y 1).val = (y 1).val; omega

/-- The inverse-root-degree column's window likewise. -/
theorem iblk1_2 (c : Dev nD) (t : Fin cfg1.N) (h : win1_5.index t (0 : Fin 2) * 5000 + 5000 ≤ 50000) :
    iblk1 V c 2 t = rowsFrom 5000 (win1_5.index t (0 : Fin 2) * 5000) h (V c main_v13) := by
  obtain ⟨e0, e1, e2, e3, e4, e5, e6, e7, e8, e9, e10, e11, e12, e13⟩ := idx_facts1 t
  funext y
  show V c main_v13 (((cfg1.win 2).blk t).view.emb y) = V c main_v13 _
  refine congrArg (V c main_v13) ?_
  funext a; apply Fin.ext
  match a with
  | ⟨0, _⟩ => show win1_2.index t (0 : Fin 2) * 5000 + 1 * (y 0).val = win1_5.index t (0 : Fin 2) * 5000 + (y 0).val; omega
  | ⟨1, _⟩ => show win1_2.index t (1 : Fin 2) * 1 + 1 * (y 1).val = (y 1).val; omega

/-- The bias row's window is the whole array at every point. -/
theorem iblk1_3 (c : Dev nD) (t : Fin cfg1.N) : iblk1 V c 3 t = V c main_v28 := by
  obtain ⟨e0, e1, e2, e3, e4, e5, e6, e7, e8, e9, e10, e11, e12, e13⟩ := idx_facts1 t
  funext y
  show V c main_v28 (((cfg1.win 3).blk t).view.emb y) = V c main_v28 y
  refine congrArg (V c main_v28) ?_
  funext a; apply Fin.ext
  match a with
  | ⟨0, _⟩ => show win1_3.index t (0 : Fin 2) * 1 + 1 * (y 0).val = (y 0).val; omega
  | ⟨1, _⟩ => show win1_3.index t (1 : Fin 2) * 100 + 1 * (y 1).val = (y 1).val; omega

/-- The weight matrix's window is the whole array at every point. -/
theorem iblk1_4 (c : Dev nD) (t : Fin cfg1.N) : iblk1 V c 4 t = V c main_arg5 := by
  obtain ⟨e0, e1, e2, e3, e4, e5, e6, e7, e8, e9, e10, e11, e12, e13⟩ := idx_facts1 t
  funext y
  show V c main_arg5 (((cfg1.win 4).blk t).view.emb y) = V c main_arg5 y
  refine congrArg (V c main_arg5) ?_
  funext a; apply Fin.ext
  match a with
  | ⟨0, _⟩ => show win1_4.index t (0 : Fin 2) * 100 + 1 * (y 0).val = (y 0).val; omega
  | ⟨1, _⟩ => show win1_4.index t (1 : Fin 2) * 100 + 1 * (y 1).val = (y 1).val; omega

/-- The product output of the region as a function of the arrays it found. -/
abbrev G1_5 (c : Dev nD) : Mat 50000 100 :=
  mm (finishK (V c main_v27) (V c main_v14_0) (V c main_v13) (V c main_v28)) (V c main_arg5)

set_option maxHeartbeats 1000000 in
/-- What grid point t writes back through the product window is block t of that function. -/
theorem flushed1_5 (c : Dev nD) (t : Fin cfg1.N) :
    (dat1 V c).flushed 5 t = ((cfg1.win 5).blk t).view.read (Elt Ideal) (G1_5 V c) := by
  show (cfg1.win 5).cut (grid1.coords t) ((dat1 V c).after 5 t) = _
  rw [after1_5]
  unfold out1_5
  rw [View.canon_unit_zero hz1]
  simp only [View.ld_unit_zero (S := S5000x100) hz1, View.ld_unit_zero (S := S5000x1) hz1, View.ld_unit_zero (S := S1x100) hz1, View.ld_unit_zero (S := S100x100) hz1]
  obtain ⟨e0, e1, e2, e3, e4, e5, e6, e7, e8, e9, e10, e11, e12, e13⟩ := idx_facts1 t
  have hb : win1_5.index t (0 : Fin 2) * 5000 + 5000 ≤ 50000 := by omega
  rw [iblk1_0 V c t hb, iblk1_1 V c t hb, iblk1_2 V c t hb, iblk1_3 V c t, iblk1_4 V c t]
  funext j
  refine (congrFun (pay1_2 _ _ _ _ _) j).trans ?_
  rw [finishK_rowsFrom, mm_rowsFrom, View.read_apply]
  refine congrArg (G1_5 V c) ?_
  funext a; apply Fin.ext
  match a with
  | ⟨0, _⟩ => show win1_5.index t (0 : Fin 2) * 5000 + (j 0).val = win1_5.index t (0 : Fin 2) * 5000 + 1 * (j 0).val; omega
  | ⟨1, _⟩ => show (j 1).val = win1_5.index t (1 : Fin 2) * 100 + 1 * (j 1).val; omega

/-- An index of the product output array is in grid point t's block iff each coordinate is in the block's range. -/
theorem mem_blk1_5 (t : Fin cfg1.N) (i : S50000x100.Idx) :
    i ∈ ((cfg1.win 5).blk t).view.set ↔ ∀ a : Fin 2, win1_5.index t a * S5000x100.size a ≤ (i a).val ∧ (i a).val < win1_5.index t a * S5000x100.size a + S5000x100.size a := by
  show i ∈ ((View.whole main_v29_0).slice (win1_5.rect t)).set ↔ _
  rw [View.set_slice_whole, Rect.mem_set_unit]
  exact Iff.rfl

/-- The ten row blocks tile the array. -/
theorem cover1_5' (i : S50000x100.Idx) : ∃ t : Fin cfg1.N, (cfg1.win 5).flush t = true ∧ i ∈ ((cfg1.win 5).blk t).view.set := by
  have hi0 : (i 0).val < 50000 := (i 0).isLt
  have hi1 : (i 1).val < 100 := (i 1).isLt
  obtain ⟨t, ht⟩ := idx_onto1 ⟨(i 0).val / 5000, by omega⟩
  obtain ⟨e0, e1, e2, e3, e4, e5, e6, e7, e8, e9, e10, e11, e12, e13⟩ := idx_facts1 t
  have ht' : win1_5.index t (0 : Fin 2) = (i 0).val / 5000 := ht
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 100 ≤ (i 1).val ∧ (i 1).val < win1_5.index t (1 : Fin 2) * 100 + 100; omega

/-- The product output array after the region. -/
theorem final1_5 (c : Dev nD) : (dat1 V c).arrAt 5 cfg1.N = G1_5 V c :=
  (dat1 V c).arrAt_eq_of_cover 5 _ (fun t _ => flushed1_5 V c t) cover1_5'

/-- The scaled output of the region as a function of the arrays it found. -/
abbrev G1_6 (c : Dev nD) : Mat 50000 100 := rowScale (G1_5 V c) (V c main_v13)

set_option maxHeartbeats 1000000 in
/-- What grid point t writes back through the scaled window is block t of that function. -/
theorem flushed1_6 (c : Dev nD) (t : Fin cfg1.N) :
    (dat1 V c).flushed 6 t = ((cfg1.win 6).blk t).view.read (Elt Ideal) (G1_6 V c) := by
  show (cfg1.win 6).cut (grid1.coords t) ((dat1 V c).after 6 t) = _
  rw [after1_6]
  unfold out1_6
  rw [View.canon_unit_zero hz1]
  simp only [View.ld_unit_zero (S := S5000x100) hz1, View.ld_unit_zero (S := S5000x1) hz1, View.ld_unit_zero (S := S1x100) hz1, View.ld_unit_zero (S := S100x100) hz1]
  obtain ⟨e0, e1, e2, e3, e4, e5, e6, e7, e8, e9, e10, e11, e12, e13⟩ := idx_facts1 t
  have hb : win1_5.index t (0 : Fin 2) * 5000 + 5000 ≤ 50000 := by omega
  rw [iblk1_0 V c t hb, iblk1_1 V c t hb, iblk1_2 V c t hb, iblk1_3 V c t, iblk1_4 V c t]
  funext j
  refine (congrFun (pay1_3 _ _ _ _ _) j).trans ?_
  rw [finishK_rowsFrom, mm_rowsFrom, rowScale_rowsFrom, View.read_apply]
  refine congrArg (G1_6 V c) ?_
  funext a; apply Fin.ext
  match a with
  | ⟨0, _⟩ => show win1_5.index t (0 : Fin 2) * 5000 + (j 0).val = win1_6.index t (0 : Fin 2) * 5000 + 1 * (j 0).val; omega
  | ⟨1, _⟩ => show (j 1).val = win1_6.index t (1 : Fin 2) * 100 + 1 * (j 1).val; omega

/-- An index of the scaled output array is in grid point t's block iff each coordinate is in the block's range. -/
theorem mem_blk1_6 (t : Fin cfg1.N) (i : S50000x100.Idx) :
    i ∈ ((cfg1.win 6).blk t).view.set ↔ ∀ a : Fin 2, win1_6.index t a * S5000x100.size a ≤ (i a).val ∧ (i a).val < win1_6.index t a * S5000x100.size a + S5000x100.size a := by
  show i ∈ ((View.whole main_v29_1).slice (win1_6.rect t)).set ↔ _
  rw [View.set_slice_whole, Rect.mem_set_unit]
  exact Iff.rfl

/-- The ten row blocks tile the scaled output array too. -/
theorem cover1_6' (i : S50000x100.Idx) : ∃ t : Fin cfg1.N, (cfg1.win 6).flush t = true ∧ i ∈ ((cfg1.win 6).blk t).view.set := by
  have hi0 : (i 0).val < 50000 := (i 0).isLt
  have hi1 : (i 1).val < 100 := (i 1).isLt
  obtain ⟨t, ht⟩ := idx_onto1 ⟨(i 0).val / 5000, by omega⟩
  obtain ⟨e0, e1, e2, e3, e4, e5, e6, e7, e8, e9, e10, e11, e12, e13⟩ := idx_facts1 t
  have ht' : win1_5.index t (0 : Fin 2) = (i 0).val / 5000 := ht
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 100 ≤ (i 1).val ∧ (i 1).val < win1_6.index t (1 : Fin 2) * 100 + 100; omega

/-- The scaled output array after the region. -/
theorem final1_6 (c : Dev nD) : (dat1 V c).arrAt 6 cfg1.N = G1_6 V c :=
  (dat1 V c).arrAt_eq_of_cover 6 _ (fun t _ => flushed1_6 V c t) cover1_6'

end Cert.KernelIdeal.KVal

end
-- ==== Proof.KReg2.lean ====
/-
  Kernel region 2 (a layer's finish fused with the next layer's matrix product): row block t of
  (finish a h d b) · W and of that product with rows scaled by d, where a is the edge sum, h the previous
  product, d the inverse-root-degree column, b the bias row. After the ten row blocks are written back each
  output array is that function of the whole arrays as the region found them.
-/
import proofs.«110852_j50414326120717_2_alg».proof.Proof.Gen.KernelIdeal.Frame
import proofs.«110852_j50414326120717_2_alg».proof.Proof.KSpec
import proofs.«110852_j50414326120717_2_alg».proof.Proof.KPay
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx GcnSpec
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- The index maps of the seven windows over the ten grid points: the row-blocked windows move together,
    the bias and weight windows stay. -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0
    ∧ win2_6.index t (0 : Fin 2) = win2_5.index t (0 : Fin 2) ∧ win2_6.index t (1 : Fin 2) = 0
    ∧ win2_5.index t (0 : Fin 2) ≤ 9 :=
  (by decide +kernel : ∀ t : Fin grid2.N, _)

/-- Every row block is some grid point's. -/
theorem idx_onto2 : ∀ q : Fin 10, ∃ t : Fin cfg2.N, win2_5.index t (0 : Fin 2) = q.val :=
  (by decide +kernel : ∀ q : Fin 10, ∃ t : Fin grid2.N, win2_5.index t (0 : Fin 2) = q.val)

/-- The edge-sum window's block at point t is a range of 5000 rows of its array. -/
theorem iblk2_0 (c : Dev nD) (t : Fin cfg2.N) (h : win2_5.index t (0 : Fin 2) * 5000 + 5000 ≤ 50000) :
    iblk2 V c 0 t = rowsFrom 5000 (win2_5.index t (0 : Fin 2) * 5000) h (V c main_v42) := by
  obtain ⟨e0, e1, e2, e3, e4, e5, e6, e7, e8, e9, e10, e11, e12, e13⟩ := idx_facts2 t
  funext y
  show V c main_v42 (((cfg2.win 0).blk t).view.emb y) = V c main_v42 _
  refine congrArg (V c main_v42) ?_
  funext a; apply Fin.ext
  match a with
  | ⟨0, _⟩ => show win2_0.index t (0 : Fin 2) * 5000 + 1 * (y 0).val = win2_5.index t (0 : Fin 2) * 5000 + (y 0).val; omega
  | ⟨1, _⟩ => show win2_0.index t (1 : Fin 2) * 100 + 1 * (y 1).val = (y 1).val; omega

/-- The previous product's window likewise. -/
theorem iblk2_1 (c : Dev nD) (t : Fin cfg2.N) (h : win2_5.index t (0 : Fin 2) * 5000 + 5000 ≤ 50000) :
    iblk2 V c 1 t = rowsFrom 5000 (win2_5.index t (0 : Fin 2) * 5000) h (V c main_v29_0) := by
  obtain ⟨e0, e1, e2, e3, e4, e5, e6, e7, e8, e9, e10, e11, e12, e13⟩ := idx_facts2 t
  funext y
  show V c main_v29_0 (((cfg2.win 1).blk t).view.emb y) = V c main_v29_0 _
  refine congrArg (V c main_v29_0) ?_
  funext a; apply Fin.ext
  match a with
  | ⟨0, _⟩ => show win2_1.index t (0 : Fin 2) * 5000 + 1 * (y 0).val = win2_5.index t (0 : Fin 2) * 5000 + (y 0).val; omega
  | ⟨1, _⟩ => show win2_1.index t (1 : Fin 2) * 100 + 1 * (y 1).val = (y 1).val; omega

/-- The inverse-root-degree column's window likewise. -/
theorem iblk2_2 (c : Dev nD) (t : Fin cfg2.N) (h : win2_5.index t (0 : Fin 2) * 5000 + 5000 ≤ 50000) :
    iblk2 V c 2 t = rowsFrom 5000 (win2_5.index t (0 : Fin 2) * 5000) h (V c main_v13) := by
  obtain ⟨e0, e1, e2, e3, e4, e5, e6, e7, e8, e9, e10, e11, e12, e13⟩ := idx_facts2 t
  funext y
  show V c main_v13 (((cfg2.win 2).blk t).view.emb y) = V c main_v13 _
  refine congrArg (V c main_v13) ?_
  funext a; apply Fin.ext
  match a with
  | ⟨0, _⟩ => show win2_2.index t (0 : Fin 2) * 5000 + 1 * (y 0).val = win2_5.index t (0 : Fin 2) * 5000 + (y 0).val; omega
  | ⟨1, _⟩ => show win2_2.index t (1 : Fin 2) * 1 + 1 * (y 1).val = (y 1).val; omega

/-- The bias row's window is the whole array at every point. -/
theorem iblk2_3 (c : Dev nD) (t : Fin cfg2.N) : iblk2 V c 3 t = V c main_v43 := by
  obtain ⟨e0, e1, e2, e3, e4, e5, e6, e7, e8, e9, e10, e11, e12, e13⟩ := idx_facts2 t
  funext y
  show V c main_v43 (((cfg2.win 3).blk t).view.emb y) = V c main_v43 y
  refine congrArg (V c main_v43) ?_
  funext a; apply Fin.ext
  match a with
  | ⟨0, _⟩ => show win2_3.index t (0 : Fin 2) * 1 + 1 * (y 0).val = (y 0).val; omega
  | ⟨1, _⟩ => show win2_3.index t (1 : Fin 2) * 100 + 1 * (y 1).val = (y 1).val; omega

/-- The weight matrix's window is the whole array at every point. -/
theorem iblk2_4 (c : Dev nD) (t : Fin cfg2.N) : iblk2 V c 4 t = V c main_arg7 := by
  obtain ⟨e0, e1, e2, e3, e4, e5, e6, e7, e8, e9, e10, e11, e12, e13⟩ := idx_facts2 t
  funext y
  show V c main_arg7 (((cfg2.win 4).blk t).view.emb y) = V c main_arg7 y
  refine congrArg (V c main_arg7) ?_
  funext a; apply Fin.ext
  match a with
  | ⟨0, _⟩ => show win2_4.index t (0 : Fin 2) * 100 + 1 * (y 0).val = (y 0).val; omega
  | ⟨1, _⟩ => show win2_4.index t (1 : Fin 2) * 100 + 1 * (y 1).val = (y 1).val; omega

/-- The product output of the region as a function of the arrays it found. -/
abbrev G2_5 (c : Dev nD) : Mat 50000 100 :=
  mm (finishK (V c main_v42) (V c main_v29_0) (V c main_v13) (V c main_v43)) (V c main_arg7)

set_option maxHeartbeats 1000000 in
/-- What grid point t writes back through the product window is block t of that function. -/
theorem flushed2_5 (c : Dev nD) (t : Fin cfg2.N) :
    (dat2 V c).flushed 5 t = ((cfg2.win 5).blk t).view.read (Elt Ideal) (G2_5 V c) := by
  show (cfg2.win 5).cut (grid2.coords t) ((dat2 V c).after 5 t) = _
  rw [after2_5]
  unfold out2_5
  rw [View.canon_unit_zero hz2]
  simp only [View.ld_unit_zero (S := S5000x100) hz2, View.ld_unit_zero (S := S5000x1) hz2, View.ld_unit_zero (S := S1x100) hz2, View.ld_unit_zero (S := S100x100) hz2]
  obtain ⟨e0, e1, e2, e3, e4, e5, e6, e7, e8, e9, e10, e11, e12, e13⟩ := idx_facts2 t
  have hb : win2_5.index t (0 : Fin 2) * 5000 + 5000 ≤ 50000 := by omega
  rw [iblk2_0 V c t hb, iblk2_1 V c t hb, iblk2_2 V c t hb, iblk2_3 V c t, iblk2_4 V c t]
  funext j
  refine (congrFun (pay2_2 _ _ _ _ _) j).trans ?_
  rw [finishK_rowsFrom, mm_rowsFrom, View.read_apply]
  refine congrArg (G2_5 V c) ?_
  funext a; apply Fin.ext
  match a with
  | ⟨0, _⟩ => show win2_5.index t (0 : Fin 2) * 5000 + (j 0).val = win2_5.index t (0 : Fin 2) * 5000 + 1 * (j 0).val; omega
  | ⟨1, _⟩ => show (j 1).val = win2_5.index t (1 : Fin 2) * 100 + 1 * (j 1).val; omega

/-- An index of the product output array is in grid point t's block iff each coordinate is in the block's range. -/
theorem mem_blk2_5 (t : Fin cfg2.N) (i : S50000x100.Idx) :
    i ∈ ((cfg2.win 5).blk t).view.set ↔ ∀ a : Fin 2, win2_5.index t a * S5000x100.size a ≤ (i a).val ∧ (i a).val < win2_5.index t a * S5000x100.size a + S5000x100.size a := by
  show i ∈ ((View.whole main_v44_0).slice (win2_5.rect t)).set ↔ _
  rw [View.set_slice_whole, Rect.mem_set_unit]
  exact Iff.rfl

/-- The ten row blocks tile the array. -/
theorem cover2_5' (i : S50000x100.Idx) : ∃ t : Fin cfg2.N, (cfg2.win 5).flush t = true ∧ i ∈ ((cfg2.win 5).blk t).view.set := by
  have hi0 : (i 0).val < 50000 := (i 0).isLt
  have hi1 : (i 1).val < 100 := (i 1).isLt
  obtain ⟨t, ht⟩ := idx_onto2 ⟨(i 0).val / 5000, by omega⟩
  obtain ⟨e0, e1, e2, e3, e4, e5, e6, e7, e8, e9, e10, e11, e12, e13⟩ := idx_facts2 t
  have ht' : win2_5.index t (0 : Fin 2) = (i 0).val / 5000 := ht
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 100 ≤ (i 1).val ∧ (i 1).val < win2_5.index t (1 : Fin 2) * 100 + 100; omega

/-- The product output array after the region. -/
theorem final2_5 (c : Dev nD) : (dat2 V c).arrAt 5 cfg2.N = G2_5 V c :=
  (dat2 V c).arrAt_eq_of_cover 5 _ (fun t _ => flushed2_5 V c t) cover2_5'

/-- The scaled output of the region as a function of the arrays it found. -/
abbrev G2_6 (c : Dev nD) : Mat 50000 100 := rowScale (G2_5 V c) (V c main_v13)

set_option maxHeartbeats 1000000 in
/-- What grid point t writes back through the scaled window is block t of that function. -/
theorem flushed2_6 (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]
  unfold out2_6
  rw [View.canon_unit_zero hz2]
  simp only [View.ld_unit_zero (S := S5000x100) hz2, View.ld_unit_zero (S := S5000x1) hz2, View.ld_unit_zero (S := S1x100) hz2, View.ld_unit_zero (S := S100x100) hz2]
  obtain ⟨e0, e1, e2, e3, e4, e5, e6, e7, e8, e9, e10, e11, e12, e13⟩ := idx_facts2 t
  have hb : win2_5.index t (0 : Fin 2) * 5000 + 5000 ≤ 50000 := by omega
  rw [iblk2_0 V c t hb, iblk2_1 V c t hb, iblk2_2 V c t hb, iblk2_3 V c t, iblk2_4 V c t]
  funext j
  refine (congrFun (pay2_3 _ _ _ _ _) j).trans ?_
  rw [finishK_rowsFrom, mm_rowsFrom, rowScale_rowsFrom, View.read_apply]
  refine congrArg (G2_6 V c) ?_
  funext a; apply Fin.ext
  match a with
  | ⟨0, _⟩ => show win2_5.index t (0 : Fin 2) * 5000 + (j 0).val = win2_6.index t (0 : Fin 2) * 5000 + 1 * (j 0).val; omega
  | ⟨1, _⟩ => show (j 1).val = win2_6.index t (1 : Fin 2) * 100 + 1 * (j 1).val; omega

/-- An index of the scaled output array is in grid point t's block iff each coordinate is in the block's range. -/
theorem mem_blk2_6 (t : Fin cfg2.N) (i : S50000x100.Idx) :
    i ∈ ((cfg2.win 6).blk t).view.set ↔ ∀ a : Fin 2, win2_6.index t a * S5000x100.size a ≤ (i a).val ∧ (i a).val < win2_6.index t a * S5000x100.size a + S5000x100.size a := by
  show i ∈ ((View.whole main_v44_1).slice (win2_6.rect t)).set ↔ _
  rw [View.set_slice_whole, Rect.mem_set_unit]
  exact Iff.rfl

/-- The ten row blocks tile the scaled output array too. -/
theorem cover2_6' (i : S50000x100.Idx) : ∃ t : Fin cfg2.N, (cfg2.win 6).flush t = true ∧ i ∈ ((cfg2.win 6).blk t).view.set := by
  have hi0 : (i 0).val < 50000 := (i 0).isLt
  have hi1 : (i 1).val < 100 := (i 1).isLt
  obtain ⟨t, ht⟩ := idx_onto2 ⟨(i 0).val / 5000, by omega⟩
  obtain ⟨e0, e1, e2, e3, e4, e5, e6, e7, e8, e9, e10, e11, e12, e13⟩ := idx_facts2 t
  have ht' : win2_5.index t (0 : Fin 2) = (i 0).val / 5000 := ht
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 100 ≤ (i 1).val ∧ (i 1).val < win2_6.index t (1 : Fin 2) * 100 + 100; omega

/-- The scaled output array after the region. -/
theorem final2_6 (c : Dev nD) : (dat2 V c).arrAt 6 cfg2.N = G2_6 V c :=
  (dat2 V c).arrAt_eq_of_cover 6 _ (fun t _ => flushed2_6 V c t) cover2_6'

end Cert.KernelIdeal.KVal

end
-- ==== Proof.KReg3.lean ====
/-
  The last kernel region (the third layer's finish fused with the perceptron head and the log-softmax):
  row block t of head (finish a h d b) with the head's weights and bias rows. After the ten row blocks are
  written back the output array is that function of the whole arrays as the region found them.
-/
import proofs.«110852_j50414326120717_2_alg».proof.Proof.Gen.KernelIdeal.Frame
import proofs.«110852_j50414326120717_2_alg».proof.Proof.KSpec
import proofs.«110852_j50414326120717_2_alg».proof.Proof.KPay
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx GcnSpec
open Idealize.ShloMosaic.Pipeline (Dat)
open scoped BigOperators

variable (V : (c : Dev nD) → (b : Ref sig .tc) → Buf (Elt Ideal) ((c : Thread nD τ).loc b))

theorem hz3 : (![0, 0] : Fin 2 → Nat) = fun _ => 0 := funext fun a => by fin_cases a <;> rfl

/-- The index maps of the eleven windows over the ten grid points: the row-blocked windows move together,
    the weight and bias windows stay. -/
theorem idx_facts3 : ∀ t : Fin cfg3.N,
    win3_0.index t (0 : Fin 2) = win3_10.index t (0 : Fin 2)
    ∧ win3_0.index t (1 : Fin 2) = 0
    ∧ win3_1.index t (0 : Fin 2) = win3_10.index t (0 : Fin 2)
    ∧ win3_1.index t (1 : Fin 2) = 0
    ∧ win3_2.index t (0 : Fin 2) = win3_10.index t (0 : Fin 2)
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (1 : Fin 2) = 0
    ∧ win3_10.index t (0 : Fin 2) ≤ 9 :=
  (by decide +kernel : ∀ t : Fin grid3.N, _)

/-- Every row block is some grid point's. -/
theorem idx_onto3 : ∀ q : Fin 10, ∃ t : Fin cfg3.N, win3_10.index t (0 : Fin 2) = q.val :=
  (by decide +kernel : ∀ q : Fin 10, ∃ t : Fin grid3.N, win3_10.index t (0 : Fin 2) = q.val)

/-- The edge sum's block at point t is a range of 5000 rows of its array. -/
theorem iblk3_0 (c : Dev nD) (t : Fin cfg3.N) (h : win3_10.index t (0 : Fin 2) * 5000 + 5000 ≤ 50000) :
    iblk3 V c 0 t = rowsFrom 5000 (win3_10.index t (0 : Fin 2) * 5000) h (V c main_v57) := by
  obtain ⟨e0, e1, e2, e3, e4, e5, e6, e7, e8, e9, e10, e11, e12, e13, e14, e15, e16, e17, e18, e19, e20, e21⟩ := idx_facts3 t
  funext y
  show V c main_v57 (((cfg3.win 0).blk t).view.emb y) = V c main_v57 _
  refine congrArg (V c main_v57) ?_
  funext a; apply Fin.ext
  match a with
  | ⟨0, _⟩ => show win3_0.index t (0 : Fin 2) * 5000 + 1 * (y 0).val = win3_10.index t (0 : Fin 2) * 5000 + (y 0).val; omega
  | ⟨1, _⟩ => show win3_0.index t (1 : Fin 2) * 100 + 1 * (y 1).val = (y 1).val; omega

/-- The previous product's block at point t is a range of 5000 rows of its array. -/
theorem iblk3_1 (c : Dev nD) (t : Fin cfg3.N) (h : win3_10.index t (0 : Fin 2) * 5000 + 5000 ≤ 50000) :
    iblk3 V c 1 t = rowsFrom 5000 (win3_10.index t (0 : Fin 2) * 5000) h (V c main_v44_0) := by
  obtain ⟨e0, e1, e2, e3, e4, e5, e6, e7, e8, e9, e10, e11, e12, e13, e14, e15, e16, e17, e18, e19, e20, e21⟩ := idx_facts3 t
  funext y
  show V c main_v44_0 (((cfg3.win 1).blk t).view.emb y) = V c main_v44_0 _
  refine congrArg (V c main_v44_0) ?_
  funext a; apply Fin.ext
  match a with
  | ⟨0, _⟩ => show win3_1.index t (0 : Fin 2) * 5000 + 1 * (y 0).val = win3_10.index t (0 : Fin 2) * 5000 + (y 0).val; omega
  | ⟨1, _⟩ => show win3_1.index t (1 : Fin 2) * 100 + 1 * (y 1).val = (y 1).val; omega

/-- The inverse-root-degree column's block at point t is a range of 5000 rows of its array. -/
theorem iblk3_2 (c : Dev nD) (t : Fin cfg3.N) (h : win3_10.index t (0 : Fin 2) * 5000 + 5000 ≤ 50000) :
    iblk3 V c 2 t = rowsFrom 5000 (win3_10.index t (0 : Fin 2) * 5000) h (V c main_v13) := by
  obtain ⟨e0, e1, e2, e3, e4, e5, e6, e7, e8, e9, e10, e11, e12, e13, e14, e15, e16, e17, e18, e19, e20, e21⟩ := idx_facts3 t
  funext y
  show V c main_v13 (((cfg3.win 2).blk t).view.emb y) = V c main_v13 _
  refine congrArg (V c main_v13) ?_
  funext a; apply Fin.ext
  match a with
  | ⟨0, _⟩ => show win3_2.index t (0 : Fin 2) * 5000 + 1 * (y 0).val = win3_10.index t (0 : Fin 2) * 5000 + (y 0).val; omega
  | ⟨1, _⟩ => show win3_2.index t (1 : Fin 2) * 1 + 1 * (y 1).val = (y 1).val; omega

/-- The layer bias row's window is the whole array at every point. -/
theorem iblk3_3 (c : Dev nD) (t : Fin cfg3.N) : iblk3 V c 3 t = V c main_v58 := by
  obtain ⟨e0, e1, e2, e3, e4, e5, e6, e7, e8, e9, e10, e11, e12, e13, e14, e15, e16, e17, e18, e19, e20, e21⟩ := idx_facts3 t
  funext y
  show V c main_v58 (((cfg3.win 3).blk t).view.emb y) = V c main_v58 y
  refine congrArg (V c main_v58) ?_
  funext a; apply Fin.ext
  match a with
  | ⟨0, _⟩ => show win3_3.index t (0 : Fin 2) * 1 + 1 * (y 0).val = (y 0).val; omega
  | ⟨1, _⟩ => show win3_3.index t (1 : Fin 2) * 100 + 1 * (y 1).val = (y 1).val; omega

/-- The first head weight's window is the whole array at every point. -/
theorem iblk3_4 (c : Dev nD) (t : Fin cfg3.N) : iblk3 V c 4 t = V c main_arg9 := by
  obtain ⟨e0, e1, e2, e3, e4, e5, e6, e7, e8, e9, e10, e11, e12, e13, e14, e15, e16, e17, e18, e19, e20, e21⟩ := idx_facts3 t
  funext y
  show V c main_arg9 (((cfg3.win 4).blk t).view.emb y) = V c main_arg9 y
  refine congrArg (V c main_arg9) ?_
  funext a; apply Fin.ext
  match a with
  | ⟨0, _⟩ => show win3_4.index t (0 : Fin 2) * 100 + 1 * (y 0).val = (y 0).val; omega
  | ⟨1, _⟩ => show win3_4.index t (1 : Fin 2) * 50 + 1 * (y 1).val = (y 1).val; omega

/-- The first head bias row's window is the whole array at every point. -/
theorem iblk3_5 (c : Dev nD) (t : Fin cfg3.N) : iblk3 V c 5 t = V c main_v59 := by
  obtain ⟨e0, e1, e2, e3, e4, e5, e6, e7, e8, e9, e10, e11, e12, e13, e14, e15, e16, e17, e18, e19, e20, e21⟩ := idx_facts3 t
  funext y
  show V c main_v59 (((cfg3.win 5).blk t).view.emb y) = V c main_v59 y
  refine congrArg (V c main_v59) ?_
  funext a; apply Fin.ext
  match a with
  | ⟨0, _⟩ => show win3_5.index t (0 : Fin 2) * 1 + 1 * (y 0).val = (y 0).val; omega
  | ⟨1, _⟩ => show win3_5.index t (1 : Fin 2) * 50 + 1 * (y 1).val = (y 1).val; omega

/-- The second head weight's window is the whole array at every point. -/
theorem iblk3_6 (c : Dev nD) (t : Fin cfg3.N) : iblk3 V c 6 t = V c main_arg11 := by
  obtain ⟨e0, e1, e2, e3, e4, e5, e6, e7, e8, e9, e10, e11, e12, e13, e14, e15, e16, e17, e18, e19, e20, e21⟩ := idx_facts3 t
  funext y
  show V c main_arg11 (((cfg3.win 6).blk t).view.emb y) = V c main_arg11 y
  refine congrArg (V c main_arg11) ?_
  funext a; apply Fin.ext
  match a with
  | ⟨0, _⟩ => show win3_6.index t (0 : Fin 2) * 50 + 1 * (y 0).val = (y 0).val; omega
  | ⟨1, _⟩ => show win3_6.index t (1 : Fin 2) * 50 + 1 * (y 1).val = (y 1).val; omega

/-- The second head bias row's window is the whole array at every point. -/
theorem iblk3_7 (c : Dev nD) (t : Fin cfg3.N) : iblk3 V c 7 t = V c main_v60 := by
  obtain ⟨e0, e1, e2, e3, e4, e5, e6, e7, e8, e9, e10, e11, e12, e13, e14, e15, e16, e17, e18, e19, e20, e21⟩ := idx_facts3 t
  funext y
  show V c main_v60 (((cfg3.win 7).blk t).view.emb y) = V c main_v60 y
  refine congrArg (V c main_v60) ?_
  funext a; apply Fin.ext
  match a with
  | ⟨0, _⟩ => show win3_7.index t (0 : Fin 2) * 1 + 1 * (y 0).val = (y 0).val; omega
  | ⟨1, _⟩ => show win3_7.index t (1 : Fin 2) * 50 + 1 * (y 1).val = (y 1).val; omega

/-- The third head weight's window is the whole array at every point. -/
theorem iblk3_8 (c : Dev nD) (t : Fin cfg3.N) : iblk3 V c 8 t = V c main_arg13 := by
  obtain ⟨e0, e1, e2, e3, e4, e5, e6, e7, e8, e9, e10, e11, e12, e13, e14, e15, e16, e17, e18, e19, e20, e21⟩ := idx_facts3 t
  funext y
  show V c main_arg13 (((cfg3.win 8).blk t).view.emb y) = V c main_arg13 y
  refine congrArg (V c main_arg13) ?_
  funext a; apply Fin.ext
  match a with
  | ⟨0, _⟩ => show win3_8.index t (0 : Fin 2) * 50 + 1 * (y 0).val = (y 0).val; omega
  | ⟨1, _⟩ => show win3_8.index t (1 : Fin 2) * 11 + 1 * (y 1).val = (y 1).val; omega

/-- The third head bias row's window is the whole array at every point. -/
theorem iblk3_9 (c : Dev nD) (t : Fin cfg3.N) : iblk3 V c 9 t = V c main_v61 := by
  obtain ⟨e0, e1, e2, e3, e4, e5, e6, e7, e8, e9, e10, e11, e12, e13, e14, e15, e16, e17, e18, e19, e20, e21⟩ := idx_facts3 t
  funext y
  show V c main_v61 (((cfg3.win 9).blk t).view.emb y) = V c main_v61 y
  refine congrArg (V c main_v61) ?_
  funext a; apply Fin.ext
  match a with
  | ⟨0, _⟩ => show win3_9.index t (0 : Fin 2) * 1 + 1 * (y 0).val = (y 0).val; omega
  | ⟨1, _⟩ => show win3_9.index t (1 : Fin 2) * 11 + 1 * (y 1).val = (y 1).val; omega

/-- The region's output as a function of the arrays it found. -/
abbrev G3_10 (c : Dev nD) : Mat 50000 11 :=
  headK (finishK (V c main_v57) (V c main_v44_0) (V c main_v13) (V c main_v58)) (V c main_arg9) (V c main_v59)
    (V c main_arg11) (V c main_v60) (V c main_arg13) (V c main_v61)

set_option maxHeartbeats 1000000 in
/-- What grid point t writes back is block t of that function. -/
theorem flushed3_10 (c : Dev nD) (t : Fin cfg3.N) :
    (dat3 V c).flushed 10 t = ((cfg3.win 10).blk t).view.read (Elt Ideal) (G3_10 V c) := by
  show (cfg3.win 10).cut (grid3.coords t) ((dat3 V c).after 10 t) = _
  rw [after3_10]
  unfold out3_10
  rw [View.canon_unit_zero hz3]
  simp only [View.ld_unit_zero (S := S5000x100) hz3, View.ld_unit_zero (S := S5000x1) hz3, View.ld_unit_zero (S := S1x100) hz3,
    View.ld_unit_zero (S := S100x50) hz3, View.ld_unit_zero (S := S1x50) hz3, View.ld_unit_zero (S := S50x50) hz3,
    View.ld_unit_zero (S := S50x11) hz3, View.ld_unit_zero (S := S1x11) hz3]
  obtain ⟨e0, e1, e2, e3, e4, e5, e6, e7, e8, e9, e10, e11, e12, e13, e14, e15, e16, e17, e18, e19, e20, e21⟩ := idx_facts3 t
  have hb : win3_10.index t (0 : Fin 2) * 5000 + 5000 ≤ 50000 := by omega
  rw [iblk3_0 V c t hb, iblk3_1 V c t hb, iblk3_2 V c t hb, iblk3_3 V c t, iblk3_4 V c t, iblk3_5 V c t, iblk3_6 V c t,
    iblk3_7 V c t, iblk3_8 V c t, iblk3_9 V c t]
  funext j
  refine (congrFun (pay3 _ _ _ _ _ _ _ _ _ _) j).trans ?_
  rw [finishK_rowsFrom, headK_rowsFrom, View.read_apply]
  refine congrArg (G3_10 V c) ?_
  funext a; apply Fin.ext
  match a with
  | ⟨0, _⟩ => show win3_10.index t (0 : Fin 2) * 5000 + (j 0).val = win3_10.index t (0 : Fin 2) * 5000 + 1 * (j 0).val; omega
  | ⟨1, _⟩ => show (j 1).val = win3_10.index t (1 : Fin 2) * 11 + 1 * (j 1).val; omega

/-- An index of the output array is in grid point t's block iff each coordinate is in the block's range. -/
theorem mem_blk3_10 (t : Fin cfg3.N) (i : S50000x11.Idx) :
    i ∈ ((cfg3.win 10).blk t).view.set ↔ ∀ a : Fin 2, win3_10.index t a * S5000x11.size a ≤ (i a).val ∧ (i a).val < win3_10.index t a * S5000x11.size a + S5000x11.size a := by
  show i ∈ ((View.whole main_v62).slice (win3_10.rect t)).set ↔ _
  rw [View.set_slice_whole, Rect.mem_set_unit]
  exact Iff.rfl

/-- The ten row blocks tile the array. -/
theorem cover3_10' (i : S50000x11.Idx) : ∃ t : Fin cfg3.N, (cfg3.win 10).flush t = true ∧ i ∈ ((cfg3.win 10).blk t).view.set := by
  have hi0 : (i 0).val < 50000 := (i 0).isLt
  have hi1 : (i 1).val < 11 := (i 1).isLt
  obtain ⟨t, ht⟩ := idx_onto3 ⟨(i 0).val / 5000, by omega⟩
  obtain ⟨e0, e1, e2, e3, e4, e5, e6, e7, e8, e9, e10, e11, e12, e13, e14, e15, e16, e17, e18, e19, e20, e21⟩ := idx_facts3 t
  have ht' : win3_10.index t (0 : Fin 2) = (i 0).val / 5000 := ht
  refine ⟨t, flush3_10 t, ?_⟩
  rw [mem_blk3_10]
  intro a
  match a with
  | ⟨0, _⟩ => show win3_10.index t (0 : Fin 2) * 5000 ≤ (i 0).val ∧ (i 0).val < win3_10.index t (0 : Fin 2) * 5000 + 5000; omega
  | ⟨1, _⟩ => show win3_10.index t (1 : Fin 2) * 11 ≤ (i 1).val ∧ (i 1).val < win3_10.index t (1 : Fin 2) * 11 + 11; omega

/-- The output array after the region. -/
theorem final3_10 (c : Dev nD) : (dat3 V c).arrAt 10 cfg3.N = G3_10 V c :=
  (dat3 V c).arrAt_eq_of_cover 10 _ (fun t _ => flushed3_10 V c t) cover3_10'

end Cert.KernelIdeal.KVal

end
-- ==== Proof.KEntry.lean ====
/-
  The kernel program's values named, and the contents each region finds read back to them. With x the node
  features, the edge list and weights, and the layers' weights and biases as launched:
    D  the inverse-root-degree column;
    H₁ = x · W₁,  A(hs) the edge sum of hs,
    H₂ = finish (A (D-scaled H₁)) H₁ D b₁ · W₂,   H₃ = finish (A (D-scaled H₂)) H₂ D b₂ · W₃,
    out = head (finish (A (D-scaled H₃)) H₃ D b₃).
  Each region's windows hold exactly these when the region is entered, so by the regions' value theorems the
  result buffer ends at out.
-/
import proofs.«110852_j50414326120717_2_alg».proof.Proof.KChain
import proofs.«110852_j50414326120717_2_alg».proof.Proof.KReg0
import proofs.«110852_j50414326120717_2_alg».proof.Proof.KReg1
import proofs.«110852_j50414326120717_2_alg».proof.Proof.KReg2
import proofs.«110852_j50414326120717_2_alg».proof.Proof.KReg3

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx GcnSpec
open Idealize.ShloMosaic.Pipeline (Dat)

variable (m : (ℓ : Loc nD τ sig) → Buf (Elt Ideal) ℓ) (ρ : Dev nD → PrngReg)

/-! ## The values -/

/-- The inverse-root-degree column. -/
def kD (c : Dev nD) : Mat 50000 1 := dinvColT (m ((c : Thread nD τ).loc main_arg1)) (m ((c : Thread nD τ).loc main_arg2))
/-- The first layer's matrix product. -/
def kH1 (c : Dev nD) : Mat 50000 100 := mm (m ((c : Thread nD τ).loc main_arg0)) (m ((c : Thread nD τ).loc main_arg3))
/-- The edge sum of a matrix of scaled features. -/
def kA (c : Dev nD) (hs : Mat 50000 100) : Mat 50000 100 := aggT (srcT (m ((c : Thread nD τ).loc main_arg1))) (dstT (m ((c : Thread nD τ).loc main_arg1))) (m ((c : Thread nD τ).loc main_arg2)) hs
/-- The second layer's matrix product. -/
def kH2 (c : Dev nD) : Mat 50000 100 :=
  mm (finishK (kA m c (rowScale (kH1 m c) (kD m c))) (kH1 m c) (kD m c) (row100T (m ((c : Thread nD τ).loc main_arg4)))) (m ((c : Thread nD τ).loc main_arg5))
/-- The third layer's matrix product. -/
def kH3 (c : Dev nD) : Mat 50000 100 :=
  mm (finishK (kA m c (rowScale (kH2 m c) (kD m c))) (kH2 m c) (kD m c) (row100T (m ((c : Thread nD τ).loc main_arg6)))) (m ((c : Thread nD τ).loc main_arg7))
/-- The program's result. -/
def kOut (c : Dev nD) : Mat 50000 11 :=
  headK (finishK (kA m c (rowScale (kH3 m c) (kD m c))) (kH3 m c) (kD m c) (row100T (m ((c : Thread nD τ).loc main_arg8)))) (m ((c : Thread nD τ).loc main_arg9)) (row50T (m ((c : Thread nD τ).loc main_arg10)))
    (m ((c : Thread nD τ).loc main_arg11)) (row50T (m ((c : Thread nD τ).loc main_arg12))) (m ((c : Thread nD τ).loc main_arg13)) (row11T (m ((c : Thread nD τ).loc main_arg14)))

/-! ## The long-lived buffers at each boundary -/

set_option maxHeartbeats 4000000 in
theorem W1_v1 (c : Dev nD) : W1 m ρ c (Proc.devRef .tc main_v1) = srcT (m ((c : Thread nD τ).loc main_arg1)) := by
  show StableHlo.after hostOps0 (W0 m ρ c) (Proc.devRef .tc main_v1) = _
  dsimp only [hostOps0]
  after_results_simp
  rfl

set_option maxHeartbeats 4000000 in
theorem W1_v3 (c : Dev nD) : W1 m ρ c (Proc.devRef .tc main_v3) = dstT (m ((c : Thread nD τ).loc main_arg1)) := by
  show StableHlo.after hostOps0 (W0 m ρ c) (Proc.devRef .tc main_v3) = _
  dsimp only [hostOps0]
  after_results_simp
  rfl

/-- The degree after the first stretch of host operations. -/
theorem W1_v8 (c : Dev nD) : W1 m ρ c (Proc.devRef .tc main_v8) = degT (m ((c : Thread nD τ).loc main_arg1)) (m ((c : Thread nD τ).loc main_arg2)) := by
  show StableHlo.after hostOps0 (W0 m ρ c) (Proc.devRef .tc main_v8) = _
  dsimp only [hostOps0]
  after_results_simp
  rfl

/-- The comparison "degree positive" after the first stretch, from the degree's buffer. -/
theorem W1_v10 (c : Dev nD) : W1 m ρ c (Proc.devRef .tc main_v10)
    = cmpf (F := Ideal) (φ := .f32) .ogt (W1 m ρ c (Proc.devRef .tc main_v8))
        (broadcastInDim S50000 ![] Facts₀.bcast_S_S50000 (constant (F := Ideal) S_ .f32 0x00000000#32)) := by
  show StableHlo.after hostOps0 (W0 m ρ c) (Proc.devRef .tc main_v10) = cmpf (F := Ideal) (φ := .f32) .ogt (StableHlo.after hostOps0 (W0 m ρ c) (Proc.devRef .tc main_v8)) _
  dsimp only [hostOps0]
  after_results_simp

/-- The reciprocal root of the degree after the first stretch, from the degree's buffer. -/
theorem W1_v11 (c : Dev nD) : W1 m ρ c (Proc.devRef .tc main_v11)
    = Host.rsqrt (F := Ideal) (φ := .f32) (W1 m ρ c (Proc.devRef .tc main_v8)) := by
  show StableHlo.after hostOps0 (W0 m ρ c) (Proc.devRef .tc main_v11) = Host.rsqrt (F := Ideal) (φ := .f32) (StableHlo.after hostOps0 (W0 m ρ c) (Proc.devRef .tc main_v8))
  dsimp only [hostOps0]
  after_results_simp

/-- The zero the selection falls back to. -/
theorem W1_cst2 (c : Dev nD) : W1 m ρ c (Proc.devRef .tc main_cst_2) = constant (F := Ideal) S_ .f32 0x00000000#32 := by
  show StableHlo.after hostOps0 (W0 m ρ c) (Proc.devRef .tc main_cst_2) = _
  dsimp only [hostOps0]
  after_results_simp

/-- The selection, from whatever the second stretch finds in its three operand buffers. -/
theorem where_read (W : Valuation τ sig (Elt Ideal)) :
    StableHlo.after hostOps0_1 W (Proc.devRef .tc main_v12)
      = select (W (Proc.devRef .tc main_v10)) (W (Proc.devRef .tc main_v11))
          (broadcastInDim S50000 ![] Facts₀.bcast_S_S50000 (W (Proc.devRef .tc main_cst_2))) := by
  dsimp only [hostOps0_1]
  after_results_simp
  rfl

/-- The inverse root degree after the second stretch. -/
theorem W2_v12 (c : Dev nD) : W2 m ρ c (Proc.devRef .tc main_v12) = dinvT (m ((c : Thread nD τ).loc main_arg1)) (m ((c : Thread nD τ).loc main_arg2)) := by
  show StableHlo.after hostOps0_1 (W1 m ρ c) (Proc.devRef .tc main_v12) = _
  rw [where_read, W1_v10 m ρ c, W1_v11 m ρ c, W1_cst2 m ρ c, W1_v8 m ρ c]
  rfl

/-- The column layout, from whatever the third stretch finds in its operand buffer. -/
theorem col_read (W : Valuation τ sig (Elt Ideal)) :
    StableHlo.after hostOps0_2 W (Proc.devRef .tc main_v13)
      = fun i => shapeCast S50000x1 (W (Proc.devRef .tc main_v12)) Facts₀.shapeCasts_S50000_S50000x1 i := by
  dsimp only [hostOps0_2]
  after_results_simp
  rfl

/-- The inverse-root-degree column at the first region's entry. -/
theorem W3_v13 (c : Dev nD) : W3 m ρ c (Proc.devRef .tc main_v13) = kD m c := by
  show StableHlo.after hostOps0_2 (W2 m ρ c) (Proc.devRef .tc main_v13) = _
  rw [col_read, W2_v12 m ρ c]
  rfl

theorem W4_v1 (c : Dev nD) : W4 m ρ c (Proc.devRef .tc main_v1) = srcT (m ((c : Thread nD τ).loc main_arg1)) :=
  (W4_main_v1 m ρ c).trans ((W3_main_v1 m ρ c).trans ((W2_main_v1 m ρ c).trans (W1_v1 m ρ c)))
theorem W4_v3 (c : Dev nD) : W4 m ρ c (Proc.devRef .tc main_v3) = dstT (m ((c : Thread nD τ).loc main_arg1)) :=
  (W4_main_v3 m ρ c).trans ((W3_main_v3 m ρ c).trans ((W2_main_v3 m ρ c).trans (W1_v3 m ρ c)))
theorem W4_arg2 (c : Dev nD) : W4 m ρ c (Proc.devRef .tc main_arg2) = (m ((c : Thread nD τ).loc main_arg2)) :=
  (W4_main_arg2 m ρ c).trans ((W3_main_arg2 m ρ c).trans ((W2_main_arg2 m ρ c).trans ((W1_main_arg2 m ρ c).trans (rfl))))

theorem W6_v1 (c : Dev nD) : W6 m ρ c (Proc.devRef .tc main_v1) = srcT (m ((c : Thread nD τ).loc main_arg1)) :=
  (W6_main_v1 m ρ c).trans ((W5_main_v1 m ρ c).trans ((W4_main_v1 m ρ c).trans ((W3_main_v1 m ρ c).trans ((W2_main_v1 m ρ c).trans (W1_v1 m ρ c)))))
theorem W6_v3 (c : Dev nD) : W6 m ρ c (Proc.devRef .tc main_v3) = dstT (m ((c : Thread nD τ).loc main_arg1)) :=
  (W6_main_v3 m ρ c).trans ((W5_main_v3 m ρ c).trans ((W4_main_v3 m ρ c).trans ((W3_main_v3 m ρ c).trans ((W2_main_v3 m ρ c).trans (W1_v3 m ρ c)))))
theorem W6_arg2 (c : Dev nD) : W6 m ρ c (Proc.devRef .tc main_arg2) = (m ((c : Thread nD τ).loc main_arg2)) :=
  (W6_main_arg2 m ρ c).trans ((W5_main_arg2 m ρ c).trans ((W4_main_arg2 m ρ c).trans ((W3_main_arg2 m ρ c).trans ((W2_main_arg2 m ρ c).trans ((W1_main_arg2 m ρ c).trans (rfl))))))

theorem W8_v1 (c : Dev nD) : W8 m ρ c (Proc.devRef .tc main_v1) = srcT (m ((c : Thread nD τ).loc main_arg1)) :=
  (W8_main_v1 m ρ c).trans ((W7_main_v1 m ρ c).trans ((W6_main_v1 m ρ c).trans ((W5_main_v1 m ρ c).trans ((W4_main_v1 m ρ c).trans ((W3_main_v1 m ρ c).trans ((W2_main_v1 m ρ c).trans (W1_v1 m ρ c)))))))
theorem W8_v3 (c : Dev nD) : W8 m ρ c (Proc.devRef .tc main_v3) = dstT (m ((c : Thread nD τ).loc main_arg1)) :=
  (W8_main_v3 m ρ c).trans ((W7_main_v3 m ρ c).trans ((W6_main_v3 m ρ c).trans ((W5_main_v3 m ρ c).trans ((W4_main_v3 m ρ c).trans ((W3_main_v3 m ρ c).trans ((W2_main_v3 m ρ c).trans (W1_v3 m ρ c)))))))
theorem W8_arg2 (c : Dev nD) : W8 m ρ c (Proc.devRef .tc main_arg2) = (m ((c : Thread nD τ).loc main_arg2)) :=
  (W8_main_arg2 m ρ c).trans ((W7_main_arg2 m ρ c).trans ((W6_main_arg2 m ρ c).trans ((W5_main_arg2 m ρ c).trans ((W4_main_arg2 m ρ c).trans ((W3_main_arg2 m ρ c).trans ((W2_main_arg2 m ρ c).trans ((W1_main_arg2 m ρ c).trans (rfl))))))))

theorem V5_v13 (c : Dev nD) : V5 m ρ c main_v13 = kD m c :=
  (W5_main_v13 m ρ c).trans ((W4_main_v13 m ρ c).trans (W3_v13 m ρ c))

theorem V7_v13 (c : Dev nD) : V7 m ρ c main_v13 = kD m c :=
  (W7_main_v13 m ρ c).trans ((W6_main_v13 m ρ c).trans ((W5_main_v13 m ρ c).trans ((W4_main_v13 m ρ c).trans (W3_v13 m ρ c))))

theorem V9_v13 (c : Dev nD) : V9 m ρ c main_v13 = kD m c :=
  (W9_main_v13 m ρ c).trans ((W8_main_v13 m ρ c).trans ((W7_main_v13 m ρ c).trans ((W6_main_v13 m ρ c).trans ((W5_main_v13 m ρ c).trans ((W4_main_v13 m ρ c).trans (W3_v13 m ρ c))))))

theorem W3_arg0 (c : Dev nD) : W3 m ρ c (Proc.devRef .tc main_arg0) = (m ((c : Thread nD τ).loc main_arg0)) :=
  (W3_main_arg0 m ρ c).trans ((W2_main_arg0 m ρ c).trans ((W1_main_arg0 m ρ c).trans (rfl)))

theorem W3_arg3 (c : Dev nD) : W3 m ρ c (Proc.devRef .tc main_arg3) = (m ((c : Thread nD τ).loc main_arg3)) :=
  (W3_main_arg3 m ρ c).trans ((W2_main_arg3 m ρ c).trans ((W1_main_arg3 m ρ c).trans (rfl)))

theorem W4_arg4 (c : Dev nD) : W4 m ρ c (Proc.devRef .tc main_arg4) = (m ((c : Thread nD τ).loc main_arg4)) :=
  (W4_main_arg4 m ρ c).trans ((W3_main_arg4 m ρ c).trans ((W2_main_arg4 m ρ c).trans ((W1_main_arg4 m ρ c).trans (rfl))))

theorem W5_arg5 (c : Dev nD) : W5 m ρ c (Proc.devRef .tc main_arg5) = (m ((c : Thread nD τ).loc main_arg5)) :=
  (W5_main_arg5 m ρ c).trans ((W4_main_arg5 m ρ c).trans ((W3_main_arg5 m ρ c).trans ((W2_main_arg5 m ρ c).trans ((W1_main_arg5 m ρ c).trans (rfl)))))

theorem W6_arg6 (c : Dev nD) : W6 m ρ c (Proc.devRef .tc main_arg6) = (m ((c : Thread nD τ).loc main_arg6)) :=
  (W6_main_arg6 m ρ c).trans ((W5_main_arg6 m ρ c).trans ((W4_main_arg6 m ρ c).trans ((W3_main_arg6 m ρ c).trans ((W2_main_arg6 m ρ c).trans ((W1_main_arg6 m ρ c).trans (rfl))))))

theorem W7_arg7 (c : Dev nD) : W7 m ρ c (Proc.devRef .tc main_arg7) = (m ((c : Thread nD τ).loc main_arg7)) :=
  (W7_main_arg7 m ρ c).trans ((W6_main_arg7 m ρ c).trans ((W5_main_arg7 m ρ c).trans ((W4_main_arg7 m ρ c).trans ((W3_main_arg7 m ρ c).trans ((W2_main_arg7 m ρ c).trans ((W1_main_arg7 m ρ c).trans (rfl)))))))

theorem W8_arg8 (c : Dev nD) : W8 m ρ c (Proc.devRef .tc main_arg8) = (m ((c : Thread nD τ).loc main_arg8)) :=
  (W8_main_arg8 m ρ c).trans ((W7_main_arg8 m ρ c).trans ((W6_main_arg8 m ρ c).trans ((W5_main_arg8 m ρ c).trans ((W4_main_arg8 m ρ c).trans ((W3_main_arg8 m ρ c).trans ((W2_main_arg8 m ρ c).trans ((W1_main_arg8 m ρ c).trans (rfl))))))))

theorem W9_arg9 (c : Dev nD) : W9 m ρ c (Proc.devRef .tc main_arg9) = (m ((c : Thread nD τ).loc main_arg9)) :=
  (W9_main_arg9 m ρ c).trans ((W8_main_arg9 m ρ c).trans ((W7_main_arg9 m ρ c).trans ((W6_main_arg9 m ρ c).trans ((W5_main_arg9 m ρ c).trans ((W4_main_arg9 m ρ c).trans ((W3_main_arg9 m ρ c).trans ((W2_main_arg9 m ρ c).trans ((W1_main_arg9 m ρ c).trans (rfl)))))))))

theorem W8_arg10 (c : Dev nD) : W8 m ρ c (Proc.devRef .tc main_arg10) = (m ((c : Thread nD τ).loc main_arg10)) :=
  (W8_main_arg10 m ρ c).trans ((W7_main_arg10 m ρ c).trans ((W6_main_arg10 m ρ c).trans ((W5_main_arg10 m ρ c).trans ((W4_main_arg10 m ρ c).trans ((W3_main_arg10 m ρ c).trans ((W2_main_arg10 m ρ c).trans ((W1_main_arg10 m ρ c).trans (rfl))))))))

theorem W9_arg11 (c : Dev nD) : W9 m ρ c (Proc.devRef .tc main_arg11) = (m ((c : Thread nD τ).loc main_arg11)) :=
  (W9_main_arg11 m ρ c).trans ((W8_main_arg11 m ρ c).trans ((W7_main_arg11 m ρ c).trans ((W6_main_arg11 m ρ c).trans ((W5_main_arg11 m ρ c).trans ((W4_main_arg11 m ρ c).trans ((W3_main_arg11 m ρ c).trans ((W2_main_arg11 m ρ c).trans ((W1_main_arg11 m ρ c).trans (rfl)))))))))

theorem W8_arg12 (c : Dev nD) : W8 m ρ c (Proc.devRef .tc main_arg12) = (m ((c : Thread nD τ).loc main_arg12)) :=
  (W8_main_arg12 m ρ c).trans ((W7_main_arg12 m ρ c).trans ((W6_main_arg12 m ρ c).trans ((W5_main_arg12 m ρ c).trans ((W4_main_arg12 m ρ c).trans ((W3_main_arg12 m ρ c).trans ((W2_main_arg12 m ρ c).trans ((W1_main_arg12 m ρ c).trans (rfl))))))))

theorem W9_arg13 (c : Dev nD) : W9 m ρ c (Proc.devRef .tc main_arg13) = (m ((c : Thread nD τ).loc main_arg13)) :=
  (W9_main_arg13 m ρ c).trans ((W8_main_arg13 m ρ c).trans ((W7_main_arg13 m ρ c).trans ((W6_main_arg13 m ρ c).trans ((W5_main_arg13 m ρ c).trans ((W4_main_arg13 m ρ c).trans ((W3_main_arg13 m ρ c).trans ((W2_main_arg13 m ρ c).trans ((W1_main_arg13 m ρ c).trans (rfl)))))))))

theorem W8_arg14 (c : Dev nD) : W8 m ρ c (Proc.devRef .tc main_arg14) = (m ((c : Thread nD τ).loc main_arg14)) :=
  (W8_main_arg14 m ρ c).trans ((W7_main_arg14 m ρ c).trans ((W6_main_arg14 m ρ c).trans ((W5_main_arg14 m ρ c).trans ((W4_main_arg14 m ρ c).trans ((W3_main_arg14 m ρ c).trans ((W2_main_arg14 m ρ c).trans ((W1_main_arg14 m ρ c).trans (rfl))))))))

/-! ## Region 0 -/

theorem V3_v13 (c : Dev nD) : V3 m ρ c main_v13 = kD m c := W3_v13 m ρ c

theorem W4_v14_0 (c : Dev nD) : W4 m ρ c (Proc.devRef .tc main_v14_0) = kH1 m c := by
  refine (W4_arr m ρ c 3).trans ((final0_3 (V3 m ρ) c).trans ?_)
  show mm (V3 m ρ c main_arg0) (V3 m ρ c main_arg3) = _
  rw [show V3 m ρ c main_arg0 = (m ((c : Thread nD τ).loc main_arg0)) from W3_arg0 m ρ c, show V3 m ρ c main_arg3 = (m ((c : Thread nD τ).loc main_arg3)) from W3_arg3 m ρ c]
  rfl

theorem W4_v14_1 (c : Dev nD) : W4 m ρ c (Proc.devRef .tc main_v14_1) = rowScale (kH1 m c) (kD m c) := by
  refine (W4_arr m ρ c 4).trans ((final0_4 (V3 m ρ) c).trans ?_)
  show rowScale (mm (V3 m ρ c main_arg0) (V3 m ρ c main_arg3)) (V3 m ρ c main_v13) = _
  rw [show V3 m ρ c main_arg0 = (m ((c : Thread nD τ).loc main_arg0)) from W3_arg0 m ρ c, show V3 m ρ c main_arg3 = (m ((c : Thread nD τ).loc main_arg3)) from W3_arg3 m ρ c, V3_v13 m ρ c]
  rfl

/-! ## Region 1 -/

set_option maxHeartbeats 4000000 in
theorem V5_main_v27 (c : Dev nD) : V5 m ρ c main_v27 = kA m c (rowScale (kH1 m c) (kD m c)) := by
  show StableHlo.after hostOps1 (W4 m ρ c) (Proc.devRef .tc main_v27) = _
  dsimp only [hostOps1]
  after_results_simp
  rw [W4_v1 m ρ c, W4_v3 m ρ c, W4_arg2 m ρ c, W4_v14_1 m ρ c]
  rfl

theorem V5_main_v14_0 (c : Dev nD) : V5 m ρ c main_v14_0 = kH1 m c :=
  (W5_main_v14_0 m ρ c).trans (W4_v14_0 m ρ c)

set_option maxHeartbeats 4000000 in
theorem V5_main_v28 (c : Dev nD) : V5 m ρ c main_v28 = row100T (m ((c : Thread nD τ).loc main_arg4)) := by
  show StableHlo.after hostOps1 (W4 m ρ c) (Proc.devRef .tc main_v28) = _
  dsimp only [hostOps1]
  after_results_simp
  rw [W4_arg4 m ρ c]
  rfl

theorem V5_arg5 (c : Dev nD) : V5 m ρ c main_arg5 = (m ((c : Thread nD τ).loc main_arg5)) := W5_arg5 m ρ c

theorem W6_v29_0 (c : Dev nD) : W6 m ρ c (Proc.devRef .tc main_v29_0) = kH2 m c := by
  refine (W6_arr m ρ c 5).trans ((final1_5 (V5 m ρ) c).trans ?_)
  show mm (finishK (V5 m ρ c main_v27) (V5 m ρ c main_v14_0) (V5 m ρ c main_v13) (V5 m ρ c main_v28)) (V5 m ρ c main_arg5) = _
  rw [V5_main_v27 m ρ c, V5_main_v14_0 m ρ c, V5_v13 m ρ c, V5_main_v28 m ρ c, V5_arg5 m ρ c]
  rfl

theorem W6_v29_1 (c : Dev nD) : W6 m ρ c (Proc.devRef .tc main_v29_1) = rowScale (kH2 m c) (kD m c) := by
  refine (W6_arr m ρ c 6).trans ((final1_6 (V5 m ρ) c).trans ?_)
  show rowScale (mm (finishK (V5 m ρ c main_v27) (V5 m ρ c main_v14_0) (V5 m ρ c main_v13) (V5 m ρ c main_v28)) (V5 m ρ c main_arg5)) (V5 m ρ c main_v13) = _
  rw [V5_main_v27 m ρ c, V5_main_v14_0 m ρ c, V5_v13 m ρ c, V5_main_v28 m ρ c, V5_arg5 m ρ c]
  rfl

/-! ## Region 2 -/

set_option maxHeartbeats 4000000 in
theorem V7_main_v42 (c : Dev nD) : V7 m ρ c main_v42 = kA m c (rowScale (kH2 m c) (kD m c)) := by
  show StableHlo.after hostOps2 (W6 m ρ c) (Proc.devRef .tc main_v42) = _
  dsimp only [hostOps2]
  after_results_simp
  rw [W6_v1 m ρ c, W6_v3 m ρ c, W6_arg2 m ρ c, W6_v29_1 m ρ c]
  rfl

theorem V7_main_v29_0 (c : Dev nD) : V7 m ρ c main_v29_0 = kH2 m c :=
  (W7_main_v29_0 m ρ c).trans (W6_v29_0 m ρ c)

set_option maxHeartbeats 4000000 in
theorem V7_main_v43 (c : Dev nD) : V7 m ρ c main_v43 = row100T (m ((c : Thread nD τ).loc main_arg6)) := by
  show StableHlo.after hostOps2 (W6 m ρ c) (Proc.devRef .tc main_v43) = _
  dsimp only [hostOps2]
  after_results_simp
  rw [W6_arg6 m ρ c]
  rfl

theorem V7_arg7 (c : Dev nD) : V7 m ρ c main_arg7 = (m ((c : Thread nD τ).loc main_arg7)) := W7_arg7 m ρ c

theorem W8_v44_0 (c : Dev nD) : W8 m ρ c (Proc.devRef .tc main_v44_0) = kH3 m c := by
  refine (W8_arr m ρ c 5).trans ((final2_5 (V7 m ρ) c).trans ?_)
  show mm (finishK (V7 m ρ c main_v42) (V7 m ρ c main_v29_0) (V7 m ρ c main_v13) (V7 m ρ c main_v43)) (V7 m ρ c main_arg7) = _
  rw [V7_main_v42 m ρ c, V7_main_v29_0 m ρ c, V7_v13 m ρ c, V7_main_v43 m ρ c, V7_arg7 m ρ c]
  rfl

theorem W8_v44_1 (c : Dev nD) : W8 m ρ c (Proc.devRef .tc main_v44_1) = rowScale (kH3 m c) (kD m c) := by
  refine (W8_arr m ρ c 6).trans ((final2_6 (V7 m ρ) c).trans ?_)
  show rowScale (mm (finishK (V7 m ρ c main_v42) (V7 m ρ c main_v29_0) (V7 m ρ c main_v13) (V7 m ρ c main_v43)) (V7 m ρ c main_arg7)) (V7 m ρ c main_v13) = _
  rw [V7_main_v42 m ρ c, V7_main_v29_0 m ρ c, V7_v13 m ρ c, V7_main_v43 m ρ c, V7_arg7 m ρ c]
  rfl

/-! ## Region 3 -/

set_option maxHeartbeats 4000000 in
theorem V9_main_v57 (c : Dev nD) : V9 m ρ c main_v57 = kA m c (rowScale (kH3 m c) (kD m c)) := by
  show StableHlo.after hostOps3 (W8 m ρ c) (Proc.devRef .tc main_v57) = _
  dsimp only [hostOps3]
  after_results_simp
  rw [W8_v1 m ρ c, W8_v3 m ρ c, W8_arg2 m ρ c, W8_v44_1 m ρ c]
  rfl

theorem V9_main_v44_0 (c : Dev nD) : V9 m ρ c main_v44_0 = kH3 m c :=
  (W9_main_v44_0 m ρ c).trans (W8_v44_0 m ρ c)

set_option maxHeartbeats 4000000 in
theorem V9_main_v58 (c : Dev nD) : V9 m ρ c main_v58 = row100T (m ((c : Thread nD τ).loc main_arg8)) := by
  show StableHlo.after hostOps3 (W8 m ρ c) (Proc.devRef .tc main_v58) = _
  dsimp only [hostOps3]
  after_results_simp
  rw [W8_arg8 m ρ c]
  rfl

set_option maxHeartbeats 4000000 in
theorem V9_main_v59 (c : Dev nD) : V9 m ρ c main_v59 = row50T (m ((c : Thread nD τ).loc main_arg10)) := by
  show StableHlo.after hostOps3 (W8 m ρ c) (Proc.devRef .tc main_v59) = _
  dsimp only [hostOps3]
  after_results_simp
  rw [W8_arg10 m ρ c]
  rfl

set_option maxHeartbeats 4000000 in
theorem V9_main_v60 (c : Dev nD) : V9 m ρ c main_v60 = row50T (m ((c : Thread nD τ).loc main_arg12)) := by
  show StableHlo.after hostOps3 (W8 m ρ c) (Proc.devRef .tc main_v60) = _
  dsimp only [hostOps3]
  after_results_simp
  rw [W8_arg12 m ρ c]
  rfl

set_option maxHeartbeats 4000000 in
theorem V9_main_v61 (c : Dev nD) : V9 m ρ c main_v61 = row11T (m ((c : Thread nD τ).loc main_arg14)) := by
  show StableHlo.after hostOps3 (W8 m ρ c) (Proc.devRef .tc main_v61) = _
  dsimp only [hostOps3]
  after_results_simp
  rw [W8_arg14 m ρ c]
  rfl

/-- The result buffer at the last boundary is the program's value. -/
theorem W10_v62 (c : Dev nD) : W10 m ρ c (Proc.devRef .tc main_v62) = kOut m c := by
  refine (W10_arr m ρ c 10).trans ((final3_10 (V9 m ρ) c).trans ?_)
  show headK (finishK (V9 m ρ c main_v57) (V9 m ρ c main_v44_0) (V9 m ρ c main_v13) (V9 m ρ c main_v58)) (V9 m ρ c main_arg9) (V9 m ρ c main_v59)
    (V9 m ρ c main_arg11) (V9 m ρ c main_v60) (V9 m ρ c main_arg13) (V9 m ρ c main_v61) = _
  rw [V9_main_v57 m ρ c, V9_main_v44_0 m ρ c, V9_v13 m ρ c, V9_main_v58 m ρ c, V9_main_v59 m ρ c, V9_main_v60 m ρ c, V9_main_v61 m ρ c,
    show V9 m ρ c main_arg9 = (m ((c : Thread nD τ).loc main_arg9)) from W9_arg9 m ρ c, show V9 m ρ c main_arg11 = (m ((c : Thread nD τ).loc main_arg11)) from W9_arg11 m ρ c,
    show V9 m ρ c main_arg13 = (m ((c : Thread nD τ).loc main_arg13)) from W9_arg13 m ρ c]
  rfl

end Cert.KernelIdeal.KVal

end
-- ==== Proof.LibHostRead.lean ====
/-
  Three host (StableHLO) operations READ AT AN INDEX, for the dimension numbers an indexed row read, an indexed
  accumulation and a two-piece join of flat arrays lower to. Generic over the sizes; nothing here mentions a program.

  * `stablehlo.gather` of rows (`x[idx]` along axis 0, `idx : [E, 1]`), of a matrix and of a flat array: the operand
    at the start index read signed and clamped into `[0, N − 1]` (`gather_rows2_apply`, `gather_rows1_apply`);
  * the accumulating `stablehlo.scatter` of rows (`x.at[idx].add(u)`), at the ideal instance: each operand element
    plus the sum, over the updates whose raw signed index IS that row, of the update's element — an index outside
    `[0, N)` lands nowhere and contributes nothing (`scatterAdd_rows2_apply`, `scatterAdd_rows1_apply`);
  * `concatenate` of two flat arrays: the first below the first extent, the second past it (`concat1_apply`).
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Idealize.ShloMosaic.HostRead

open Idealize.ShloMosaic Idealize.ShloMosaic.ValueIdx

/-! ## `stablehlo.gather` of whole rows, read at an index

What `x[idx]` of a matrix `x : [N, D]` (or of a flat array `x : [N]`) at a column of row numbers `idx : [E, 1]`
lowers to: the start index is one scalar, mapped to operand axis 0, which is collapsed; the slice is one whole row.
Result element `(e, c)` is the operand at row `idx[e, 0]`, read as a signed integer and clamped into `[0, N − 1]`
(StableHLO clamps every gather start index so that the slice fits), column `c`. -/

section Gather
variable {α : Type}

/-- The row-gather dimension numbers for an operand `[N, D]`, start indices `[E, 1]` and result `[E, D]`: offset axis
    `1` of the result, operand axis `0` collapsed and indexed, slice `1 × D`. The conditions `wf` are decided on a
    program's literal shapes. -/
abbrev gdims2 (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER OF A MATRIX READ AT `y = (e, c)`: the operand at row `idx[e, 0]` — read signed and clamped into
    `[0, N − 1]` — and column `c`. -/
theorem gather_rows2_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (gdims2 N E D wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (gdims2 N E D wf).start y idx 0 + (gdims2 N E D wf).batchCoord y 0 + (gdims2 N E D wf).offCoord y 0 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gdims2 N E D wf).startIndexMap from List.mem_singleton.mpr rfl)]
    have hsi : (gdims2 N E D wf).siIdx y ⟨List.idxOf (0 : Fin 2) (gdims2 N E D wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (gdims2 N E D wf).start y idx 1 + (gdims2 N E D wf).batchCoord y 1 + (gdims2 N E D wf).offCoord y 1 = (y 1).val
    rw [GatherDims.batchCoord_eq_zero _ _ _ List.not_mem_nil]
    have hs : (gdims2 N E D wf).start y idx 1 = 0 := by
      unfold GatherDims.start
      rw [dif_neg (show (1 : Fin 2) ∉ [(0 : Fin 2)] by decide)]
    rw [hs]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same at a result index given by its coordinates: row `e`, column `c` of the gather is the operand at the
    clamped row `idx[e, 0]`, column `c`. -/
theorem gather_rows2_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (gdims2 N E D wf) x idx (ix2 e c)
      = x (ix2 ⟨min (idx (ix2 e (0 : Fin 1))).toInt.toNat (N - 1), by omega⟩ c) :=
  gather_rows2_apply hN wf x idx (ix2 e c)

/-- The row-gather dimension numbers for a flat operand `[N]`, start indices `[E, 1]` and result `[E]`: no offset
    axis, operand axis `0` collapsed and indexed, slice of one element. -/
abbrev gdims1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ROW GATHER OF A FLAT ARRAY READ AT `y = (e)`: the operand at `idx[e, 0]`, read signed and clamped into
    `[0, N − 1]`. -/
theorem gather_rows1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gdims1 N E wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (gdims1 N E wf).start y idx 0 + (gdims1 N E wf).batchCoord y 0 + (gdims1 N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gdims1 N E wf).startIndexMap from List.mem_singleton.mpr rfl)]
  have hsi : (gdims1 N E wf).siIdx y ⟨List.idxOf (0 : Fin 1) (gdims1 N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The same at a result index given by its coordinate: element `e` of the gather is the operand at the clamped
    `idx[e, 0]`. -/
theorem gather_rows1_ix1 {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gdims1 N E wf) x idx (ix1 e)
      = x (ix1 ⟨min (idx (ix2 e (0 : Fin 1))).toInt.toNat (N - 1), by omega⟩) :=
  gather_rows1_apply hN wf x idx (ix1 e)

end Gather

/-! ## The accumulating `stablehlo.scatter` of rows, at the ideal instance, read at an index

What `x.at[idx].add(u)` of a matrix `x : [N, D]` (or a flat array `x : [N]`) at a column of row numbers `idx : [E, 1]`
lowers to: the scatter index is one scalar, mapped to operand axis 0, which is an inserted window axis; an update is one
whole row. Update `(e, c)` lands at row `idx[e, 0]` — read as a signed integer and NOT clamped —, column `c`, when that
row is in `[0, N)`, and nowhere otherwise. At the ideal instance the result element is the operand's plus the exact sum
of the updates landing on it. -/

section Scatter

/-- The row-scatter dimension numbers for an operand `[N, D]`, scatter indices `[E, 1]` and updates `[E, D]`: window
    axis `1` of the updates, operand axis `0` inserted and indexed. The conditions `wf` are decided on a program's
    literal shapes. -/
abbrev sdims2 (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Where update `(e, b)` lands: on operand element `(n, d)` exactly when its raw signed index `idx[e, 0]` is `n` and
    its column `b` is `d` (the start on axis 0 is the index, unclamped, and on axis 1 zero; the window coordinate is
    zero on axis 0 and `b` on axis 1; an index outside `[0, N)` lands nowhere). -/
theorem sdims2_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (b : Fin D) (n : Fin N) (d : Fin D) :
    (sdims2 N E D wf).resultIdx? (ix2 e b) idx = some (ix2 n d)
      ↔ (idx (ix2 e (0 : Fin 1))).toInt = (n.val : Int) ∧ b = d := by
  have hs0 : (sdims2 N E D wf).start (ix2 e b) idx 0 = (idx (ix2 e (0 : Fin 1))).toInt := by
    unfold ScatterDims.start
    rw [dif_pos (show (0 : Fin 2) ∈ (sdims2 N E D wf).scatterDimsToOperandDims from List.mem_singleton.mpr rfl)]
    have hsi : (sdims2 N E D wf).siIdx (ix2 e b) ⟨List.idxOf (0 : Fin 2) (sdims2 N E D wf).scatterDimsToOperandDims,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
  have hs1 : (sdims2 N E D wf).start (ix2 e b) idx 1 = 0 := by
    unfold ScatterDims.start
    rw [dif_neg (show (1 : Fin 2) ∉ [(0 : Fin 2)] by decide)]
  have hw0 : (sdims2 N E D wf).window (ix2 e b) 0 = 0 := by
    unfold ScatterDims.window
    rw [dif_neg (show (0 : Fin 2) ∉ (sdims2 N E D wf).sKept from (show (0 : Fin 2) ∉ (List.finRange 2).filter (· ∉ [(0 : Fin 2)]) by decide))]
  have hw1 : (sdims2 N E D wf).window (ix2 e b) 1 = b.val := by
    unfold ScatterDims.window
    rw [dif_pos (show (1 : Fin 2) ∈ (sdims2 N E D wf).sKept from (show (1 : Fin 2) ∈ (List.finRange 2).filter (· ∉ [(0 : Fin 2)]) by decide))]
    rfl
  unfold ScatterDims.resultIdx?
  constructor
  · intro h
    split at h
    · rename_i hall
      have hf := Option.some.inj h
      have h0 := congrArg (fun f => (f 0).val) hf
      have h1 := congrArg (fun f => (f 1).val) hf
      simp only [hs0, hs1, hw0, hw1] at h0 h1
      have hall0 := (hall 0).1
      rw [hs0, hw0] at hall0
      have hn : ((ix2 n d : (⟨2, ![N, D]⟩ : Shape).Idx) 0).val = n.val := rfl
      have hd : ((ix2 n d : (⟨2, ![N, D]⟩ : Shape).Idx) 1).val = d.val := rfl
      rw [hn] at h0; rw [hd] at h1
      refine ⟨by omega, Fin.ext (by omega)⟩
    · exact absurd h (by simp)
  · rintro ⟨h0, rfl⟩
    have hall : ∀ a, 0 ≤ (sdims2 N E D wf).start (ix2 e b) idx a + (sdims2 N E D wf).window (ix2 e b) a ∧
        (sdims2 N E D wf).start (ix2 e b) idx a + (sdims2 N E D wf).window (ix2 e b) a < (⟨2, ![N, D]⟩ : Shape).size a := by
      intro a
      match a with
      | ⟨0, _⟩ =>
        show 0 ≤ (sdims2 N E D wf).start (ix2 e b) idx 0 + (sdims2 N E D wf).window (ix2 e b) 0 ∧
          (sdims2 N E D wf).start (ix2 e b) idx 0 + (sdims2 N E D wf).window (ix2 e b) 0 < (N : Int)
        rw [hs0, hw0, h0]; have := n.isLt; omega
      | ⟨1, _⟩ =>
        show 0 ≤ (sdims2 N E D wf).start (ix2 e b) idx 1 + (sdims2 N E D wf).window (ix2 e b) 1 ∧
          (sdims2 N E D wf).start (ix2 e b) idx 1 + (sdims2 N E D wf).window (ix2 e b) 1 < (D : Int)
        rw [hs1, hw1]; have := b.isLt; omega
    rw [dif_pos hall]
    congr 1
    funext a; refine Fin.ext ?_
    match a with
    | ⟨0, _⟩ =>
      show ((sdims2 N E D wf).start (ix2 e b) idx 0 + (sdims2 N E D wf).window (ix2 e b) 0).toNat = n.val
      rw [hs0, hw0, h0]; omega
    | ⟨1, _⟩ =>
      show ((sdims2 N E D wf).start (ix2 e b) idx 1 + (sdims2 N E D wf).window (ix2 e b) 1).toNat = b.val
      rw [hs1, hw1]; omega

/-- THE ACCUMULATING ROW SCATTER INTO A MATRIX READ AT `(n, d)`: the operand's element plus the sum, over the updates
    `e` whose raw signed index `idx[e, 0]` equals `n`, of `upd[e, d]`. (The sum over the rank-2 update indices splits by
    coordinates; in row `e` only column `d` can land on `(n, d)`.) -/
theorem scatterAdd_rows2_ix2 {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (d : Fin D) :
    Host.scatterAdd (F := Ideal) (sdims2 N E D wf) x idx upd (ix2 n d)
      = x (ix2 n d) + ∑ e ∈ Finset.univ.filter (fun e : Fin E => (idx (ix2 e (0 : Fin 1))).toInt = (n.val : Int)),
          upd (ix2 e d) := by
  show x (ix2 n d) + ∑ j ∈ Finset.univ.filter (fun j => (sdims2 N E D wf).resultIdx? j idx = some (ix2 n d)), upd j = _
  congr 1
  rw [Finset.sum_filter, sum_idx2, Finset.sum_filter]
  refine Finset.sum_congr rfl fun e _ => ?_
  rw [Finset.sum_eq_single d]
  · by_cases hq : (idx (ix2 e (0 : Fin 1))).toInt = (n.val : Int)
    · rw [if_pos hq, if_pos ((sdims2_resultIdx?_eq_some wf idx e d n d).mpr ⟨hq, rfl⟩)]
    · rw [if_neg hq, if_neg (fun h => hq ((sdims2_resultIdx?_eq_some wf idx e d n d).mp h).1)]
  · intro b _ hb
    exact if_neg (fun h => hb ((sdims2_resultIdx?_eq_some wf idx e b n d).mp h).2)
  · intro h; exact absurd (Finset.mem_univ d) h

/-- The same at any operand index `i`: `x i` plus the sum over the updates whose raw signed index is `i`'s row of the
    update's element in `i`'s column. -/
theorem scatterAdd_rows2_apply {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : (⟨2, ![N, D]⟩ : Shape).Idx) :
    Host.scatterAdd (F := Ideal) (sdims2 N E D wf) x idx upd i
      = x i + ∑ e ∈ Finset.univ.filter (fun e : Fin E => (idx (ix2 e (0 : Fin 1))).toInt = ((i 0).val : Int)),
          upd (ix2 e (i 1)) := by
  obtain ⟨n, d, rfl⟩ : ∃ (n : Fin N) (d : Fin D), i = ix2 n d := ⟨i 0, i 1, eq_ix2 i⟩
  exact scatterAdd_rows2_ix2 wf x idx upd n d

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The element-scatter dimension numbers for a flat operand `[N]`, scatter indices `[E, 1]` and updates `[E]`: no
    window axis, operand axis `0` inserted and indexed. -/
abbrev sdims1 (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where update `e` lands: on operand element `n` exactly when its raw signed index `idx[e, 0]` is `n` (the start on
    axis 0 is the index, unclamped; the window coordinate is zero; an index outside `[0, N)` lands nowhere). -/
theorem sdims1_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (sdims1 N E wf).resultIdx? (ix1 e) idx = some (ix1 n)
      ↔ (idx (ix2 e (0 : Fin 1))).toInt = (n.val : Int) := by
  have hs0 : (sdims1 N E wf).start (ix1 e) idx 0 = (idx (ix2 e (0 : Fin 1))).toInt := by
    unfold ScatterDims.start
    rw [dif_pos (show (0 : Fin 1) ∈ (sdims1 N E wf).scatterDimsToOperandDims from List.mem_singleton.mpr rfl)]
    have hsi : (sdims1 N E wf).siIdx (ix1 e) ⟨List.idxOf (0 : Fin 1) (sdims1 N E wf).scatterDimsToOperandDims,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
  have hw0 : (sdims1 N E wf).window (ix1 e) 0 = 0 := by
    unfold ScatterDims.window
    rw [dif_neg (show (0 : Fin 1) ∉ (sdims1 N E wf).sKept from
      (show (0 : Fin 1) ∉ (List.finRange 1).filter (· ∉ [(0 : Fin 1)]) by decide))]
  unfold ScatterDims.resultIdx?
  constructor
  · intro h
    split at h
    · rename_i hall
      have hf := Option.some.inj h
      have h0 := congrArg (fun f => (f 0).val) hf
      simp only [hs0, hw0] at h0
      have hall0 := (hall 0).1
      rw [hs0, hw0] at hall0
      have hn : ((ix1 n : (⟨1, ![N]⟩ : Shape).Idx) 0).val = n.val := rfl
      rw [hn] at h0
      omega
    · exact absurd h (by simp)
  · intro h0
    have hall : ∀ a, 0 ≤ (sdims1 N E wf).start (ix1 e) idx a + (sdims1 N E wf).window (ix1 e) a ∧
        (sdims1 N E wf).start (ix1 e) idx a + (sdims1 N E wf).window (ix1 e) a < (⟨1, ![N]⟩ : Shape).size a := by
      intro a
      obtain rfl : a = 0 := Subsingleton.elim _ _
      show 0 ≤ (sdims1 N E wf).start (ix1 e) idx 0 + (sdims1 N E wf).window (ix1 e) 0 ∧
        (sdims1 N E wf).start (ix1 e) idx 0 + (sdims1 N E wf).window (ix1 e) 0 < (N : Int)
      rw [hs0, hw0, h0]; have := n.isLt; omega
    rw [dif_pos hall]
    congr 1
    funext a; refine Fin.ext ?_
    obtain rfl : a = 0 := Subsingleton.elim _ _
    show ((sdims1 N E wf).start (ix1 e) idx 0 + (sdims1 N E wf).window (ix1 e) 0).toNat = n.val
    rw [hs0, hw0, h0]; omega

/-- THE ACCUMULATING SCATTER INTO A FLAT ARRAY READ AT `n`: the operand's element plus the sum, over the updates `e`
    whose raw signed index `idx[e, 0]` equals `n`, of `upd[e]`. -/
theorem scatterAdd_rows1_ix1 {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (sdims1 N E wf) x idx upd (ix1 n)
      = x (ix1 n) + ∑ e ∈ Finset.univ.filter (fun e : Fin E => (idx (ix2 e (0 : Fin 1))).toInt = (n.val : Int)),
          upd (ix1 e) := by
  show x (ix1 n) + ∑ j ∈ Finset.univ.filter (fun j => (sdims1 N E wf).resultIdx? j idx = some (ix1 n)), upd j = _
  congr 1
  rw [Finset.sum_filter, sum_idx1, Finset.sum_filter]
  refine Finset.sum_congr rfl fun e _ => ?_
  by_cases hq : (idx (ix2 e (0 : Fin 1))).toInt = (n.val : Int)
  · rw [if_pos hq, if_pos ((sdims1_resultIdx?_eq_some wf idx e n).mpr hq)]
  · rw [if_neg hq, if_neg (fun h => hq ((sdims1_resultIdx?_eq_some wf idx e n).mp h))]

/-- The same at any operand index `i`: `x i` plus the sum over the updates whose raw signed index is `i`'s coordinate. -/
theorem scatterAdd_rows1_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (i : (⟨1, ![N]⟩ : Shape).Idx) :
    Host.scatterAdd (F := Ideal) (sdims1 N E wf) x idx upd i
      = x i + ∑ e ∈ Finset.univ.filter (fun e : Fin E => (idx (ix2 e (0 : Fin 1))).toInt = ((i 0).val : Int)),
          upd (ix1 e) := by
  obtain ⟨n, rfl⟩ : ∃ n : Fin N, i = ix1 n := ⟨i 0, eq_ix1 i⟩
  exact scatterAdd_rows1_ix1 wf x idx upd n

end Scatter

/-! ## A two-piece `concatenate` of flat arrays, read at an index

`jnp.concatenate([a, b])` of `a : [A]` and `b : [B]` into `[T]`, `T = A + B`: position `k` reads `a` at `k` below `A`
and `b` at `k − A` from `A` on. The total `T` is a parameter of its own (with `T = A + B` a hypothesis) so that the
lemmas apply to a program's literal total. -/

section Concatenate
variable {α : Type}

/-- A position below the first extent reads the first piece there. -/
theorem concat1_apply_left {A B T : Nat} (a : (⟨1, ![A]⟩ : Shape).Idx → α) (b : (⟨1, ![B]⟩ : Shape).Idx → α)
    (h : Shape.Concatenates [⟨1, ![A]⟩, ⟨1, ![B]⟩] ⟨1, ![T]⟩ 0) (k : Fin T) (hk : k.val < A) :
    concatenate ⟨1, ![T]⟩ 0 [⟨⟨1, ![A]⟩, a⟩, ⟨⟨1, ![B]⟩, b⟩] h (ix1 k) = a (ix1 ⟨k.val, hk⟩) := by
  refine concatenate_pair_apply_left 0 a b h (ix1 k) rfl (ix1 ⟨k.val, hk⟩) ?_
  intro c
  obtain rfl : c = 0 := Subsingleton.elim _ _
  rfl

/-- A position at or past the first extent reads the second piece, the first extent less. -/
theorem concat1_apply_right {A B T : Nat} (hT : T = A + B) (a : (⟨1, ![A]⟩ : Shape).Idx → α)
    (b : (⟨1, ![B]⟩ : Shape).Idx → α) (h : Shape.Concatenates [⟨1, ![A]⟩, ⟨1, ![B]⟩] ⟨1, ![T]⟩ 0) (k : Fin T)
    (hk : A ≤ k.val) :
    concatenate ⟨1, ![T]⟩ 0 [⟨⟨1, ![A]⟩, a⟩, ⟨⟨1, ![B]⟩, b⟩] h (ix1 k)
      = b (ix1 ⟨k.val - A, by have := k.isLt; omega⟩) := by
  refine concatenate_pair_apply_right 0 a b h (ix1 k) rfl rfl (ix1 ⟨k.val - A, by have := k.isLt; omega⟩) ?_ ?_
  · intro c hc
    exact absurd (Subsingleton.elim _ _) hc
  · show (k.val - A) + A = k.val
    omega

/-- Both at once: the concatenation read at `k` is the two pieces' coordinate functions appended, at `k`. -/
theorem concat1_apply {A B T : Nat} (hT : T = A + B) (a : (⟨1, ![A]⟩ : Shape).Idx → α)
    (b : (⟨1, ![B]⟩ : Shape).Idx → α) (h : Shape.Concatenates [⟨1, ![A]⟩, ⟨1, ![B]⟩] ⟨1, ![T]⟩ 0) (k : Fin T) :
    concatenate ⟨1, ![T]⟩ 0 [⟨⟨1, ![A]⟩, a⟩, ⟨⟨1, ![B]⟩, b⟩] h (ix1 k)
      = Fin.append (fun e => a (ix1 e)) (fun j => b (ix1 j)) (k.cast hT) := by
  by_cases hk : k.val < A
  · rw [concat1_apply_left a b h k hk]
    have hc : k.cast hT = Fin.castAdd B ⟨k.val, hk⟩ := Fin.ext rfl
    rw [hc, Fin.append_left]
  · have hk' : A ≤ k.val := Nat.le_of_not_lt hk
    rw [concat1_apply_right hT a b h k hk']
    have hc : k.cast hT = Fin.natAdd A ⟨k.val - A, by have := k.isLt; omega⟩ :=
      Fin.ext (by show k.val = A + (k.val - A); omega)
    rw [hc, Fin.append_right]

end Concatenate

end Idealize.ShloMosaic.HostRead

end
-- ==== Proof.RefStage.lean ====
/-
  The graph-convolution layer's index-driven stages, read at an index: the degree is an accumulating scatter of the
  weights at the destination words; a node read by an index word wraps a negative word and gathers with clamping; the
  layer is the accumulating scatter of the per-edge messages at the destination words, plus the bias, clamped at
  zero. Each stage is stated over arbitrary arrays of any edge count, with the readings it needs as hypotheses, so
  that every layer of either program instantiates the same lemmas; the last two lemmas specialise the scatters to
  the edge list with the self loops appended (the second spelling of the network).
-/
import proofs.«110852_j50414326120717_2_alg».proof.Proof.Spec
import proofs.«110852_j50414326120717_2_alg».proof.Proof.SpecEq
import proofs.«110852_j50414326120717_2_alg».proof.Proof.LibHostRead

noncomputable section

namespace GcnRef

open Idealize.ShloMosaic Idealize.ShloMosaic.ValueIdx Idealize.ShloMosaic.HostRead GcnSpec
open scoped BigOperators

/-- The index-word wrap as a program spells it: select on "the word is negative" between the word plus the node
    count and the word. -/
theorem wrap_read (v : BitVec 32) :
    Scalar.select (IntOp.cmpi .slt v 0#32) (IntOp.addi v 50000#32) v = wrapW v := by
  unfold Scalar.select IntOp.cmpi IntOp.addi wrapW
  cases h : v.slt 0#32 <;> simp [h]

/-- The gather of a node array at wrapped index words reads the node of the word. -/
theorem node_read1 {α : Type} {E : Nat}
    (wf : GatherDims.WF ⟨1, ![50000]⟩ ⟨2, ![E, 1]⟩ ⟨1, ![E]⟩ [] [0] [] [0] [] 1 ![1])
    (X : (⟨1, ![50000]⟩ : Shape).Idx → α) (Ix : IVec ⟨2, ![E, 1]⟩ 32) (k : Fin E) (v : BitVec 32)
    (hI : Ix (ix2 k (0 : Fin 1)) = wrapW v) :
    Host.gather (gdims1 50000 E wf) X Ix (ix1 k) = X (ix1 (node v)) := by
  rw [gather_rows1_ix1 (by norm_num)]
  have hn : (⟨min (Ix (ix2 k (0 : Fin 1))).toInt.toNat (50000 - 1), by omega⟩ : Fin 50000) = node v :=
    Fin.ext (by show min (Ix (ix2 k (0 : Fin 1))).toInt.toNat (50000 - 1) = min (wrapW v).toInt.toNat 49999; rw [hI])
  exact congrArg (fun n => X (ix1 n)) hn

/-- The gather of the rows of a node matrix at wrapped index words reads the row of the word's node. -/
theorem node_read2 {α : Type} {E D : Nat}
    (wf : GatherDims.WF ⟨2, ![50000, D]⟩ ⟨2, ![E, 1]⟩ ⟨2, ![E, D]⟩ [1] [0] [] [0] [] 1 ![1, D])
    (X : (⟨2, ![50000, D]⟩ : Shape).Idx → α) (Ix : IVec ⟨2, ![E, 1]⟩ 32) (k : Fin E) (f : Fin D)
    (v : BitVec 32) (hI : Ix (ix2 k (0 : Fin 1)) = wrapW v) :
    Host.gather (gdims2 50000 E D wf) X Ix (ix2 k f) = X (ix2 (node v) f) := by
  rw [gather_rows2_ix2 (by norm_num)]
  have hn : (⟨min (Ix (ix2 k (0 : Fin 1))).toInt.toNat (50000 - 1), by omega⟩ : Fin 50000) = node v :=
    Fin.ext (by show min (Ix (ix2 k (0 : Fin 1))).toInt.toNat (50000 - 1) = min (wrapW v).toInt.toNat 49999; rw [hI])
  exact congrArg (fun n => X (ix2 n f)) hn

/-- The accumulating scatter of an edge array into zeros at the edges' index words: at node `n`, zero plus the sum
    over the edges whose word, read signed, is `n`. -/
theorem scatter1_read {N E : Nat} (wf : ScatterDims.WF ⟨1, ![N]⟩ ⟨2, ![E, 1]⟩ ⟨1, ![E]⟩ [] [0] [0] 1)
    (Z : Arr N) (Dw : IVec ⟨2, ![E, 1]⟩ 32) (Wt : Arr E) (dw : Fin E → BitVec 32) (wt : Fin E → EReal)
    (hZ : ∀ n, Z n = 0) (hD : ∀ k : Fin E, Dw (ix2 k (0 : Fin 1)) = dw k) (hW : ∀ k : Fin E, Wt (ix1 k) = wt k)
    (n : Fin N) :
    Host.scatterAdd (F := Ideal) (φ := .f32) (sdims1 N E wf) Z Dw Wt (ix1 n)
      = (0 : EReal) + ∑ k : Fin E with (dw k).toInt = (n.val : Int), wt k := by
  rw [scatterAdd_rows1_ix1, hZ]
  simp only [hD, hW]

/-- The accumulating scatter of an edge matrix's rows into zeros at the edges' index words: at `(n, f)`, zero plus
    the sum over the edges whose word, read signed, is `n` of the edge's entry `f`. -/
theorem scatter2_read {N E D : Nat} (wf : ScatterDims.WF ⟨2, ![N, D]⟩ ⟨2, ![E, 1]⟩ ⟨2, ![E, D]⟩ [1] [0] [0] 1)
    (Z : Mat N D) (Dw : IVec ⟨2, ![E, 1]⟩ 32) (Msg : Mat E D) (dw : Fin E → BitVec 32) (msg : Fin E → Fin D → EReal)
    (hZ : ∀ i, Z i = 0) (hD : ∀ k : Fin E, Dw (ix2 k (0 : Fin 1)) = dw k)
    (hM : ∀ (k : Fin E) (f : Fin D), Msg (ix2 k f) = msg k f) (n : Fin N) (f : Fin D) :
    Host.scatterAdd (F := Ideal) (φ := .f32) (sdims2 N E D wf) Z Dw Msg (ix2 n f)
      = (0 : EReal) + ∑ k : Fin E with (dw k).toInt = (n.val : Int), msg k f := by
  rw [scatterAdd_rows2_ix2, hZ]
  simp only [hD, hM]

/-- The degree stage over the edge list with the self loops appended: the accumulating scatter of the extended
    weights into zeros at the extended destination words is the degree of the second spelling. -/
theorem deg_read (wf : ScatterDims.WF ⟨1, ![50000]⟩ ⟨2, ![850000, 1]⟩ ⟨1, ![850000]⟩ [] [0] [0] 1)
    (ei : Edges) (ew : Arr 800000) (Z : Arr 50000) (Dw : IVec ⟨2, ![850000, 1]⟩ 32) (Wt : Arr 850000)
    (hZ : ∀ n, Z n = 0) (hD : ∀ k : Fin 850000, Dw (ix2 k (0 : Fin 1)) = dstL ei k)
    (hW : ∀ k : Fin 850000, Wt (ix1 k) = wgtL ew k) (n : Fin 50000) :
    Host.scatterAdd (F := Ideal) (φ := .f32) (sdims1 50000 850000 wf) Z Dw Wt (ix1 n) = degL ei ew n :=
  scatter1_read wf Z Dw Wt (dstL ei) (wgtL ew) hZ hD hW n

/-- The layer stage over the edge list with the self loops appended: the accumulating scatter of the per-edge
    messages into zeros at the extended destination words, plus the bias, clamped at zero, is the layer in its second
    spelling. -/
theorem layer_read {K : Nat}
    (wf : ScatterDims.WF ⟨2, ![50000, 100]⟩ ⟨2, ![850000, 1]⟩ ⟨2, ![850000, 100]⟩ [1] [0] [0] 1)
    (ei : Edges) (ew : Arr 800000) (x : Mat 50000 K) (W : Mat K 100) (b : Arr 100)
    (Z : Mat 50000 100) (Dw : IVec ⟨2, ![850000, 1]⟩ 32) (Msg : Mat 850000 100)
    (hZ : ∀ i, Z i = 0) (hD : ∀ k : Fin 850000, Dw (ix2 k (0 : Fin 1)) = dstL ei k)
    (hM : ∀ (k : Fin 850000) (f : Fin 100), Msg (ix2 k f)
      = mm x W (ix2 (node (srcL ei k)) f)
          * ((dinvL ei ew (node (srcL ei k)) * wgtL ew k) * dinvL ei ew (node (dstL ei k))))
    (i : (⟨2, ![50000, 100]⟩ : Shape).Idx) :
    max (Host.scatterAdd (F := Ideal) (φ := .f32) (sdims2 50000 850000 100 wf) Z Dw Msg i + b (ix1 (i 1))) 0
      = layerL ei ew x W b i := by
  obtain ⟨n, f, rfl⟩ : ∃ (n : Fin 50000) (f : Fin 100), i = ix2 n f := ⟨i 0, i 1, eq_ix2 i⟩
  rw [scatter2_read wf Z Dw Msg (dstL ei) (fun k f => mm x W (ix2 (node (srcL ei k)) f)
    * ((dinvL ei ew (node (srcL ei k)) * wgtL ew k) * dinvL ei ew (node (dstL ei k)))) hZ hD hM n f]
  rfl

end GcnRef

end
-- ==== Proof.KHostRead.lean ====
/-
  The host operations around the kernel's regions, read at an index: the two rows of the edge list as the
  source and destination words, the degree and its guarded inverse root as a column, the edge sum of a
  layer as the accumulating scatter of gathered, weighted rows, and a bias vector as a one-row matrix.
  Also the block-level pieces with the inverse root degree as a column and the biases as rows against the
  network's own pieces.
-/
import proofs.«110852_j50414326120717_2_alg».proof.Proof.KHostDefs
import proofs.«110852_j50414326120717_2_alg».proof.Proof.Spec
import proofs.«110852_j50414326120717_2_alg».proof.Proof.KSpec
import proofs.«110852_j50414326120717_2_alg».proof.Proof.SpecEq
import proofs.«110852_j50414326120717_2_alg».proof.Proof.GcnMath
import proofs.«110852_j50414326120717_2_alg».proof.Proof.LibHostRead
import proofs.«110852_j50414326120717_2_alg».proof.Proof.RefStage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal GcnSpec GcnRef Idealize.ShloMosaic Idealize.ShloMosaic.ValueIdx
open Idealize.ShloMosaic.HostRead
open Cert.KernelIdeal.Facts₀ Cert.KernelIdeal.Facts
open scoped BigOperators

/-! ## The block-level pieces against the network's -/

/-- The layer finish with the inverse root degree as a column and the bias as a row is the network's finish. -/
theorem finishK_col (ei : Edges) (ew : Arr 800000) (a h : Mat 50000 100) (b : Mat 1 100) :
    finishK a h (fun i => dinv ei ew (i 0) : Mat 50000 1) b = finish ei ew a h (rowOf b) := rfl

/-- Scaling the rows by the inverse root degree column is the network's scaling. -/
theorem rowScale_col (ei : Edges) (ew : Arr 800000) (h : Mat 50000 100) :
    rowScale h (fun i => dinv ei ew (i 0) : Mat 50000 1) = scaled ei ew h := rfl

/-- The head with the biases as rows is the network's head at those rows read as vectors. -/
theorem headK_eq (x : Mat 50000 100) (Wm1 : Mat 100 50) (bm1 : Mat 1 50) (Wm2 : Mat 50 50) (bm2 : Mat 1 50)
    (Wm3 : Mat 50 11) (bm3 : Mat 1 11) :
    headK x Wm1 bm1 Wm2 bm2 Wm3 bm3 = head x Wm1 (rowOf bm1) Wm2 (rowOf bm2) Wm3 (rowOf bm3) := rfl

/-! ## Layout operations at an index -/

/-- A scalar broadcast to any shape reads the scalar. -/
theorem bcast0_apply {t : Shape} {α : Type} (dims : Fin S_.rank → Fin t.rank) (hb : S_.BroadcastsInDim t dims)
    (x : S_.Idx → α) (j : t.Idx) :
    broadcastInDim t dims hb x j = x (fun a => a.elim0) :=
  broadcastInDim_apply dims hb x j (fun a => a.elim0) (fun a => a.elim0)

/-- A flat array laid out as a column reads, at `(k, 0)`, the array at `k`. -/
theorem bcastCol_apply {E : Nat} {α : Type} (dims : Fin 1 → Fin 2) (hd : dims 0 = 0)
    (hb : (⟨1, ![E]⟩ : Shape).BroadcastsInDim ⟨2, ![E, 1]⟩ dims)
    (x : (⟨1, ![E]⟩ : Shape).Idx → α) (k : Fin E) :
    broadcastInDim ⟨2, ![E, 1]⟩ dims hb x (ix2 k (0 : Fin 1)) = x (ix1 k) := by
  refine broadcastInDim_apply dims hb x (ix2 k (0 : Fin 1)) (ix1 k) fun a => ?_
  match a with
  | ⟨0, _⟩ =>
    show k.val = if E = 1 then 0 else ((ix2 k (0 : Fin 1) : (⟨2, ![E, 1]⟩ : Shape).Idx) (dims 0)).val
    rw [hd]
    show k.val = if E = 1 then 0 else k.val
    split
    · have := k.isLt; omega
    · rfl

/-- The source words are row 0 of the edge list. -/
theorem srcT_apply (ei : Edges) (e : Fin 800000) : srcT ei (ix1 e) = srcW ei e := by
  unfold srcT
  refine (shapeCast_apply _ _ (ix1 e) (ix2 (0 : Fin 1) e) ?_).trans ?_
  · rw [Shape.rowMajor_val_one, Shape.rowMajor_val_two]
    show 0 * 800000 + e.val = e.val
    omega
  · refine extractStridedSlice_apply _ ei _ (ix2 (0 : Fin 1) e) (ix2 (0 : Fin 2) e) fun a => ?_
    match a with
    | ⟨0, _⟩ => rfl
    | ⟨1, _⟩ => show e.val = 0 + e.val; omega

/-- The destination words are row 1 of the edge list. -/
theorem dstT_apply (ei : Edges) (e : Fin 800000) : dstT ei (ix1 e) = dstW ei e := by
  unfold dstT
  refine (shapeCast_apply _ _ (ix1 e) (ix2 (0 : Fin 1) e) ?_).trans ?_
  · rw [Shape.rowMajor_val_one, Shape.rowMajor_val_two]
    show 0 * 800000 + e.val = e.val
    omega
  · refine extractStridedSlice_apply _ ei _ (ix2 (0 : Fin 1) e) (ix2 (1 : Fin 2) e) fun a => ?_
    match a with
    | ⟨0, _⟩ => rfl
    | ⟨1, _⟩ => show e.val = 0 + e.val; omega

/-- A flat array recast as a one-row matrix reads, at `(0, c)`, the array at `c`. -/
theorem rowCast_apply {n : Nat} {α : Type} (v : (⟨1, ![n]⟩ : Shape).Idx → α)
    (hc : (⟨1, ![n]⟩ : Shape).ShapeCasts ⟨2, ![1, n]⟩) (c : Fin n) :
    shapeCast ⟨2, ![1, n]⟩ v hc (ix2 (0 : Fin 1) c) = v (ix1 c) := by
  refine shapeCast_apply v hc (ix2 (0 : Fin 1) c) (ix1 c) ?_
  rw [Shape.rowMajor_val_one, Shape.rowMajor_val_two]
  show c.val = 0 * n + c.val
  omega

/-- A flat array recast as a one-column matrix reads, at `(p, 0)`, the array at `p`. -/
theorem colCast_apply {n : Nat} {α : Type} (v : (⟨1, ![n]⟩ : Shape).Idx → α)
    (hc : (⟨1, ![n]⟩ : Shape).ShapeCasts ⟨2, ![n, 1]⟩) (p : Fin n) :
    shapeCast ⟨2, ![n, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- A bias vector laid out as a row and read back as a vector is itself. -/
theorem rowOf_row100T (b : Arr 100) : rowOf (row100T b) = b := by
  funext i
  obtain ⟨c, rfl⟩ : ∃ c, i = ix1 c := ⟨i 0, eq_ix1 i⟩
  exact rowCast_apply b _ c

theorem rowOf_row50T (b : Arr 50) : rowOf (row50T b) = b := by
  funext i
  obtain ⟨c, rfl⟩ : ∃ c, i = ix1 c := ⟨i 0, eq_ix1 i⟩
  exact rowCast_apply b _ c

theorem rowOf_row11T (b : Arr 11) : rowOf (row11T b) = b := by
  funext i
  obtain ⟨c, rfl⟩ : ∃ c, i = ix1 c := ⟨i 0, eq_ix1 i⟩
  exact rowCast_apply b _ c

/-! ## The degree and its guarded inverse root -/

/-- The zero scalar broadcast to any shape is zero everywhere. -/
theorem zeros_apply {t : Shape} (dims : Fin S_.rank → Fin t.rank) (hb : S_.BroadcastsInDim t dims) (j : t.Idx) :
    broadcastInDim t dims hb (constant (F := Ideal) S_ .f32 0x00000000#32) j = (0 : EReal) := by
  rw [bcast0_apply]
  exact Ideal.ofBits_zero_f32

/-- The host inverse square root at an index. -/
theorem hostRsqrt_apply {s : Shape} (x : FVec Ideal s .f32) (i : s.Idx) :
    Host.rsqrt (F := Ideal) (φ := .f32) x i = Ideal.rsqrt (x i) := rfl

/-- The host degree at node `n`: the weights of the edges landing on `n`, plus one. -/
theorem degT_apply (ei : Edges) (ew : Arr 800000) (n : Fin 50000) : degT ei ew (ix1 n) = deg ei ew n := by
  have hZ : ∀ j : S50000.Idx,
      broadcastInDim S50000 ![] bcast_S_S50000 (constant (F := Ideal) S_ .f32 0x00000000#32) j = (0 : EReal) :=
    fun j => zeros_apply _ _ j
  have hD : ∀ k : Fin 800000,
      broadcastInDim S800000x1 ![0] bcast_S800000_S800000x1_0 (dstT ei) (ix2 k (0 : Fin 1)) = dstW ei k :=
    fun k => (bcastCol_apply _ rfl _ (dstT ei) k).trans (dstT_apply ei k)
  have hW : ∀ k : Fin 800000, ew (ix1 k) = wgt ew k := fun k => rfl
  have hs := scatter1_read (N := 50000) (E := 800000) scatter_S50000_S800000x1_S800000_n_0_0_1_wf
    _ _ ew (dstW ei) (wgt ew) hZ hD hW n
  unfold degT deg
  rw [addf_apply, bcast0_apply, constant_apply, GcnMath.ofBits_one]
  exact congrArg (fun t : EReal => t + 1) hs

/-- The host inverse root degree at node `n`. -/
theorem dinvT_apply (ei : Edges) (ew : Arr 800000) (n : Fin 50000) : dinvT ei ew (ix1 n) = dinv ei ew n := by
  unfold dinvT dinv
  rw [select_apply, cmpf_apply, hostRsqrt_apply, zeros_apply, degT_apply, Ideal.cmpf_def]
  exact gate_eq_select _

/-- The inverse root degree column is the network's inverse root degree at the row. -/
theorem dinvColT_eq (ei : Edges) (ew : Arr 800000) :
    dinvColT ei ew = (fun i => dinv ei ew (i 0) : Mat 50000 1) := by
  funext i
  obtain ⟨n, z, rfl⟩ : ∃ n z, i = ix2 n z := ⟨i 0, i 1, eq_ix2 i⟩
  obtain rfl : z = 0 := Subsingleton.elim _ _
  unfold dinvColT
  exact (colCast_apply (dinvT ei ew) _ n).trans (dinvT_apply ei ew n)

/-! ## The edge sum of a layer -/

/-- An integer scalar broadcast to any shape reads the scalar. -/
theorem constI_bcast_apply {t : Shape} (dims : Fin S_.rank → Fin t.rank) (hb : S_.BroadcastsInDim t dims)
    (b : BitVec 32) (j : t.Idx) : broadcastInDim t dims hb (constantI S_ 32 b) j = b := by
  rw [bcast0_apply]
  rfl

/-- An integer comparison of two arrays at an index. -/
theorem cmpiV_apply {s : Shape} {w : Nat} (p : CmpIPredicate) (x y : IVec s w) (i : s.Idx) :
    cmpi p x y i = IntOp.cmpi p (x i) (y i) := rfl

/-- An integer sum of two arrays at an index. -/
theorem addiV_apply {s : Shape} {w : Nat} (x y : IVec s w) (i : s.Idx) :
    addi x y i = IntOp.addi (x i) (y i) := rfl

/-- A column broadcast along a new second axis reads, at `(k, f)`, the column at `k`. -/
theorem bcastLanes_apply {E D : Nat} {α : Type} (dims : Fin 2 → Fin 2) (hd : dims 0 = 0)
    (hb : (⟨2, ![E, 1]⟩ : Shape).BroadcastsInDim ⟨2, ![E, D]⟩ dims)
    (x : (⟨2, ![E, 1]⟩ : Shape).Idx → α) (k : Fin E) (f : Fin D) :
    broadcastInDim ⟨2, ![E, D]⟩ dims hb x (ix2 k f) = x (ix2 k (0 : Fin 1)) := by
  refine broadcastInDim_apply dims hb x (ix2 k f) (ix2 k (0 : Fin 1)) fun a => ?_
  match a with
  | ⟨0, _⟩ =>
    show k.val = if E = 1 then 0 else ((ix2 k f : (⟨2, ![E, D]⟩ : Shape).Idx) (dims 0)).val
    rw [hd]
    show k.val = if E = 1 then 0 else k.val
    split
    · have := k.isLt; omega
    · rfl
  | ⟨1, _⟩ =>
    show (0 : Nat) = if (1 : Nat) = 1 then 0 else _
    rw [if_pos rfl]

/-- The source words, wrapped the array-indexing way and laid out as a column. -/
theorem wrapCol_apply (ei : Edges) (k : Fin 800000) :
    broadcastInDim S800000x1 ![0] bcast_S800000_S800000x1_0
        (select (cmpi .slt (srcT ei) (broadcastInDim S800000 ![] bcast_S_S800000 (constantI S_ 32 0#32)))
          (addi (srcT ei) (broadcastInDim S800000 ![] bcast_S_S800000 (constantI S_ 32 50000#32)))
          (srcT ei)) (ix2 k (0 : Fin 1))
      = wrapW (srcW ei k) := by
  rw [bcastCol_apply _ rfl, select_apply, cmpiV_apply, addiV_apply, constI_bcast_apply, constI_bcast_apply,
    srcT_apply]
  exact wrap_read _

/-- The host edge sum of a layer is the network's edge sum. -/
theorem aggT_eq (ei : Edges) (ew : Arr 800000) (hs : Mat 50000 100) :
    aggT (srcT ei) (dstT ei) ew hs = agg ei ew hs := by
  funext i
  obtain ⟨n, f, rfl⟩ : ∃ n f, i = ix2 n f := ⟨i 0, i 1, eq_ix2 i⟩
  have hZ : ∀ j : S50000x100.Idx,
      broadcastInDim S50000x100 ![] bcast_S_S50000x100 (constant (F := Ideal) S_ .f32 0x00000000#32) j
        = (0 : EReal) := fun j => zeros_apply _ _ j
  have hD : ∀ k : Fin 800000,
      broadcastInDim S800000x1 ![0] bcast_S800000_S800000x1_0 (dstT ei) (ix2 k (0 : Fin 1)) = dstW ei k :=
    fun k => (bcastCol_apply _ rfl _ (dstT ei) k).trans (dstT_apply ei k)
  have hM : ∀ (k : Fin 800000) (f : Fin 100),
      mulf (F := Ideal) (φ := .f32)
          (Host.gather gather_S50000x100_S800000x1_S800000x100_1_0_n_n_0_1_1100 hs
            (broadcastInDim S800000x1 ![0] bcast_S800000_S800000x1_0
              (select (cmpi .slt (srcT ei) (broadcastInDim S800000 ![] bcast_S_S800000 (constantI S_ 32 0#32)))
                (addi (srcT ei) (broadcastInDim S800000 ![] bcast_S_S800000 (constantI S_ 32 50000#32)))
                (srcT ei))))
          (broadcastInDim S800000x100 ![0, 1] bcast_S800000x1_S800000x100_0_1
            (broadcastInDim S800000x1 ![0] bcast_S800000_S800000x1_0 ew)) (ix2 k f)
        = hs (ix2 (node (srcW ei k)) f) * wgt ew k := by
    intro k f
    rw [mulf_apply, bcastLanes_apply _ rfl, bcastCol_apply _ rfl]
    have hg := node_read2 (E := 800000) (D := 100) gather_S50000x100_S800000x1_S800000x100_1_0_n_n_0_1_1100_wf
      hs _ k f (srcW ei k) (wrapCol_apply ei k)
    exact congrArg (fun t : EReal => t * wgt ew k) hg
  unfold aggT
  exact scatter2_read (N := 50000) (E := 800000) (D := 100) scatter_S50000x100_S800000x1_S800000x100_1_0_0_1_wf
    _ _ _ (dstW ei) (fun k f => hs (ix2 (node (srcW ei k)) f) * wgt ew k) hZ hD hM n f

end Cert.KernelIdeal.KVal

end
-- ==== Proof.KNet0.lean ====
/-
  The kernel program's value as nested block functions — inverse-root-degree column, matrix products, edge sums,
  layer finishes and the head with the biases as rows — is the network in its first spelling.
-/
import proofs.«110852_j50414326120717_2_alg».proof.Proof.KHostRead

set_option maxRecDepth 16384

noncomputable section

namespace Cert.KernelIdeal.KVal

open Cert.KernelIdeal GcnSpec Idealize.ShloMosaic Idealize.ShloMosaic.ValueIdx
open scoped BigOperators

/-- One layer as the kernel computes it — scale by the column, edge sum, finish with the column and the bias row — is
    the network's layer, given that the host edge sum is the network's. -/
theorem layerK_eq {K : Nat} (ei : Edges) (ew : Arr 800000)
    (hagg : ∀ hs : Mat 50000 100, aggT (srcT ei) (dstT ei) ew hs = agg ei ew hs)
    (x : Mat 50000 K) (W : Mat K 100) (b : Arr 100) :
    finishK (aggT (srcT ei) (dstT ei) ew (rowScale (mm x W) (dinvColT ei ew))) (mm x W) (dinvColT ei ew) (row100T b)
      = layer ei ew x W b := by
  rw [dinvColT_eq, rowScale_col, hagg, finishK_col, rowOf_row100T]
  rfl

/-- The three layers and the head, nested as the kernel computes them, are the network. -/
theorem netK_eq (ei : Edges) (ew : Arr 800000)
    (hagg : ∀ hs : Mat 50000 100, aggT (srcT ei) (dstT ei) ew hs = agg ei ew hs)
    (x : Mat 50000 200) (W1 : Mat 200 100) (b1 : Arr 100) (W2 : Mat 100 100) (b2 : Arr 100)
    (W3 : Mat 100 100) (b3 : Arr 100) (Wm1 : Mat 100 50) (bm1 : Arr 50) (Wm2 : Mat 50 50) (bm2 : Arr 50)
    (Wm3 : Mat 50 11) (bm3 : Arr 11) :
    headK
        (finishK
          (aggT (srcT ei) (dstT ei) ew
            (rowScale
              (mm (finishK
                (aggT (srcT ei) (dstT ei) ew
                  (rowScale
                    (mm (finishK (aggT (srcT ei) (dstT ei) ew (rowScale (mm x W1) (dinvColT ei ew))) (mm x W1)
                      (dinvColT ei ew) (row100T b1)) W2)
                    (dinvColT ei ew)))
                (mm (finishK (aggT (srcT ei) (dstT ei) ew (rowScale (mm x W1) (dinvColT ei ew))) (mm x W1)
                  (dinvColT ei ew) (row100T b1)) W2)
                (dinvColT ei ew) (row100T b2)) W3)
              (dinvColT ei ew)))
          (mm (finishK
            (aggT (srcT ei) (dstT ei) ew
              (rowScale
                (mm (finishK (aggT (srcT ei) (dstT ei) ew (rowScale (mm x W1) (dinvColT ei ew))) (mm x W1)
                  (dinvColT ei ew) (row100T b1)) W2)
                (dinvColT ei ew)))
            (mm (finishK (aggT (srcT ei) (dstT ei) ew (rowScale (mm x W1) (dinvColT ei ew))) (mm x W1)
              (dinvColT ei ew) (row100T b1)) W2)
            (dinvColT ei ew) (row100T b2)) W3)
          (dinvColT ei ew) (row100T b3))
        Wm1 (row50T bm1) Wm2 (row50T bm2) Wm3 (row11T bm3)
      = net x ei ew W1 b1 W2 b2 W3 b3 Wm1 bm1 Wm2 bm2 Wm3 bm3 := by
  rw [layerK_eq ei ew hagg x W1 b1, layerK_eq ei ew hagg _ W2 b2, layerK_eq ei ew hagg _ W3 b3, headK_eq,
    rowOf_row50T, rowOf_row50T, rowOf_row11T]
  rfl

end Cert.KernelIdeal.KVal

end
-- ==== Proof.KNet.lean ====
/-
  The kernel program's value, named in the entry module as nested block functions of the launched arrays, is the
  network in its first spelling applied to those arrays.
-/
import proofs.«110852_j50414326120717_2_alg».proof.Proof.KEntry
import proofs.«110852_j50414326120717_2_alg».proof.Proof.KNet0

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx GcnSpec

/-- The program's value is the network of the launched features, edge list, edge weights, and the layers' and the
    head's weights and biases. -/
theorem kOut_eq_net (m : (ℓ : Loc nD τ sig) → Buf (Elt Ideal) ℓ) (c : Dev nD) :
    kOut m c = net (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) := by
  unfold kOut kH3 kH2 kH1 kA kD
  exact netK_eq (m ((c : Thread nD τ).loc main_arg1)) (m ((c : Thread nD τ).loc main_arg2))
    (fun hs => aggT_eq (m ((c : Thread nD τ).loc main_arg1)) (m ((c : Thread nD τ).loc main_arg2)) hs)
    (m ((c : Thread nD τ).loc main_arg0)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

end Cert.KernelIdeal.KVal

end
-- ==== Proof.RefRunEq.lean ====
/-
  The reference program's run with its result at the composition of the program's stages: the term the run
  module states for the result buffer is, by unfolding, the last stage applied to the launched arguments.
-/
import proofs.«110852_j50414326120717_2_alg».proof.Proof.RefRunP
import proofs.«110852_j50414326120717_2_alg».proof.Proof.RefReadP

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 1000000 in
set_option maxHeartbeats 8000000 in
/-- The run's term for the result buffer is the last stage of the program at the launched arguments. -/
theorem res_eq_val (m : (ℓ : Loc nD τ sig) → Buf (Elt F) ℓ) (c : Dev nD) :
    Cert.ReferenceIdeal.Value.res_main_v156 m c = Cert.ReferenceIdeal.Read.val_main_v156 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.Value.res_main_v156; rfl

end Cert.ReferenceIdeal.RefValue

end
-- ==== Proof.RefGlue.lean ====
/-
  Small readings shared by the three layers and the head of the reference program: an index named by its
  coordinates, a matrix product's sum against the network's `mm`, the guarded inverse square root against the
  inverse root degree, the bit patterns of one and of zero, and the bias-and-clamp steps.
-/
import proofs.«110852_j50414326120717_2_alg».proof.Proof.RefStage

noncomputable section

namespace GcnRef

open Idealize.ShloMosaic Idealize.ShloMosaic.ValueIdx Idealize.ShloMosaic.HostRead GcnSpec
open scoped BigOperators

/-- A rank-2 index with the coordinates `a`, `b` is `ix2 a b`. -/
theorem idx2_eta {n0 n1 : Nat} (j : (⟨2, ![n0, n1]⟩ : Shape).Idx) (a : Fin n0) (b : Fin n1)
    (h0 : (j 0).val = a.val) (h1 : (j 1).val = b.val) : j = ix2 a b := by
  funext c
  refine Fin.ext ?_
  match c with
  | ⟨0, _⟩ => exact h0
  | ⟨1, _⟩ => exact h1

/-- A rank-1 index with the coordinate `a` is `ix1 a`. -/
theorem idx1_eta {n : Nat} (j : (⟨1, ![n]⟩ : Shape).Idx) (a : Fin n) (h0 : (j 0).val = a.val) : j = ix1 a := by
  funext c
  refine Fin.ext ?_
  match c with
  | ⟨0, _⟩ => exact h0

/-- The single-precision word `0x3F800000` denotes one. -/
theorem ofBits_one_f32 : Ideal.ofBits .f32 0x3F800000#32 = (1 : EReal) := by
  simp [Ideal.ofBits, Ideal.ieee, -EReal.coe_mul]
  norm_num

/-- A matrix product's sum over the contracted coordinate, its operands read at indices with the right coordinates,
    is the network's `mm`. -/
theorem mm_read {M K N : Nat} (x : Mat M K) (w : Mat K N) (i : (⟨2, ![M, N]⟩ : Shape).Idx)
    (li : Fin K → (⟨2, ![M, K]⟩ : Shape).Idx) (ri : Fin K → (⟨2, ![K, N]⟩ : Shape).Idx)
    (hl0 : ∀ k, (li k 0).val = (i 0).val) (hl1 : ∀ k, (li k 1).val = k.val)
    (hr0 : ∀ k, (ri k 0).val = k.val) (hr1 : ∀ k, (ri k 1).val = (i 1).val) :
    ∑ k : Fin K, x (li k) * w (ri k) = mm x w i := by
  unfold mm
  refine Finset.sum_congr rfl fun k _ => ?_
  rw [idx2_eta (li k) (i 0) k (hl0 k) (hl1 k), idx2_eta (ri k) k (i 1) (hr0 k) (hr1 k)]

/-- The guarded inverse square root as the program spells it — select on "greater than zero" between the inverse
    square root and zero — is `gate`. -/
theorem gate_read (x : EReal) :
    Scalar.select (FloatOps.cmpf (F := Ideal) (φ := .f32) .ogt x 0)
      (FloatOps.hostUnary (F := Ideal) (φ := .f32) .rsqrt x) 0 = gate x :=
  gate_eq_select x

/-- The guarded inverse square root of the degree is the inverse root degree. -/
theorem dinv_read (ei : Edges) (ew : Arr 800000) (n : Fin 50000) (d z0 z1 : EReal) (hd : d = degL ei ew n)
    (h0 : z0 = 0) (h1 : z1 = 0) :
    Scalar.select (FloatOps.cmpf (F := Ideal) (φ := .f32) .ogt d z0)
      (FloatOps.hostUnary (F := Ideal) (φ := .f32) .rsqrt d) z1 = dinvL ei ew n := by
  rw [hd, h0, h1, gate_read]
  unfold dinvL
  rfl

end GcnRef

end
-- ==== Proof.RefValue0.lean ====
/-
  The reference program's edge list with the self loops appended, read at an index: the source words, the
  destination words and the weights are each a two-piece concatenation — the edge array's row (or the weight array),
  then the node numbers (or ones) — and read `srcL`, `dstL`, `wgtL` of the second spelling of the network.
-/
import proofs.«110852_j50414326120717_2_alg».proof.Proof.RefReadP
import proofs.«110852_j50414326120717_2_alg».proof.Proof.RefGlue

noncomputable section

namespace GcnRef

open Cert.ReferenceIdeal.Read Cert.ReferenceIdeal Cert.ReferenceIdeal.Gen
open Idealize.ShloMosaic Idealize.ShloMosaic.ValueIdx Idealize.ShloMosaic.HostRead GcnSpec
open scoped BigOperators

/-- Row 0 of the edge array, flattened, is the source words. -/
theorem src_words (x1 : Edges) : (fun e : Fin 800000 => val_main_v1 (F := Ideal) x1 (ix1 e)) = srcW x1 := by
  funext e
  rw [val_main_v1_apply, val_main_v0_apply]
  unfold srcW
  exact congrArg x1 (idx2_eta _ (0 : Fin 2) e rfl (Nat.mod_eq_of_lt e.isLt))

/-- Row 1 of the edge array, flattened, is the destination words. -/
theorem dst_words (x1 : Edges) : (fun e : Fin 800000 => val_main_v3 (F := Ideal) x1 (ix1 e)) = dstW x1 := by
  funext e
  rw [val_main_v3_apply, val_main_v2_apply]
  unfold dstW
  exact congrArg x1 (idx2_eta _ (1 : Fin 2) e rfl (Nat.mod_eq_of_lt e.isLt))

/-- The source words followed by the node numbers are the source words of the extended edge list. -/
theorem srcL_read (x1 : Edges) (io : S50000.Idx → BitVec 32) (hio : ∀ j : Fin 50000, io (ix1 j) = loopW j)
    (h : Shape.Concatenates [S800000, S50000] S850000 0) (k : Fin 850000) :
    concatenate S850000 0 [⟨S800000, val_main_v1 (F := Ideal) x1⟩, ⟨S50000, io⟩] h (ix1 k) = srcL x1 k := by
  rw [concat1_apply (A := 800000) (B := 50000) rfl]
  unfold srcL
  rw [src_words, show (fun j : Fin 50000 => io (ix1 j)) = loopW from funext hio]
  rfl

/-- The destination words followed by the node numbers are the destination words of the extended edge list. -/
theorem dstL_read (x1 : Edges) (io : S50000.Idx → BitVec 32) (hio : ∀ j : Fin 50000, io (ix1 j) = loopW j)
    (h : Shape.Concatenates [S800000, S50000] S850000 0) (k : Fin 850000) :
    concatenate S850000 0 [⟨S800000, val_main_v3 (F := Ideal) x1⟩, ⟨S50000, io⟩] h (ix1 k) = dstL x1 k := by
  rw [concat1_apply (A := 800000) (B := 50000) rfl]
  unfold dstL
  rw [dst_words, show (fun j : Fin 50000 => io (ix1 j)) = loopW from funext hio]
  rfl

/-- The weights followed by ones are the weights of the extended edge list. -/
theorem wgtL_read (x2 : Arr 800000) (on : S50000.Idx → EReal) (hon : ∀ j : Fin 50000, on (ix1 j) = 1)
    (h : Shape.Concatenates [S800000, S50000] S850000 0) (k : Fin 850000) :
    concatenate S850000 0 [⟨S800000, x2⟩, ⟨S50000, on⟩] h (ix1 k) = wgtL x2 k := by
  rw [concat1_apply (A := 800000) (B := 50000) rfl]
  unfold wgtL
  rw [show (fun j : Fin 50000 => on (ix1 j)) = (fun _ => (1 : EReal)) from funext hon]
  rfl

end GcnRef

end
-- ==== Proof.RefValue1.lean ====
/-
  Layer 1 of the reference program against the second spelling of the network: the program's operations from the
  matrix product to the clamp at zero, read index by index, are `layerL` of the layer's input features.
-/
import proofs.«110852_j50414326120717_2_alg».proof.Proof.RefReadP
import proofs.«110852_j50414326120717_2_alg».proof.Proof.RefValue0

noncomputable section

namespace GcnRef

open Cert.ReferenceIdeal.Read Cert.ReferenceIdeal Cert.ReferenceIdeal.Gen
open Idealize.ShloMosaic Idealize.ShloMosaic.ValueIdx Idealize.ShloMosaic.HostRead GcnSpec
open scoped BigOperators

/-- Layer 1: the clamped, biased scatter of the per-edge messages is the layer of the second spelling, applied to
    the input features and this layer's weight matrix and bias. -/
theorem ref_layer1 (x0 : Mat 50000 200) (x1 : Edges) (x2 : Arr 800000) (x3 : Mat 200 100) (x4 : Arr 100) :
    val_main_v49 (F := Ideal) x0 x1 x2 x3 x4 = layerL x1 x2 x0 x3 x4 := by
  -- the words and weights of the edge list with the self loops appended
  have hsrc : ∀ k : Fin 850000, val_main_v6 (F := Ideal) x1 (ix1 k) = srcL x1 k := fun k => by
    unfold val_main_v6
    exact srcL_read x1 _ (fun j => rfl) _ k
  have hdst : ∀ k : Fin 850000, val_main_v7 (F := Ideal) x1 (ix1 k) = dstL x1 k := fun k => by
    unfold val_main_v7
    exact dstL_read x1 _ (fun j => rfl) _ k
  have hwgt : ∀ k : Fin 850000, val_main_v9 (F := Ideal) x2 (ix1 k) = wgtL x2 k := fun k => by
    unfold val_main_v9
    refine wgtL_read x2 _ (fun j => ?_) _ k
    rw [val_main_v8_apply, val_main_cst_apply, Ideal.ofBits_def, ofBits_one_f32]
  -- the degree and the inverse root degree
  have hdeg : ∀ n : Fin 50000, val_main_v12 (F := Ideal) x1 x2 (ix1 n) = degL x1 x2 n := fun n => by
    unfold val_main_v12
    refine deg_read scatter_S50000_S850000x1_S850000_n_0_0_1_wf x1 x2 _ _ _ (fun m => ?_) (fun k => ?_) hwgt n
    · rw [val_main_v10_apply, val_main_cst_0_apply, Ideal.ofBits_def, Ideal.ofBits_zero_f32]
    · rw [val_main_v11_apply, idx1_eta (idx_main_v11 (ix2 k (0 : Fin 1))) k rfl, hdst]
  have hdinv : ∀ n : Fin 50000, val_main_v16 (F := Ideal) x1 x2 (ix1 n) = dinvL x1 x2 n := fun n => by
    rw [val_main_v16_apply, val_main_v14_apply, val_main_v15_apply]
    refine dinv_read x1 x2 n _ _ _ (hdeg n) ?_ ?_
    · rw [val_main_v13_apply, val_main_cst_1_apply, Ideal.ofBits_def, Ideal.ofBits_zero_f32]
    · rw [val_main_call0_v1_apply, val_main_call0_v0_apply, val_main_cst_2_apply, Ideal.ofBits_def, Ideal.ofBits_zero_f32]
  -- the wrapped index words the three gathers read
  have hw22 : ∀ k : Fin 850000, val_main_v22 (F := Ideal) x1 (ix2 k (0 : Fin 1)) = wrapW (srcL x1 k) := fun k => by
    rw [val_main_v22_apply, idx1_eta (idx_main_v22 (ix2 k (0 : Fin 1))) k rfl, val_main_v21_apply, val_main_v18_apply, val_main_v20_apply, val_main_v17_apply, val_main_c_apply,
      val_main_v19_apply, val_main_c_3_apply, hsrc, wrap_read]
  have hw30 : ∀ k : Fin 850000, val_main_v30 (F := Ideal) x1 (ix2 k (0 : Fin 1)) = wrapW (dstL x1 k) := fun k => by
    rw [val_main_v30_apply, idx1_eta (idx_main_v30 (ix2 k (0 : Fin 1))) k rfl, val_main_v29_apply, val_main_v26_apply, val_main_v28_apply, val_main_v25_apply, val_main_c_4_apply,
      val_main_v27_apply, val_main_c_5_apply, hdst, wrap_read]
  have hw38 : ∀ k : Fin 850000, val_main_v38 (F := Ideal) x1 (ix2 k (0 : Fin 1)) = wrapW (srcL x1 k) := fun k => by
    rw [val_main_v38_apply, idx1_eta (idx_main_v38 (ix2 k (0 : Fin 1))) k rfl, val_main_v37_apply, val_main_v34_apply, val_main_v36_apply, val_main_v33_apply, val_main_c_6_apply,
      val_main_v35_apply, val_main_c_7_apply, hsrc, wrap_read]
  -- the matrix product and the per-edge messages
  have hmm : val_main_v4 (F := Ideal) x0 x3 = mm x0 x3 := by
    funext i
    rw [val_main_v4_apply]
    exact mm_read x0 x3 i (lidx_main_v4 i) (ridx_main_v4 i) (fun _ => rfl) (fun _ => rfl) (fun _ => rfl) (fun _ => rfl)
  have hmsg : ∀ (k : Fin 850000) (f : Fin 100), val_main_v42 (F := Ideal) x0 x1 x2 x3 (ix2 k f)
      = mm x0 x3 (ix2 (node (srcL x1 k)) f)
          * ((dinvL x1 x2 (node (srcL x1 k)) * wgtL x2 k) * dinvL x1 x2 (node (dstL x1 k))) := fun k f => by
    have h39 : val_main_v39 (F := Ideal) x0 x1 x3 (ix2 k f) = val_main_v4 (F := Ideal) x0 x3 (ix2 (node (srcL x1 k)) f) :=
      node_read2 gather_S50000x100_S850000x1_S850000x100_1_0_n_n_0_1_1100_wf _ _ k f _ (hw38 k)
    have h23 : val_main_v23 (F := Ideal) x1 x2 (ix1 k) = val_main_v16 (F := Ideal) x1 x2 (ix1 (node (srcL x1 k))) :=
      node_read1 gather_S50000_S850000x1_S850000_n_0_n_n_0_1_1_wf _ _ k _ (hw22 k)
    have h31 : val_main_v31 (F := Ideal) x1 x2 (ix1 k) = val_main_v16 (F := Ideal) x1 x2 (ix1 (node (dstL x1 k))) :=
      node_read1 gather_S50000_S850000x1_S850000_n_0_n_n_0_1_1_wf _ _ k _ (hw30 k)
    rw [val_main_v42_apply, val_main_v41_apply, idx2_eta (idx_main_v41 (ix2 k f)) k (0 : Fin 1) rfl rfl, val_main_v40_apply,
      idx1_eta (idx_main_v40 (ix2 k (0 : Fin 1))) k rfl, val_main_v32_apply, val_main_v24_apply, h39, h23, h31, hdinv, hdinv, hwgt, hmm]
    rfl
  -- the scatter of the messages, the bias and the clamp
  funext i
  rw [val_main_v49_apply, val_main_v48_apply, val_main_call1_v0_apply, val_main_call1_cst_apply, val_main_v47_apply, val_main_v46_apply, Ideal.ofBits_def, Ideal.ofBits_zero_f32,
    idx1_eta (idx_main_v46 (idx_main_v47 i)) (i 1) rfl]
  unfold val_main_v45
  exact layer_read scatter_S50000x100_S850000x1_S850000x100_1_0_0_1_wf x1 x2 x0 x3 x4 _ _ _
    (fun j => by rw [val_main_v43_apply, val_main_cst_8_apply, Ideal.ofBits_def, Ideal.ofBits_zero_f32])
    (fun k => by rw [val_main_v44_apply, idx1_eta (idx_main_v44 (ix2 k (0 : Fin 1))) k rfl, hdst]) hmsg i

end GcnRef

end
-- ==== Proof.RefValue2.lean ====
/-
  Layer 2 of the reference program against the second spelling of the network: the program's operations from the
  matrix product to the clamp at zero, read index by index, are `layerL` of the layer's input features.
-/
import proofs.«110852_j50414326120717_2_alg».proof.Proof.RefReadP
import proofs.«110852_j50414326120717_2_alg».proof.Proof.RefValue0

noncomputable section

namespace GcnRef

open Cert.ReferenceIdeal.Read Cert.ReferenceIdeal Cert.ReferenceIdeal.Gen
open Idealize.ShloMosaic Idealize.ShloMosaic.ValueIdx Idealize.ShloMosaic.HostRead GcnSpec
open scoped BigOperators

/-- Layer 2: the clamped, biased scatter of the per-edge messages is the layer of the second spelling, applied to
    the previous layer's result and this layer's weight matrix and bias. -/
theorem ref_layer2 (x0 : Mat 50000 200) (x1 : Edges) (x2 : Arr 800000) (x3 : Mat 200 100) (x4 : Arr 100) (x5 : Mat 100 100) (x6 : Arr 100) :
    val_main_v95 (F := Ideal) x0 x1 x2 x3 x4 x5 x6 = layerL x1 x2 (val_main_v49 (F := Ideal) x0 x1 x2 x3 x4) x5 x6 := by
  -- the words and weights of the edge list with the self loops appended
  have hsrc : ∀ k : Fin 850000, val_main_v52 (F := Ideal) x1 (ix1 k) = srcL x1 k := fun k => by
    unfold val_main_v52
    exact srcL_read x1 _ (fun j => rfl) _ k
  have hdst : ∀ k : Fin 850000, val_main_v53 (F := Ideal) x1 (ix1 k) = dstL x1 k := fun k => by
    unfold val_main_v53
    exact dstL_read x1 _ (fun j => rfl) _ k
  have hwgt : ∀ k : Fin 850000, val_main_v55 (F := Ideal) x2 (ix1 k) = wgtL x2 k := fun k => by
    unfold val_main_v55
    refine wgtL_read x2 _ (fun j => ?_) _ k
    rw [val_main_v54_apply, val_main_cst_9_apply, Ideal.ofBits_def, ofBits_one_f32]
  -- the degree and the inverse root degree
  have hdeg : ∀ n : Fin 50000, val_main_v58 (F := Ideal) x1 x2 (ix1 n) = degL x1 x2 n := fun n => by
    unfold val_main_v58
    refine deg_read scatter_S50000_S850000x1_S850000_n_0_0_1_wf x1 x2 _ _ _ (fun m => ?_) (fun k => ?_) hwgt n
    · rw [val_main_v56_apply, val_main_cst_10_apply, Ideal.ofBits_def, Ideal.ofBits_zero_f32]
    · rw [val_main_v57_apply, idx1_eta (idx_main_v57 (ix2 k (0 : Fin 1))) k rfl, hdst]
  have hdinv : ∀ n : Fin 50000, val_main_v62 (F := Ideal) x1 x2 (ix1 n) = dinvL x1 x2 n := fun n => by
    rw [val_main_v62_apply, val_main_v60_apply, val_main_v61_apply]
    refine dinv_read x1 x2 n _ _ _ (hdeg n) ?_ ?_
    · rw [val_main_v59_apply, val_main_cst_11_apply, Ideal.ofBits_def, Ideal.ofBits_zero_f32]
    · rw [val_main_call2_v1_apply, val_main_call2_v0_apply, val_main_cst_12_apply, Ideal.ofBits_def, Ideal.ofBits_zero_f32]
  -- the wrapped index words the three gathers read
  have hw22 : ∀ k : Fin 850000, val_main_v68 (F := Ideal) x1 (ix2 k (0 : Fin 1)) = wrapW (srcL x1 k) := fun k => by
    rw [val_main_v68_apply, idx1_eta (idx_main_v68 (ix2 k (0 : Fin 1))) k rfl, val_main_v67_apply, val_main_v64_apply, val_main_v66_apply, val_main_v63_apply, val_main_c_13_apply,
      val_main_v65_apply, val_main_c_14_apply, hsrc, wrap_read]
  have hw30 : ∀ k : Fin 850000, val_main_v76 (F := Ideal) x1 (ix2 k (0 : Fin 1)) = wrapW (dstL x1 k) := fun k => by
    rw [val_main_v76_apply, idx1_eta (idx_main_v76 (ix2 k (0 : Fin 1))) k rfl, val_main_v75_apply, val_main_v72_apply, val_main_v74_apply, val_main_v71_apply, val_main_c_15_apply,
      val_main_v73_apply, val_main_c_16_apply, hdst, wrap_read]
  have hw38 : ∀ k : Fin 850000, val_main_v84 (F := Ideal) x1 (ix2 k (0 : Fin 1)) = wrapW (srcL x1 k) := fun k => by
    rw [val_main_v84_apply, idx1_eta (idx_main_v84 (ix2 k (0 : Fin 1))) k rfl, val_main_v83_apply, val_main_v80_apply, val_main_v82_apply, val_main_v79_apply, val_main_c_17_apply,
      val_main_v81_apply, val_main_c_18_apply, hsrc, wrap_read]
  -- the matrix product and the per-edge messages
  have hmm : val_main_v50 (F := Ideal) x0 x1 x2 x3 x4 x5 = mm (val_main_v49 (F := Ideal) x0 x1 x2 x3 x4) x5 := by
    funext i
    rw [val_main_v50_apply]
    exact mm_read (val_main_v49 (F := Ideal) x0 x1 x2 x3 x4) x5 i (lidx_main_v50 i) (ridx_main_v50 i) (fun _ => rfl) (fun _ => rfl) (fun _ => rfl) (fun _ => rfl)
  have hmsg : ∀ (k : Fin 850000) (f : Fin 100), val_main_v88 (F := Ideal) x0 x1 x2 x3 x4 x5 (ix2 k f)
      = mm (val_main_v49 (F := Ideal) x0 x1 x2 x3 x4) x5 (ix2 (node (srcL x1 k)) f)
          * ((dinvL x1 x2 (node (srcL x1 k)) * wgtL x2 k) * dinvL x1 x2 (node (dstL x1 k))) := fun k f => by
    have h39 : val_main_v85 (F := Ideal) x0 x1 x2 x3 x4 x5 (ix2 k f) = val_main_v50 (F := Ideal) x0 x1 x2 x3 x4 x5 (ix2 (node (srcL x1 k)) f) :=
      node_read2 gather_S50000x100_S850000x1_S850000x100_1_0_n_n_0_1_1100_wf _ _ k f _ (hw38 k)
    have h23 : val_main_v69 (F := Ideal) x1 x2 (ix1 k) = val_main_v62 (F := Ideal) x1 x2 (ix1 (node (srcL x1 k))) :=
      node_read1 gather_S50000_S850000x1_S850000_n_0_n_n_0_1_1_wf _ _ k _ (hw22 k)
    have h31 : val_main_v77 (F := Ideal) x1 x2 (ix1 k) = val_main_v62 (F := Ideal) x1 x2 (ix1 (node (dstL x1 k))) :=
      node_read1 gather_S50000_S850000x1_S850000_n_0_n_n_0_1_1_wf _ _ k _ (hw30 k)
    rw [val_main_v88_apply, val_main_v87_apply, idx2_eta (idx_main_v87 (ix2 k f)) k (0 : Fin 1) rfl rfl, val_main_v86_apply,
      idx1_eta (idx_main_v86 (ix2 k (0 : Fin 1))) k rfl, val_main_v78_apply, val_main_v70_apply, h39, h23, h31, hdinv, hdinv, hwgt, hmm]
    rfl
  -- the scatter of the messages, the bias and the clamp
  funext i
  rw [val_main_v95_apply, val_main_v94_apply, val_main_call3_v0_apply, val_main_call3_cst_apply, val_main_v93_apply, val_main_v92_apply, Ideal.ofBits_def, Ideal.ofBits_zero_f32,
    idx1_eta (idx_main_v92 (idx_main_v93 i)) (i 1) rfl]
  unfold val_main_v91
  exact layer_read scatter_S50000x100_S850000x1_S850000x100_1_0_0_1_wf x1 x2 (val_main_v49 (F := Ideal) x0 x1 x2 x3 x4) x5 x6 _ _ _
    (fun j => by rw [val_main_v89_apply, val_main_cst_19_apply, Ideal.ofBits_def, Ideal.ofBits_zero_f32])
    (fun k => by rw [val_main_v90_apply, idx1_eta (idx_main_v90 (ix2 k (0 : Fin 1))) k rfl, hdst]) hmsg i

end GcnRef

end
-- ==== Proof.RefValue3.lean ====
/-
  Layer 3 of the reference program against the second spelling of the network: the program's operations from the
  matrix product to the clamp at zero, read index by index, are `layerL` of the layer's input features.
-/
import proofs.«110852_j50414326120717_2_alg».proof.Proof.RefReadP
import proofs.«110852_j50414326120717_2_alg».proof.Proof.RefValue0

noncomputable section

namespace GcnRef

open Cert.ReferenceIdeal.Read Cert.ReferenceIdeal Cert.ReferenceIdeal.Gen
open Idealize.ShloMosaic Idealize.ShloMosaic.ValueIdx Idealize.ShloMosaic.HostRead GcnSpec
open scoped BigOperators

/-- Layer 3: the clamped, biased scatter of the per-edge messages is the layer of the second spelling, applied to
    the previous layer's result and this layer's weight matrix and bias. -/
theorem ref_layer3 (x0 : Mat 50000 200) (x1 : Edges) (x2 : Arr 800000) (x3 : Mat 200 100) (x4 : Arr 100) (x5 : Mat 100 100) (x6 : Arr 100) (x7 : Mat 100 100) (x8 : Arr 100) :
    val_main_v141 (F := Ideal) x0 x1 x2 x3 x4 x5 x6 x7 x8 = layerL x1 x2 (val_main_v95 (F := Ideal) x0 x1 x2 x3 x4 x5 x6) x7 x8 := by
  -- the words and weights of the edge list with the self loops appended
  have hsrc : ∀ k : Fin 850000, val_main_v98 (F := Ideal) x1 (ix1 k) = srcL x1 k := fun k => by
    unfold val_main_v98
    exact srcL_read x1 _ (fun j => rfl) _ k
  have hdst : ∀ k : Fin 850000, val_main_v99 (F := Ideal) x1 (ix1 k) = dstL x1 k := fun k => by
    unfold val_main_v99
    exact dstL_read x1 _ (fun j => rfl) _ k
  have hwgt : ∀ k : Fin 850000, val_main_v101 (F := Ideal) x2 (ix1 k) = wgtL x2 k := fun k => by
    unfold val_main_v101
    refine wgtL_read x2 _ (fun j => ?_) _ k
    rw [val_main_v100_apply, val_main_cst_20_apply, Ideal.ofBits_def, ofBits_one_f32]
  -- the degree and the inverse root degree
  have hdeg : ∀ n : Fin 50000, val_main_v104 (F := Ideal) x1 x2 (ix1 n) = degL x1 x2 n := fun n => by
    unfold val_main_v104
    refine deg_read scatter_S50000_S850000x1_S850000_n_0_0_1_wf x1 x2 _ _ _ (fun m => ?_) (fun k => ?_) hwgt n
    · rw [val_main_v102_apply, val_main_cst_21_apply, Ideal.ofBits_def, Ideal.ofBits_zero_f32]
    · rw [val_main_v103_apply, idx1_eta (idx_main_v103 (ix2 k (0 : Fin 1))) k rfl, hdst]
  have hdinv : ∀ n : Fin 50000, val_main_v108 (F := Ideal) x1 x2 (ix1 n) = dinvL x1 x2 n := fun n => by
    rw [val_main_v108_apply, val_main_v106_apply, val_main_v107_apply]
    refine dinv_read x1 x2 n _ _ _ (hdeg n) ?_ ?_
    · rw [val_main_v105_apply, val_main_cst_22_apply, Ideal.ofBits_def, Ideal.ofBits_zero_f32]
    · rw [val_main_call4_v1_apply, val_main_call4_v0_apply, val_main_cst_23_apply, Ideal.ofBits_def, Ideal.ofBits_zero_f32]
  -- the wrapped index words the three gathers read
  have hw22 : ∀ k : Fin 850000, val_main_v114 (F := Ideal) x1 (ix2 k (0 : Fin 1)) = wrapW (srcL x1 k) := fun k => by
    rw [val_main_v114_apply, idx1_eta (idx_main_v114 (ix2 k (0 : Fin 1))) k rfl, val_main_v113_apply, val_main_v110_apply, val_main_v112_apply, val_main_v109_apply, val_main_c_24_apply,
      val_main_v111_apply, val_main_c_25_apply, hsrc, wrap_read]
  have hw30 : ∀ k : Fin 850000, val_main_v122 (F := Ideal) x1 (ix2 k (0 : Fin 1)) = wrapW (dstL x1 k) := fun k => by
    rw [val_main_v122_apply, idx1_eta (idx_main_v122 (ix2 k (0 : Fin 1))) k rfl, val_main_v121_apply, val_main_v118_apply, val_main_v120_apply, val_main_v117_apply, val_main_c_26_apply,
      val_main_v119_apply, val_main_c_27_apply, hdst, wrap_read]
  have hw38 : ∀ k : Fin 850000, val_main_v130 (F := Ideal) x1 (ix2 k (0 : Fin 1)) = wrapW (srcL x1 k) := fun k => by
    rw [val_main_v130_apply, idx1_eta (idx_main_v130 (ix2 k (0 : Fin 1))) k rfl, val_main_v129_apply, val_main_v126_apply, val_main_v128_apply, val_main_v125_apply, val_main_c_28_apply,
      val_main_v127_apply, val_main_c_29_apply, hsrc, wrap_read]
  -- the matrix product and the per-edge messages
  have hmm : val_main_v96 (F := Ideal) x0 x1 x2 x3 x4 x5 x6 x7 = mm (val_main_v95 (F := Ideal) x0 x1 x2 x3 x4 x5 x6) x7 := by
    funext i
    rw [val_main_v96_apply]
    exact mm_read (val_main_v95 (F := Ideal) x0 x1 x2 x3 x4 x5 x6) x7 i (lidx_main_v96 i) (ridx_main_v96 i) (fun _ => rfl) (fun _ => rfl) (fun _ => rfl) (fun _ => rfl)
  have hmsg : ∀ (k : Fin 850000) (f : Fin 100), val_main_v134 (F := Ideal) x0 x1 x2 x3 x4 x5 x6 x7 (ix2 k f)
      = mm (val_main_v95 (F := Ideal) x0 x1 x2 x3 x4 x5 x6) x7 (ix2 (node (srcL x1 k)) f)
          * ((dinvL x1 x2 (node (srcL x1 k)) * wgtL x2 k) * dinvL x1 x2 (node (dstL x1 k))) := fun k f => by
    have h39 : val_main_v131 (F := Ideal) x0 x1 x2 x3 x4 x5 x6 x7 (ix2 k f) = val_main_v96 (F := Ideal) x0 x1 x2 x3 x4 x5 x6 x7 (ix2 (node (srcL x1 k)) f) :=
      node_read2 gather_S50000x100_S850000x1_S850000x100_1_0_n_n_0_1_1100_wf _ _ k f _ (hw38 k)
    have h23 : val_main_v115 (F := Ideal) x1 x2 (ix1 k) = val_main_v108 (F := Ideal) x1 x2 (ix1 (node (srcL x1 k))) :=
      node_read1 gather_S50000_S850000x1_S850000_n_0_n_n_0_1_1_wf _ _ k _ (hw22 k)
    have h31 : val_main_v123 (F := Ideal) x1 x2 (ix1 k) = val_main_v108 (F := Ideal) x1 x2 (ix1 (node (dstL x1 k))) :=
      node_read1 gather_S50000_S850000x1_S850000_n_0_n_n_0_1_1_wf _ _ k _ (hw30 k)
    rw [val_main_v134_apply, val_main_v133_apply, idx2_eta (idx_main_v133 (ix2 k f)) k (0 : Fin 1) rfl rfl, val_main_v132_apply,
      idx1_eta (idx_main_v132 (ix2 k (0 : Fin 1))) k rfl, val_main_v124_apply, val_main_v116_apply, h39, h23, h31, hdinv, hdinv, hwgt, hmm]
    rfl
  -- the scatter of the messages, the bias and the clamp
  funext i
  rw [val_main_v141_apply, val_main_v140_apply, val_main_call5_v0_apply, val_main_call5_cst_apply, val_main_v139_apply, val_main_v138_apply, Ideal.ofBits_def, Ideal.ofBits_zero_f32,
    idx1_eta (idx_main_v138 (idx_main_v139 i)) (i 1) rfl]
  unfold val_main_v137
  exact layer_read scatter_S50000x100_S850000x1_S850000x100_1_0_0_1_wf x1 x2 (val_main_v95 (F := Ideal) x0 x1 x2 x3 x4 x5 x6) x7 x8 _ _ _
    (fun j => by rw [val_main_v135_apply, val_main_cst_30_apply, Ideal.ofBits_def, Ideal.ofBits_zero_f32])
    (fun k => by rw [val_main_v136_apply, idx1_eta (idx_main_v136 (ix2 k (0 : Fin 1))) k rfl, hdst]) hmsg i

end GcnRef

end
-- ==== Proof.RefValueH.lean ====
/-
  The head of the reference program against the network's `head`: three matrix products with their biases (the
  first two clamped at zero) and the row-wise log-softmax — the row maximum by a maximum-reduce from minus infinity,
  the row's sum of exponentials by an add-reduce from zero.
-/
import proofs.«110852_j50414326120717_2_alg».proof.Proof.RefReadP
import proofs.«110852_j50414326120717_2_alg».proof.Proof.RefGlue

set_option maxRecDepth 16384

noncomputable section

namespace GcnRef

open Cert.ReferenceIdeal.Read Cert.ReferenceIdeal Cert.ReferenceIdeal.Gen
open Idealize.ShloMosaic Idealize.ShloMosaic.ValueIdx Idealize.ShloMosaic.HostRead GcnSpec
open scoped BigOperators

/-- The index a reduction over the 11 columns inserts: row `p`, column `f`. -/
theorem lift11_eq (hr : S50000x11.Reduces [1] S50000) (p : Fin 50000) (f : Fin 11) :
    hr.lift (ix1 p) f = ix2 p f := by
  funext a
  apply Fin.ext
  match a with
  | ⟨0, _⟩ => rfl
  | ⟨1, _⟩ => rfl

/-- The maximum-reduce of a matrix's rows from minus infinity is the row maximum. -/
theorem rowMax_read (z : Mat 50000 11) (init : S_.Idx → EReal) (hi : ∀ j, init j = (⊥ : EReal))
    (h' : S50000x11.ReducesTo [1] S50000) (hu : 0 < S_.numel) (p : Fin 50000) :
    Host.reduce (FloatOps.maximumf (F := Ideal) (φ := .f32)) z init h' hu (ix1 p) = rowMax z p := by
  have hr : S50000x11.Reduces [1] S50000 := by decide
  rw [Host.reduce_eq_fold_single (FloatOps.maximumf (F := Ideal) (φ := .f32)) z init h' hr hu, hi]
  unfold rowMax
  have hfun : (z ∘ hr.lift (ix1 p)) = fun f : Fin 11 => z (ix2 p f) := by
    funext f
    exact congrArg z (lift11_eq hr p f)
  rw [hfun]
  rfl

/-- The head: products, biases, clamps and the log-softmax of the third layer's result. -/
theorem ref_head (x0 : Mat 50000 200) (x1 : Edges) (x2 : Arr 800000) (x3 : Mat 200 100) (x4 : Arr 100) (x5 : Mat 100 100) (x6 : Arr 100) (x7 : Mat 100 100) (x8 : Arr 100) (x9 : Mat 100 50) (x10 : Arr 50) (x11 : Mat 50 50) (x12 : Arr 50) (x13 : Mat 50 11) (x14 : Arr 11) :
    val_main_v156 (F := Ideal) x0 x1 x2 x3 x4 x5 x6 x7 x8 x9 x10 x11 x12 x13 x14
      = head (val_main_v141 (F := Ideal) x0 x1 x2 x3 x4 x5 x6 x7 x8) x9 x10 x11 x12 x13 x14 := by
  -- the perceptron
  have hmm1 : val_main_v142 (F := Ideal) x0 x1 x2 x3 x4 x5 x6 x7 x8 x9 = mm (val_main_v141 (F := Ideal) x0 x1 x2 x3 x4 x5 x6 x7 x8) x9 := by
    funext i
    rw [val_main_v142_apply]
    exact mm_read (val_main_v141 (F := Ideal) x0 x1 x2 x3 x4 x5 x6 x7 x8) x9 i (lidx_main_v142 i) (ridx_main_v142 i) (fun _ => rfl) (fun _ => rfl) (fun _ => rfl) (fun _ => rfl)
  have h146 : val_main_v146 (F := Ideal) x0 x1 x2 x3 x4 x5 x6 x7 x8 x9 x10 = (biasRelu (mm (val_main_v141 (F := Ideal) x0 x1 x2 x3 x4 x5 x6 x7 x8) x9) x10) := by
    funext i
    rw [val_main_v146_apply, val_main_v145_apply, val_main_call6_v0_apply, val_main_call6_cst_apply, val_main_v144_apply,
      val_main_v143_apply, Ideal.ofBits_def, Ideal.ofBits_zero_f32, idx1_eta (idx_main_v143 (idx_main_v144 i)) (i 1) rfl, hmm1]
    rfl
  have hmm2 : val_main_v147 (F := Ideal) x0 x1 x2 x3 x4 x5 x6 x7 x8 x9 x10 x11 = mm (biasRelu (mm (val_main_v141 (F := Ideal) x0 x1 x2 x3 x4 x5 x6 x7 x8) x9) x10) x11 := by
    funext i
    rw [val_main_v147_apply, h146]
    exact mm_read (biasRelu (mm (val_main_v141 (F := Ideal) x0 x1 x2 x3 x4 x5 x6 x7 x8) x9) x10) x11 i (lidx_main_v147 i) (ridx_main_v147 i) (fun _ => rfl) (fun _ => rfl) (fun _ => rfl) (fun _ => rfl)
  have h151 : val_main_v151 (F := Ideal) x0 x1 x2 x3 x4 x5 x6 x7 x8 x9 x10 x11 x12 = (biasRelu (mm (biasRelu (mm (val_main_v141 (F := Ideal) x0 x1 x2 x3 x4 x5 x6 x7 x8) x9) x10) x11) x12) := by
    funext i
    rw [val_main_v151_apply, val_main_v150_apply, val_main_call7_v0_apply, val_main_call7_cst_apply, val_main_v149_apply,
      val_main_v148_apply, Ideal.ofBits_def, Ideal.ofBits_zero_f32, idx1_eta (idx_main_v148 (idx_main_v149 i)) (i 1) rfl, hmm2]
    rfl
  have hmm3 : val_main_v152 (F := Ideal) x0 x1 x2 x3 x4 x5 x6 x7 x8 x9 x10 x11 x12 x13 = mm (biasRelu (mm (biasRelu (mm (val_main_v141 (F := Ideal) x0 x1 x2 x3 x4 x5 x6 x7 x8) x9) x10) x11) x12) x13 := by
    funext i
    rw [val_main_v152_apply, h151]
    exact mm_read (biasRelu (mm (biasRelu (mm (val_main_v141 (F := Ideal) x0 x1 x2 x3 x4 x5 x6 x7 x8) x9) x10) x11) x12) x13 i (lidx_main_v152 i) (ridx_main_v152 i) (fun _ => rfl) (fun _ => rfl) (fun _ => rfl) (fun _ => rfl)
  have h155 : val_main_v155 (F := Ideal) x0 x1 x2 x3 x4 x5 x6 x7 x8 x9 x10 x11 x12 x13 x14 = (bias (mm (biasRelu (mm (biasRelu (mm (val_main_v141 (F := Ideal) x0 x1 x2 x3 x4 x5 x6 x7 x8) x9) x10) x11) x12) x13) x14) := by
    funext i
    rw [val_main_v155_apply, val_main_v154_apply, val_main_v153_apply, idx1_eta (idx_main_v153 (idx_main_v154 i)) (i 1) rfl, hmm3]
    rfl
  -- the row maximum and the shifted logits
  have hmax : ∀ p : Fin 50000, val_main_call8_v2 (F := Ideal) x0 x1 x2 x3 x4 x5 x6 x7 x8 x9 x10 x11 x12 x13 x14 (ix1 p) = rowMax (val_main_v155 (F := Ideal) x0 x1 x2 x3 x4 x5 x6 x7 x8 x9 x10 x11 x12 x13 x14) p := fun p => by
    rw [val_main_call8_v2_apply, val_main_call8_v1_apply, val_main_call8_cst_0_apply, Ideal.ofBits_def, ofBits_neg_inf]
    unfold val_main_call8_v0
    rw [rowMax_read (val_main_v155 (F := Ideal) x0 x1 x2 x3 x4 x5 x6 x7 x8 x9 x10 x11 x12 x13 x14) _ (fun j => by rw [val_main_call8_cst_apply, Ideal.ofBits_def, ofBits_neg_inf]) _ _ p]
    exact max_bot_left _
  have h5 : ∀ (p : Fin 50000) (f : Fin 11), val_main_call8_v5 (F := Ideal) x0 x1 x2 x3 x4 x5 x6 x7 x8 x9 x10 x11 x12 x13 x14 (ix2 p f)
      = (val_main_v155 (F := Ideal) x0 x1 x2 x3 x4 x5 x6 x7 x8 x9 x10 x11 x12 x13 x14) (ix2 p f) - rowMax (val_main_v155 (F := Ideal) x0 x1 x2 x3 x4 x5 x6 x7 x8 x9 x10 x11 x12 x13 x14) p := fun p f => by
    rw [val_main_call8_v5_apply, val_main_call8_v4_apply, idx2_eta (idx_main_call8_v4 (ix2 p f)) p (0 : Fin 1) rfl rfl,
      val_main_call8_v3_apply, idx1_eta (idx_main_call8_v3 (ix2 p (0 : Fin 1))) p rfl, hmax]
    rfl
  -- the log-softmax
  funext i
  obtain ⟨p, q, rfl⟩ : ∃ (p : Fin 50000) (q : Fin 11), i = ix2 p q := ⟨i 0, i 1, eq_ix2 i⟩
  have hs : ∀ k : Fin 11, val_main_call8_v6 (F := Ideal) x0 x1 x2 x3 x4 x5 x6 x7 x8 x9 x10 x11 x12 x13 x14 (idx_main_call8_v7 (ix1 p) k)
      = Ideal.exp ((val_main_v155 (F := Ideal) x0 x1 x2 x3 x4 x5 x6 x7 x8 x9 x10 x11 x12 x13 x14) (ix2 p k) - rowMax (val_main_v155 (F := Ideal) x0 x1 x2 x3 x4 x5 x6 x7 x8 x9 x10 x11 x12 x13 x14) p) := fun k => by
    rw [idx2_eta (idx_main_call8_v7 (ix1 p) k) p k rfl rfl, val_main_call8_v6_apply, h5, Ideal.hostUnary_exp_def]
  rw [val_main_v156_apply, h5, val_main_call8_v10_apply, idx2_eta (idx_main_call8_v10 (ix2 p q)) p (0 : Fin 1) rfl rfl,
    val_main_call8_v9_apply, val_main_call8_v8_apply, idx1_eta (idx_main_call8_v8 (ix2 p (0 : Fin 1))) p rfl,
    val_main_call8_v7_apply, val_main_call8_cst_1_apply, Ideal.ofBits_def, Ideal.ofBits_zero_f32, zero_add,
    Finset.sum_congr rfl (fun k _ => hs k)]
  rw [Ideal.hostUnary_log_def, Ideal.subf_def]
  unfold head
  rw [← h155]
  rfl

end GcnRef

end
-- ==== Proof.RefValue.lean ====
/-
  The reference program's result is the network in its second spelling: the three layers and the head, chained.
-/
import proofs.«110852_j50414326120717_2_alg».proof.Proof.RefValue1
import proofs.«110852_j50414326120717_2_alg».proof.Proof.RefValue2
import proofs.«110852_j50414326120717_2_alg».proof.Proof.RefValue3
import proofs.«110852_j50414326120717_2_alg».proof.Proof.RefValueH

noncomputable section

namespace GcnRef

open Cert.ReferenceIdeal.Read Idealize.ShloMosaic GcnSpec

/-- The value the reference program returns, as a function of its fifteen arguments, is `refnet` of them. -/
theorem ref_value (x0 : Mat 50000 200) (x1 : Edges) (x2 : Arr 800000) (x3 : Mat 200 100) (x4 : Arr 100) (x5 : Mat 100 100) (x6 : Arr 100) (x7 : Mat 100 100) (x8 : Arr 100) (x9 : Mat 100 50) (x10 : Arr 50) (x11 : Mat 50 50) (x12 : Arr 50) (x13 : Mat 50 11) (x14 : Arr 11) :
    val_main_v156 (F := Ideal) x0 x1 x2 x3 x4 x5 x6 x7 x8 x9 x10 x11 x12 x13 x14
      = refnet x0 x1 x2 x3 x4 x5 x6 x7 x8 x9 x10 x11 x12 x13 x14 := by
  rw [ref_head, ref_layer3, ref_layer2, ref_layer1]
  rfl

end GcnRef

end
-- ==== Proof.Bridge.lean ====
/-
  The two idealized programs compute one function. The kernel program's result buffer ends at the network
  written with the degree as edge sum plus one and the features scaled by the inverse root degree before and
  after the edge sum; the reference's ends at the network written with the self loops appended to the edge
  list and every message scaled per edge. The two spellings agree on all inputs: the inverse root degree
  is always a nonnegative real, so it distributes over the edge sum, the self-loop edges contribute exactly
  the dense term dinv² · h, and an edge landing on a node reads that node's inverse root degree. From memories
  that agree on the arguments the two runs therefore end with equal results.
-/
import proofs.«110852_j50414326120717_2_alg».proof.Defs
import proofs.«110852_j50414326120717_2_alg».proof.Proof.Gen.Pre_finite_inputs
import proofs.«110852_j50414326120717_2_alg».proof.Proof.Gen.KernelIdeal
import proofs.«110852_j50414326120717_2_alg».proof.Proof.Gen.ReferenceIdeal
import proofs.«110852_j50414326120717_2_alg».proof.Proof.KRun
import proofs.«110852_j50414326120717_2_alg».proof.Proof.KEntry
import proofs.«110852_j50414326120717_2_alg».proof.Proof.KNet
import proofs.«110852_j50414326120717_2_alg».proof.Proof.RefRunP
import proofs.«110852_j50414326120717_2_alg».proof.Proof.RefRunEq
import proofs.«110852_j50414326120717_2_alg».proof.Proof.RefValue
import proofs.«110852_j50414326120717_2_alg».proof.Proof.SpecEq

set_option maxRecDepth 16384

noncomputable section

namespace Cert.Proof.Bridge

open Idealize.ShloMosaic Idealize.ShloMosaic.TcCoe Idealize.SL.Sem

/-- From memories agreeing on the arguments both idealized programs run and end with the same result, the
    network of the launched arguments. -/
theorem algebraic : Cert.algebraic_KernelIdeal_ReferenceIdeal := by
  intro m ρ m' ρ' _ hagree
  refine ⟨fun c => GcnSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans ((Cert.KernelIdeal.KVal.W10_v62 m ρ c).trans (Cert.KernelIdeal.KVal.kOut_eq_net m c)), (h c).2⟩)
      (Cert.KernelIdeal.KVal.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.RefValue.res_eq_val, h0, h1, h2, h3, h4, h5, h6, h7, h8, h9, h10, h11, h12, h13, h14]
    exact (GcnRef.ref_value _ _ _ _ _ _ _ _ _ _ _ _ _ _ _).trans (GcnSpec.refnet_eq_net _ _ _ _ _ _ _ _ _ _ _ _ _ _ _)

end Cert.Proof.Bridge

end
-- ==== Proof.lean ====
/-
  A three-layer graph convolution network with a perceptron head and a row-wise log-softmax, computed two
  ways: by four fused TPU kernel regions with the edge gather and scatter-add on the host between them, and
  by a plain array program that appends the self loops to the edge list. The claim: both idealized programs
  run to completion leaving their arguments unchanged, and from memories agreeing on the arguments they end
  with the same result.

  The three frames: the kernel programs' are the generated frame theorems; the reference's is its run with
  the result forgotten. The idealization rewrote nothing, so that conjunct is trivial. The equality of the two
  results is `Cert.Proof.Bridge.algebraic`: each program's result buffer is read back to one closed form of
  the network over the extended reals, and the two closed forms are equal because the inverse root degree is
  a nonnegative real (it distributes over the edge sum) and the appended self loops contribute exactly the
  dense self term.
-/
import proofs.«110852_j50414326120717_2_alg».proof.Defs
import proofs.«110852_j50414326120717_2_alg».proof.Proof.Gen.Kernel
import proofs.«110852_j50414326120717_2_alg».proof.Proof.Gen.Kernel.Skeleton
import proofs.«110852_j50414326120717_2_alg».proof.Proof.Gen.Kernel.Launch
import proofs.«110852_j50414326120717_2_alg».proof.Proof.Gen.Kernel.Points
import proofs.«110852_j50414326120717_2_alg».proof.Proof.Gen.Kernel.Frame
import proofs.«110852_j50414326120717_2_alg».proof.Proof.Gen.KernelIdeal
import proofs.«110852_j50414326120717_2_alg».proof.Proof.Gen.KernelIdeal.Skeleton
import proofs.«110852_j50414326120717_2_alg».proof.Proof.Gen.KernelIdeal.Launch
import proofs.«110852_j50414326120717_2_alg».proof.Proof.Gen.KernelIdeal.Points
import proofs.«110852_j50414326120717_2_alg».proof.Proof.Gen.KernelIdeal.Frame
import proofs.«110852_j50414326120717_2_alg».proof.Proof.Gen.ReferenceIdeal
import proofs.«110852_j50414326120717_2_alg».proof.Proof.Gen.Pre_finite_inputs
import proofs.«110852_j50414326120717_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Bridge.algebraic⟩

end Cert.Proof

end
